-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S5000x1280 : Shape := ⟨2, ![5000, 1280]⟩
abbrev S2000000 : Shape := ⟨1, ![2000000]⟩
abbrev S1024x64 : Shape := ⟨2, ![1024, 64]⟩
abbrev S64 : Shape := ⟨1, ![64]⟩
abbrev S1280x64 : Shape := ⟨2, ![1280, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S5000x1280 : S_.BroadcastsInDim S5000x1280 (![] : Fin 0 → Fin S5000x1280.rank)
  reducesTo_S5000x1280_S_d0_1 : S5000x1280.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S1280x64 : S_.BroadcastsInDim S1280x64 (![] : Fin 0 → Fin S1280x64.rank)
  reducesTo_S1280x64_S_d0_1 : S1280x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S32x1 .f32 := Host.absf main_arg18
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg15 : FVec F S3x64x64 .f32) (main_arg16 : FVec F S64x32 .f32) (main_arg17 : FVec F S32 .f32) (main_arg18 : FVec F S32x1 .f32) (main_arg19 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64x64 .f32 := Host.absf main_arg15
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S64x32 .f32 := Host.absf main_arg16
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg17
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg18 main_arg19 main_v63 main_v67

def fn_part2 {F : FTy → Type} [FloatOps F] (main_arg11 : FVec F S3x64 .f32) (main_arg12 : FVec F S3x64x64 .f32) (main_arg13 : FVec F S3x64x64 .f32) (main_arg14 : FVec F S3x64 .f32) (main_arg15 : FVec F S3x64x64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S3x64 .f32 := Host.absf main_arg11
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg12
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64x64 .f32 := Host.absf main_arg13
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg14
  let main_cst_18 : FVec F S_ .f32 := constant S_ .f32 0x7F800000#32
  let main_v50 : FVec F S3x64 .f32 := broadcastInDim S3x64 ![] bcast_S_S3x64 main_cst_18
  fn_part3 (F := F) main_arg15 main_arg16 main_arg17 main_arg18 main_arg19 main_v48 main_v49 main_v50

def fn_part1 {F : FTy → Type} [FloatOps F] (main_arg8 : FVec F S1280x64 .f32) (main_arg9 : FVec F S64 .f32) (main_arg10 : FVec F S3x64x64 .f32) (main_arg11 : FVec F S3x64 .f32) (main_arg12 : FVec F S3x64x64 .f32) (main_arg13 : FVec F S3x64x64 .f32) (main_arg14 : FVec F S3x64 .f32) (main_arg15 : FVec F S3x64x64 .f32) (main_arg16 : FVec F S64x32 .f32) (main_arg17 : FVec F S32 .f32) (main_arg18 : FVec F S32x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1280x64 .f32 := Host.absf main_arg8
  let main_cst_6 : FVec F S_ .f32 := constant S_ .f32 0x7F800000#32
  let main_v20 : FVec F S1280x64 .f32 := broadcastInDim S1280x64 ![] bcast_S_S1280x64 main_cst_6
  let main_v21 : IVec S1280x64 1 := cmpf .olt main_v19 main_v20
  let main_c_7 : IVec S_ 1 := constantI S_ 1 1#1
  let main_v22 : IVec S_ 1 := (fun x v => Host.reduce IntOp.andi x v reducesTo_S1280x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg10
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S100000x1024 .f32) (main_arg1 : FVec F S5000x1280 .f32) (main_arg2 : IVec S2000000 32) (main_arg3 : IVec S2000000 32) (main_arg4 : IVec S2000000 32) (main_arg5 : IVec S2000000 32) (main_arg6 : FVec F S1024x64 .f32) (main_arg7 : FVec F S64 .f32) (main_arg8 : FVec F S1280x64 .f32) (main_arg9 : FVec F S64 .f32) (main_arg10 : FVec F S3x64x64 .f32) (main_arg11 : FVec F S3x64 .f32) (main_arg12 : FVec F S3x64x64 .f32) (main_arg13 : FVec F S3x64x64 .f32) (main_arg14 : FVec F S3x64 .f32) (main_arg15 : FVec F S3x64x64 .f32) (main_arg16 : FVec F S64x32 .f32) (main_arg17 : FVec F S32 .f32) (main_arg18 : FVec F S32x1 .f32) (main_arg19 : FVec F S1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S5000x1280 .f32 := Host.absf main_arg1
  let main_cst_0 : FVec F S_ .f32 := constant S_ .f32 0x7F800000#32
  let main_v5 : FVec F S5000x1280 .f32 := broadcastInDim S5000x1280 ![] bcast_S_S5000x1280 main_cst_0
  let main_v6 : IVec S5000x1280 1 := cmpf .olt main_v4 main_v5
  let main_c_1 : IVec S_ 1 := constantI S_ 1 1#1
  let main_v7 : IVec S_ 1 := (fun x v => Host.reduce IntOp.andi x v reducesTo_S5000x1280_S_d0_1 h_S_) main_v6 main_c_1
  let main_v8 : IVec S_ 1 := andi main_v3 main_v7
  let main_v9 : FVec F S1024x64 .f32 := Host.absf main_arg6
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S100000x1024 : Shape := ⟨2, ![100000, 1024]⟩
abbrev S5000x1280 : Shape := ⟨2, ![5000, 1280]⟩
abbrev S2000000 : Shape := ⟨1, ![2000000]⟩
abbrev S1024x64 : Shape := ⟨2, ![1024, 64]⟩
abbrev S64 : Shape := ⟨1, ![64]⟩
abbrev S1280x64 : Shape := ⟨2, ![1280, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S100000x64 : Shape := ⟨2, ![100000, 64]⟩
abbrev S2000x1024 : Shape := ⟨2, ![2000, 1024]⟩
abbrev S2000x64 : Shape := ⟨2, ![2000, 64]⟩
abbrev S5000x64 : Shape := ⟨2, ![5000, 64]⟩
abbrev S1000x1280 : Shape := ⟨2, ![1000, 1280]⟩
abbrev S1000x64 : Shape := ⟨2, ![1000, 64]⟩
abbrev S_ : Shape := ⟨0, ![]⟩
abbrev S5000 : Shape := ⟨1, ![5000]⟩
abbrev S2000000x1 : Shape := ⟨2, ![2000000, 1]⟩
abbrev S5000x1 : Shape := ⟨2, ![5000, 1]⟩
abbrev S100000 : Shape := ⟨1, ![100000]⟩
abbrev S100000x1 : Shape := ⟨2, ![100000, 1]⟩
abbrev S2000000x64 : Shape := ⟨2, ![2000000, 64]⟩
abbrev S1x64x64 : Shape := ⟨3, ![1, 64, 64]⟩
abbrev S64x64 : Shape := ⟨2, ![64, 64]⟩
abbrev S1000x1 : Shape := ⟨2, ![1000, 1]⟩
abbrev S2000x1 : Shape := ⟨2, ![2000, 1]⟩
abbrev S1x32 : Shape := ⟨2, ![1, 32]⟩
abbrev S1x1 : Shape := ⟨2, ![1, 1]⟩
abbrev S2000x32 : Shape := ⟨2, ![2000, 32]⟩

abbrev nBuf : Space → Nat
  | .hbm => 157
  | .vmem => 71
  | .smem => 0
  | _ => 0

abbrev hbmTy0_0 (i : Nat) : BufTy := match i % 128 with
  | 0 => ⟨S100000x1024, .f32⟩
  | 1 => ⟨S5000x1280, .f32⟩
  | 2 => ⟨S2000000, .i32⟩
  | 3 => ⟨S2000000, .i32⟩
  | 4 => ⟨S2000000, .i32⟩
  | 5 => ⟨S2000000, .i32⟩
  | 6 => ⟨S1024x64, .f32⟩
  | 7 => ⟨S64, .f32⟩
  | 8 => ⟨S1280x64, .f32⟩
  | 9 => ⟨S64, .f32⟩
  | 10 => ⟨S3x64x64, .f32⟩
  | 11 => ⟨S3x64, .f32⟩
  | 12 => ⟨S3x64x64, .f32⟩
  | 13 => ⟨S3x64x64, .f32⟩
  | 14 => ⟨S3x64, .f32⟩
  | 15 => ⟨S3x64x64, .f32⟩
  | 16 => ⟨S64x32, .f32⟩
  | 17 => ⟨S32, .f32⟩
  | 18 => ⟨S32x1, .f32⟩
  | 19 => ⟨S1, .f32⟩
  | 20 => ⟨S1x64, .f32⟩
  | 21 => ⟨S100000x64, .f32⟩
  | 22 => ⟨S1x64, .f32⟩
  | 23 => ⟨S5000x64, .f32⟩
  | 24 => ⟨S_, .f32⟩
  | 25 => ⟨S2000000, .f32⟩
  | 26 => ⟨S_, .f32⟩
  | 27 => ⟨S5000, .f32⟩
  | 28 => ⟨S2000000x1, .i32⟩
  | 29 => ⟨S5000, .f32⟩
  | 30 => ⟨S_, .f32⟩
  | 31 => ⟨S5000, .f32⟩
  | 32 => ⟨S5000, .f32⟩
  | 33 => ⟨S_, .f32⟩
  | 34 => ⟨S5000, .f32⟩
  | 35 => ⟨S5000, .f32⟩
  | 36 => ⟨S5000x1, .f32⟩
  | 37 => ⟨S_, .f32⟩
  | 38 => ⟨S2000000, .f32⟩
  | 39 => ⟨S_, .f32⟩
  | 40 => ⟨S100000, .f32⟩
  | 41 => ⟨S2000000x1, .i32⟩
  | 42 => ⟨S100000, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .f32⟩
  | 49 => ⟨S100000x1, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x64, .f32⟩
  | 59 => ⟨S_, .f32⟩
  | 60 => ⟨S5000x64, .f32⟩
  | 61 => ⟨S2000000x1, .i32⟩
  | 62 => ⟨S5000x64, .f32⟩
  | 63 => ⟨S1x64x64, .f32⟩
  | 64 => ⟨S64x64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S5000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S_, .f32⟩
  | 81 => ⟨S100000x64, .f32⟩
  | 82 => ⟨S2000000x1, .i32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S100000x64, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x64, .f32⟩
  | 101 => ⟨S_, .f32⟩
  | 102 => ⟨S5000x64, .f32⟩
  | 103 => ⟨S2000000x1, .i32⟩
  | 104 => ⟨S5000x64, .f32⟩
  | 105 => ⟨S1x64x64, .f32⟩
  | 106 => ⟨S64x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S5000x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S_, .f32⟩
  | 123 => ⟨S100000x64, .f32⟩
  | 124 => ⟨S2000000x1, .i32⟩
  | 125 => ⟨S100000x64, .f32⟩
  | 126 => ⟨S1x64x64, .f32⟩
  | 127 => ⟨S64x64, .f32⟩
  | _ => ⟨S100000x1024, .f32⟩

abbrev hbmTy0_1 (i : Nat) : BufTy := match i % 128 with
  | 0 => ⟨S1x64, .f32⟩
  | 1 => ⟨S64, .f32⟩
  | 2 => ⟨S1x64x64, .f32⟩
  | 3 => ⟨S64x64, .f32⟩
  | 4 => ⟨S1x64, .f32⟩
  | 5 => ⟨S100000x64, .f32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000x64, .f32⟩
  | 15 => ⟨S_, .f32⟩
  | 16 => ⟨S100000x64, .f32⟩
  | 17 => ⟨S2000000x1, .i32⟩
  | 18 => ⟨S100000x64, .f32⟩
  | 19 => ⟨S1x64x64, .f32⟩
  | 20 => ⟨S64x64, .f32⟩
  | 21 => ⟨S1x64, .f32⟩
  | 22 => ⟨S64, .f32⟩
  | 23 => ⟨S1x64x64, .f32⟩
  | 24 => ⟨S64x64, .f32⟩
  | 25 => ⟨S1x64, .f32⟩
  | 26 => ⟨S1x32, .f32⟩
  | 27 => ⟨S1x1, .f32⟩
  | 28 => ⟨S100000x1, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S1000x1280, .f32⟩
  | .local _ .vmem, ⟨7, _⟩ => ⟨S1000x1280, .f32⟩
  | .local _ .vmem, ⟨8, _⟩ => ⟨S1280x64, .f32⟩
  | .local _ .vmem, ⟨9, _⟩ => ⟨S1x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S1000x64, .f32⟩
  | .local _ .vmem, ⟨14, _⟩ => ⟨S1000x1, .f32⟩
  | .local _ .vmem, ⟨15, _⟩ => ⟨S1000x1, .f32⟩
  | .local _ .vmem, ⟨16, _⟩ => ⟨S1000x64, .f32⟩
  | .local _ .vmem, ⟨17, _⟩ => ⟨S1000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1000x64, .f32⟩
  | .local _ .vmem, ⟨22, _⟩ => ⟨S1000x64, .f32⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S2000x64, .f32⟩
  | .local _ .vmem, ⟨28, _⟩ => ⟨S2000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S2000x64, .f32⟩
  | .local _ .vmem, ⟨33, _⟩ => ⟨S2000x64, .f32⟩
  | .local _ .vmem, ⟨34, _⟩ => ⟨S1000x64, .f32⟩
  | .local _ .vmem, ⟨35, _⟩ => ⟨S1000x64, .f32⟩
  | .local _ .vmem, ⟨36, _⟩ => ⟨S1000x1, .f32⟩
  | .local _ .vmem, ⟨37, _⟩ => ⟨S1000x1, .f32⟩
  | .local _ .vmem, ⟨38, _⟩ => ⟨S1000x64, .f32⟩
  | .local _ .vmem, ⟨39, _⟩ => ⟨S1000x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S1000x64, .f32⟩
  | .local _ .vmem, ⟨44, _⟩ => ⟨S1000x64, .f32⟩
  | .local _ .vmem, ⟨45, _⟩ => ⟨S2000x64, .f32⟩
  | .local _ .vmem, ⟨46, _⟩ => ⟨S2000x64, .f32⟩
  | .local _ .vmem, ⟨47, _⟩ => ⟨S2000x1, .f32⟩
  | .local _ .vmem, ⟨48, _⟩ => ⟨S2000x1, .f32⟩
  | .local _ .vmem, ⟨49, _⟩ => ⟨S2000x64, .f32⟩
  | .local _ .vmem, ⟨50, _⟩ => ⟨S2000x64, .f32⟩
  | .local _ .vmem, ⟨51, _⟩ => ⟨S64x64, .f32⟩
  | .local _ .vmem, ⟨52, _⟩ => ⟨S1x64, .f32⟩
  | .local _ .vmem, ⟨53, _⟩ => ⟨S64x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x1, .f32⟩
  | .local _ .vmem, ⟨59, _⟩ => ⟨S2000x1, .f32⟩
  | .local _ .vmem, ⟨60, _⟩ => ⟨S2000x64, .f32⟩
  | .local _ .vmem, ⟨61, _⟩ => ⟨S2000x64, .f32⟩
  | .local _ .vmem, ⟨62, _⟩ => ⟨S64x64, .f32⟩
  | .local _ .vmem, ⟨63, _⟩ => ⟨S1x64, .f32⟩
  | .local _ .vmem, ⟨64, _⟩ => ⟨S64x64, .f32⟩
  | .local _ .vmem, ⟨65, _⟩ => ⟨S64x32, .f32⟩
  | .local _ .vmem, ⟨66, _⟩ => ⟨S1x32, .f32⟩
  | .local _ .vmem, ⟨67, _⟩ => ⟨S32x1, .f32⟩
  | .local _ .vmem, ⟨68, _⟩ => ⟨S1x1, .f32⟩
  | .local _ .vmem, ⟨69, _⟩ => ⟨S2000x1, .f32⟩
  | .local _ .vmem, ⟨70, _⟩ => ⟨S2000x1, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_v22 : Ref sig .tc := ⟨.hbm, 51, rfl⟩
abbrev main_v23 : Ref sig .tc := ⟨.hbm, 52, rfl⟩
abbrev main_c_7 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_12 : Ref sig .tc := ⟨.hbm, 92, rfl⟩
abbrev main_v58 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_15 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_18 : Ref sig .tc := ⟨.hbm, 134, rfl⟩
abbrev main_v94 : Ref sig .tc := ⟨.hbm, 135, rfl⟩
abbrev main_v95 : Ref sig .tc := ⟨.hbm, 136, rfl⟩
abbrev main_c_19 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg8_0 : Ref sig .tc := ⟨.vmem, 67, rfl⟩
abbrev cc6_stg9_0 : Ref sig .tc := ⟨.vmem, 68, rfl⟩
abbrev cc6_stg10_0 : Ref sig .tc := ⟨.vmem, 69, rfl⟩
abbrev cc6_stg10_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem8_0 : DmaSem sig := 67
abbrev cc6_sem9_0 : DmaSem sig := 68
abbrev cc6_sem10_0 : DmaSem sig := 69
abbrev cc6_sem10_1 : DmaSem sig := 70

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S32x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S2000x1 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

class Facts₀ : Prop where
  shapeCasts_S64_S1x64 : S64.ShapeCasts S1x64
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S1000x1280_S1000x1280_0_0 : ∀ a, (![0, 0] : Fin 2 → Nat) a + S1000x1280.size a ≤ S1000x1280.size a
  h_S1000x1280 : 0 < S1000x1280.numel
  inb_S1280x64_S1280x64_0_0 : ∀ a, (![0, 0] : Fin 2 → Nat) a + S1280x64.size a ≤ S1280x64.size a
  h_S1280x64 : 0 < S1280x64.numel
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S_S2000000 : S_.BroadcastsInDim S2000000 (![] : Fin 0 → Fin S2000000.rank)
  bcast_S_S5000 : S_.BroadcastsInDim S5000 (![] : Fin 0 → Fin S5000.rank)
  bcast_S2000000_S2000000x1_0 : S2000000.BroadcastsInDim S2000000x1 (![0] : Fin 1 → Fin S2000000x1.rank)
  bcast_S5000_S5000x1_0 : S5000.BroadcastsInDim S5000x1 (![0] : Fin 1 → Fin S5000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S5000x64 : S_.BroadcastsInDim S5000x64 (![] : Fin 0 → Fin S5000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S2000x1024_S1024x64_S2000x64_1_0_0_1_n_n_wf : DotDims.WF S2000x1024 S1024x64 S2000x64 [1] [0] [0] [1] [] []
  dot_S1000x1280_S1280x64_S1000x64_1_0_0_1_n_n_wf : DotDims.WF S1000x1280 S1280x64 S1000x64 [1] [0] [0] [1] [] []
  scatter_S5000_S2000000x1_S2000000_n_0_0_1_wf : ScatterDims.WF S5000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S5000x64_S2000000x1_S2000000x64_1_0_0_1_wf : ScatterDims.WF S5000x64 S2000000x1 S2000000x64 [1] [0] [0] 1
  dot_S1000x64_S64x64_S1000x64_1_0_0_1_n_n_wf : DotDims.WF S1000x64 S64x64 S1000x64 [1] [0] [0] [1] [] []
  gather_S5000x64_S2000000x1_S2000000x64_1_0_n_n_0_1_164_wf : GatherDims.WF S5000x64 S2000000x1 S2000000x64 [1] [0] [] [0] [] 1 ![1, 64]
  scatter_S100000x64_S2000000x1_S2000000x64_1_0_0_1_wf : ScatterDims.WF S100000x64 S2000000x1 S2000000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1280.size a ≤ S5000x1280.size a
  hwx1_0 : ∀ i : grid1.Coords, EltTy.bits .f32 = 32 ∨ (Rect.block (s := S5000x1280) S1000x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x64.size a ≤ S1280x64.size a
  hwx1_1 : ∀ i : grid1.Coords, EltTy.bits .f32 = 32 ∨ (Rect.block (s := S1280x64) S1280x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S5000x64.size a
  hwx1_3 : ∀ i : grid1.Coords, EltTy.bits .f32 = 32 ∨ (Rect.block (s := S5000x64) S1000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S5000x64.size a
  hwx2_0 : ∀ i : grid2.Coords, EltTy.bits .f32 = 32 ∨ (Rect.block (s := S5000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S5000x1.size a
  hwx2_1 : ∀ i : grid2.Coords, EltTy.bits .f32 = 32 ∨ (Rect.block (s := S5000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S5000x64.size a
  hwx2_2 : ∀ i : grid2.Coords, EltTy.bits .f32 = 32 ∨ (Rect.block (s := S5000x64) S1000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x64.size a ≤ S5000x64.size a
  hwx2_6 : ∀ i : grid2.Coords, EltTy.bits .f32 = 32 ∨ (Rect.block (s := S5000x64) S1000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S5000x64.size a
  hwx4_0 : ∀ i : grid4.Coords, EltTy.bits .f32 = 32 ∨ (Rect.block (s := S5000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S5000x1.size a
  hwx4_1 : ∀ i : grid4.Coords, EltTy.bits .f32 = 32 ∨ (Rect.block (s := S5000x1) S1000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S5000x64.size a
  hwx4_2 : ∀ i : grid4.Coords, EltTy.bits .f32 = 32 ∨ (Rect.block (s := S5000x64) S1000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x64.size a ≤ S5000x64.size a
  hwx4_6 : ∀ i : grid4.Coords, EltTy.bits .f32 = 32 ∨ (Rect.block (s := S5000x64) S1000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S100000x64.size a
  hwx5_6 : ∀ i : grid5.Coords, EltTy.bits .f32 = 32 ∨ (Rect.block (s := S100000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x32.size a ≤ S64x32.size a
  hwx6_6 : ∀ i : grid6.Coords, EltTy.bits .f32 = 32 ∨ (Rect.block (s := S64x32) S64x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32.size a ≤ S1x32.size a
  hwx6_7 : ∀ i : grid6.Coords, EltTy.bits .f32 = 32 ∨ (Rect.block (s := S1x32) S1x32.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S32x1.size a ≤ S32x1.size a
  hwx6_8 : ∀ i : grid6.Coords, EltTy.bits .f32 = 32 ∨ (Rect.block (s := S32x1) S32x1.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1.size a ≤ S1x1.size a
  hwx6_9 : ∀ i : grid6.Coords, EltTy.bits .f32 = 32 ∨ (Rect.block (s := S1x1) S1x1.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x1.size a ≤ S100000x1.size a
  hwx6_10 : ∀ i : grid6.Coords, EltTy.bits .f32 = 32 ∨ (Rect.block (s := S100000x1) S2000x1.size (cc6_transform_10 i) (hinb6_10 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S1000x1280_S1280x64_S1000x64_1_0_0_1_n_n : DotDims S1000x1280 S1280x64 S1000x64 where
  lhsContracting := [1]
  rhsContracting := [0]
  lhsNonContracting := [0]
  rhsNonContracting := [1]
  lhsBatch := []
  rhsBatch := []
  wf := dot_S1000x1280_S1280x64_S1000x64_1_0_0_1_n_n_wf
def scatter_S5000_S2000000x1_S2000000_n_0_0_1 : ScatterDims S5000 S2000000x1 S2000000 where
  updateWindowDims := []
  insertedWindowDims := [0]
  scatterDimsToOperandDims := [0]
  indexVectorDim := 1
  wf := scatter_S5000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S5000x64_S2000000x1_S2000000x64_1_0_0_1 : ScatterDims S5000x64 S2000000x1 S2000000x64 where
  updateWindowDims := [1]
  insertedWindowDims := [0]
  scatterDimsToOperandDims := [0]
  indexVectorDim := 1
  wf := scatter_S5000x64_S2000000x1_S2000000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S5000x64_S2000000x1_S2000000x64_1_0_n_n_0_1_164 : GatherDims S5000x64 S2000000x1 S2000000x64 where
  offsetDims := [1]
  collapsedSliceDims := [0]
  operandBatchingDims := []
  startIndicesBatchingDims := []
  startIndexMap := [0]
  indexVectorDim := 1
  sliceSizes := ![1, 64]
  wf := gather_S5000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1280x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S1000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v85) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v93) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v103) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v21) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v93) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v105) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v109) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg16) S64x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v111) S1x32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg18) S32x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v112) S1x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v113) S2000x1.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S100000x1024 : Shape := ⟨2, ![100000, 1024]⟩
abbrev S5000x1280 : Shape := ⟨2, ![5000, 1280]⟩
abbrev S2000000 : Shape := ⟨1, ![2000000]⟩
abbrev S1024x64 : Shape := ⟨2, ![1024, 64]⟩
abbrev S64 : Shape := ⟨1, ![64]⟩
abbrev S1280x64 : Shape := ⟨2, ![1280, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S5000x64 : Shape := ⟨2, ![5000, 64]⟩
abbrev S1x64x64 : Shape := ⟨3, ![1, 64, 64]⟩
abbrev S64x64 : Shape := ⟨2, ![64, 64]⟩
abbrev S2000000x1 : Shape := ⟨2, ![2000000, 1]⟩
abbrev S2000000x64 : Shape := ⟨2, ![2000000, 64]⟩
abbrev S5000 : Shape := ⟨1, ![5000]⟩
abbrev S5000x1 : Shape := ⟨2, ![5000, 1]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1x1 : Shape := ⟨2, ![1, 1]⟩

abbrev nBuf : Space → Nat
  | .hbm => 291
  | .vmem => 0
  | .smem => 0
  | _ => 0

abbrev hbmTy0_0 (i : Nat) : BufTy := match i % 128 with
  | 0 => ⟨S100000x1024, .f32⟩
  | 1 => ⟨S5000x1280, .f32⟩
  | 2 => ⟨S2000000, .i32⟩
  | 3 => ⟨S2000000, .i32⟩
  | 4 => ⟨S2000000, .i32⟩
  | 5 => ⟨S2000000, .i32⟩
  | 6 => ⟨S1024x64, .f32⟩
  | 7 => ⟨S64, .f32⟩
  | 8 => ⟨S1280x64, .f32⟩
  | 9 => ⟨S64, .f32⟩
  | 10 => ⟨S3x64x64, .f32⟩
  | 11 => ⟨S3x64, .f32⟩
  | 12 => ⟨S3x64x64, .f32⟩
  | 13 => ⟨S3x64x64, .f32⟩
  | 14 => ⟨S3x64, .f32⟩
  | 15 => ⟨S3x64x64, .f32⟩
  | 16 => ⟨S64x32, .f32⟩
  | 17 => ⟨S32, .f32⟩
  | 18 => ⟨S32x1, .f32⟩
  | 19 => ⟨S1, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S5000x64, .f32⟩
  | 28 => ⟨S1x64, .f32⟩
  | 29 => ⟨S5000x64, .f32⟩
  | 30 => ⟨S5000x64, .f32⟩
  | 31 => ⟨S_, .f32⟩
  | 32 => ⟨S5000x64, .f32⟩
  | 33 => ⟨S5000x64, .f32⟩
  | 34 => ⟨S1x64x64, .f32⟩
  | 35 => ⟨S64x64, .f32⟩
  | 36 => ⟨S1x64, .f32⟩
  | 37 => ⟨S64, .f32⟩
  | 38 => ⟨S1x64x64, .f32⟩
  | 39 => ⟨S64x64, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S_, .f32⟩
  | 50 => ⟨S5000x64, .f32⟩
  | 51 => ⟨S2000000x1, .i32⟩
  | 52 => ⟨S5000x64, .f32⟩
  | 53 => ⟨S_, .f32⟩
  | 54 => ⟨S2000000, .f32⟩
  | 55 => ⟨S_, .f32⟩
  | 56 => ⟨S5000, .f32⟩
  | 57 => ⟨S2000000x1, .i32⟩
  | 58 => ⟨S5000, .f32⟩
  | 59 => ⟨S_, .f32⟩
  | 60 => ⟨S5000, .f32⟩
  | 61 => ⟨S5000, .f32⟩
  | 62 => ⟨S5000x1, .f32⟩
  | 63 => ⟨S5000x64, .f32⟩
  | 64 => ⟨S5000x64, .f32⟩
  | 65 => ⟨S5000x64, .f32⟩
  | 66 => ⟨S1x64, .f32⟩
  | 67 => ⟨S5000x64, .f32⟩
  | 68 => ⟨S5000x64, .f32⟩
  | 69 => ⟨S5000x64, .f32⟩
  | 70 => ⟨S5000x64, .f32⟩
  | 71 => ⟨S1x64x64, .f32⟩
  | 72 => ⟨S64x64, .f32⟩
  | 73 => ⟨S1x64, .f32⟩
  | 74 => ⟨S64, .f32⟩
  | 75 => ⟨S1x64x64, .f32⟩
  | 76 => ⟨S64x64, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x64, .f32⟩
  | 86 => ⟨S_, .f32⟩
  | 87 => ⟨S100000x64, .f32⟩
  | 88 => ⟨S2000000x1, .i32⟩
  | 89 => ⟨S100000x64, .f32⟩
  | 90 => ⟨S_, .f32⟩
  | 91 => ⟨S2000000, .f32⟩
  | 92 => ⟨S_, .f32⟩
  | 93 => ⟨S100000, .f32⟩
  | 94 => ⟨S2000000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S_, .f32⟩
  | 113 => ⟨S5000x64, .f32⟩
  | 114 => ⟨S5000x64, .f32⟩
  | 115 => ⟨S5000x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S100000x1024, .f32⟩

abbrev hbmTy0_1 (i : Nat) : BufTy := match i % 128 with
  | 0 => ⟨S2000000, .i32⟩
  | 1 => ⟨S2000000x1, .i32⟩
  | 2 => ⟨S2000000x64, .f32⟩
  | 3 => ⟨S_, .f32⟩
  | 4 => ⟨S5000x64, .f32⟩
  | 5 => ⟨S2000000x1, .i32⟩
  | 6 => ⟨S5000x64, .f32⟩
  | 7 => ⟨S_, .f32⟩
  | 8 => ⟨S2000000, .f32⟩
  | 9 => ⟨S_, .f32⟩
  | 10 => ⟨S5000, .f32⟩
  | 11 => ⟨S2000000x1, .i32⟩
  | 12 => ⟨S5000, .f32⟩
  | 13 => ⟨S_, .f32⟩
  | 14 => ⟨S5000, .f32⟩
  | 15 => ⟨S5000, .f32⟩
  | 16 => ⟨S5000x1, .f32⟩
  | 17 => ⟨S5000x64, .f32⟩
  | 18 => ⟨S5000x64, .f32⟩
  | 19 => ⟨S5000x64, .f32⟩
  | 20 => ⟨S1x64, .f32⟩
  | 21 => ⟨S5000x64, .f32⟩
  | 22 => ⟨S5000x64, .f32⟩
  | 23 => ⟨S5000x64, .f32⟩
  | 24 => ⟨S5000x64, .f32⟩
  | 25 => ⟨S1x64x64, .f32⟩
  | 26 => ⟨S64x64, .f32⟩
  | 27 => ⟨S1x64, .f32⟩
  | 28 => ⟨S64, .f32⟩
  | 29 => ⟨S1x64x64, .f32⟩
  | 30 => ⟨S64x64, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x64, .f32⟩
  | 40 => ⟨S_, .f32⟩
  | 41 => ⟨S100000x64, .f32⟩
  | 42 => ⟨S2000000x1, .i32⟩
  | 43 => ⟨S100000x64, .f32⟩
  | 44 => ⟨S_, .f32⟩
  | 45 => ⟨S2000000, .f32⟩
  | 46 => ⟨S_, .f32⟩
  | 47 => ⟨S100000, .f32⟩
  | 48 => ⟨S2000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S5000x64, .f32⟩
  | 68 => ⟨S5000x64, .f32⟩
  | 69 => ⟨S5000x64, .f32⟩
  | 70 => ⟨S1x64x64, .f32⟩
  | 71 => ⟨S64x64, .f32⟩
  | 72 => ⟨S1x64, .f32⟩
  | 73 => ⟨S64, .f32⟩
  | 74 => ⟨S1x64x64, .f32⟩
  | 75 => ⟨S64x64, .f32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S2000000x1, .i32⟩
  | 84 => ⟨S2000000x64, .f32⟩
  | 85 => ⟨S_, .f32⟩
  | 86 => ⟨S5000x64, .f32⟩
  | 87 => ⟨S2000000x1, .i32⟩
  | 88 => ⟨S5000x64, .f32⟩
  | 89 => ⟨S_, .f32⟩
  | 90 => ⟨S2000000, .f32⟩
  | 91 => ⟨S_, .f32⟩
  | 92 => ⟨S5000, .f32⟩
  | 93 => ⟨S2000000x1, .i32⟩
  | 94 => ⟨S5000, .f32⟩
  | 95 => ⟨S_, .f32⟩
  | 96 => ⟨S5000, .f32⟩
  | 97 => ⟨S5000, .f32⟩
  | 98 => ⟨S5000x1, .f32⟩
  | 99 => ⟨S5000x64, .f32⟩
  | 100 => ⟨S5000x64, .f32⟩
  | 101 => ⟨S5000x64, .f32⟩
  | 102 => ⟨S1x64, .f32⟩
  | 103 => ⟨S5000x64, .f32⟩
  | 104 => ⟨S5000x64, .f32⟩
  | 105 => ⟨S5000x64, .f32⟩
  | 106 => ⟨S5000x64, .f32⟩
  | 107 => ⟨S1x64x64, .f32⟩
  | 108 => ⟨S64x64, .f32⟩
  | 109 => ⟨S1x64, .f32⟩
  | 110 => ⟨S64, .f32⟩
  | 111 => ⟨S1x64x64, .f32⟩
  | 112 => ⟨S64x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S_, .f32⟩
  | 123 => ⟨S100000x64, .f32⟩
  | 124 => ⟨S2000000x1, .i32⟩
  | 125 => ⟨S100000x64, .f32⟩
  | 126 => ⟨S_, .f32⟩
  | 127 => ⟨S2000000, .f32⟩
  | _ => ⟨S100000x1024, .f32⟩

abbrev hbmTy0_2 (i : Nat) : BufTy := match i % 128 with
  | 0 => ⟨S_, .f32⟩
  | 1 => ⟨S100000, .f32⟩
  | 2 => ⟨S2000000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S_, .f32⟩
  | 21 => ⟨S5000x64, .f32⟩
  | 22 => ⟨S5000x64, .f32⟩
  | 23 => ⟨S5000x64, .f32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S100000x32, .f32⟩
  | 30 => ⟨S100000x32, .f32⟩
  | 31 => ⟨S100000x1, .f32⟩
  | 32 => ⟨S1x1, .f32⟩
  | 33 => ⟨S100000x1, .f32⟩
  | 34 => ⟨S100000x1, .f32⟩
  | _ => ⟨S100000x1024, .f32⟩

abbrev hbmTy (i : Nat) : BufTy := match i / 128 with
  | 0 => hbmTy0_0 i
  | 1 => hbmTy0_1 i
  | 2 => hbmTy0_2 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_4 : Ref sig .tc := ⟨.hbm, 77, rfl⟩
abbrev main_v47 : Ref sig .tc := ⟨.hbm, 78, rfl⟩
abbrev main_v48 : Ref sig .tc := ⟨.hbm, 79, rfl⟩
abbrev main_c_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call2_cst : Ref sig .tc := ⟨.hbm, 108, rfl⟩
abbrev main_call2_v0 : Ref sig .tc := ⟨.hbm, 109, rfl⟩
abbrev main_v72 : Ref sig .tc := ⟨.hbm, 110, rfl⟩
abbrev main_v73 : Ref sig .tc := ⟨.hbm, 111, rfl⟩
abbrev main_call3_cst : Ref sig .tc := ⟨.hbm, 112, rfl⟩
abbrev main_call3_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_10 : Ref sig .tc := ⟨.hbm, 122, rfl⟩
abbrev main_v82 : Ref sig .tc := ⟨.hbm, 123, rfl⟩
abbrev main_v83 : Ref sig .tc := ⟨.hbm, 124, rfl⟩
abbrev main_c_11 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_12 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_13 : Ref sig .tc := ⟨.hbm, 135, rfl⟩
abbrev main_v92 : Ref sig .tc := ⟨.hbm, 136, rfl⟩
abbrev main_cst_14 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_15 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_16 : Ref sig .tc := ⟨.hbm, 159, rfl⟩
abbrev main_v113 : Ref sig .tc := ⟨.hbm, 160, rfl⟩
abbrev main_v114 : Ref sig .tc := ⟨.hbm, 161, rfl⟩
abbrev main_c_17 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_18 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_19 : Ref sig .tc := ⟨.hbm, 172, rfl⟩
abbrev main_v123 : Ref sig .tc := ⟨.hbm, 173, rfl⟩
abbrev main_cst_20 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_21 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_call4_cst : Ref sig .tc := ⟨.hbm, 190, rfl⟩
abbrev main_call4_v0 : Ref sig .tc := ⟨.hbm, 191, rfl⟩
abbrev main_v138 : Ref sig .tc := ⟨.hbm, 192, rfl⟩
abbrev main_v139 : Ref sig .tc := ⟨.hbm, 193, rfl⟩
abbrev main_call5_cst : Ref sig .tc := ⟨.hbm, 194, rfl⟩
abbrev main_call5_v0 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_c_22 : Ref sig .tc := ⟨.hbm, 204, rfl⟩
abbrev main_v148 : Ref sig .tc := ⟨.hbm, 205, rfl⟩
abbrev main_v149 : Ref sig .tc := ⟨.hbm, 206, rfl⟩
abbrev main_c_23 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_24 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_25 : Ref sig .tc := ⟨.hbm, 217, rfl⟩
abbrev main_v158 : Ref sig .tc := ⟨.hbm, 218, rfl⟩
abbrev main_cst_26 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_27 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_c_28 : Ref sig .tc := ⟨.hbm, 241, rfl⟩
abbrev main_v179 : Ref sig .tc := ⟨.hbm, 242, rfl⟩
abbrev main_v180 : Ref sig .tc := ⟨.hbm, 243, rfl⟩
abbrev main_c_29 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_30 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_31 : Ref sig .tc := ⟨.hbm, 254, rfl⟩
abbrev main_v189 : Ref sig .tc := ⟨.hbm, 255, rfl⟩
abbrev main_cst_32 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_33 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_call6_cst : Ref sig .tc := ⟨.hbm, 272, rfl⟩
abbrev main_call6_v0 : Ref sig .tc := ⟨.hbm, 273, rfl⟩
abbrev main_v204 : Ref sig .tc := ⟨.hbm, 274, rfl⟩
abbrev main_v205 : Ref sig .tc := ⟨.hbm, 275, rfl⟩
abbrev main_call7_cst : Ref sig .tc := ⟨.hbm, 276, rfl⟩
abbrev main_call7_v0 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_call8_cst : Ref sig .tc := ⟨.hbm, 284, rfl⟩
abbrev main_call8_v0 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S5000x64_0_1 : S1x64.BroadcastsInDim S5000x64 (![0, 1] : Fin 2 → Fin S5000x64.rank)
  bcast_S_S5000x64 : S_.BroadcastsInDim S5000x64 (![] : Fin 0 → Fin S5000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1024_S1024x64_S100000x64_1_0_0_1_n_n_wf : DotDims.WF S100000x1024 S1024x64 S100000x64 [1] [0] [0] [1] [] []
  dot_S5000x1280_S1280x64_S5000x64_1_0_0_1_n_n_wf : DotDims.WF S5000x1280 S1280x64 S5000x64 [1] [0] [0] [1] [] []
  gather_S100000x64_S2000000x1_S2000000x64_1_0_n_n_0_1_164_wf : GatherDims.WF S100000x64 S2000000x1 S2000000x64 [1] [0] [] [0] [] 1 ![1, 64]
  scatter_S5000x64_S2000000x1_S2000000x64_1_0_0_1_wf : ScatterDims.WF S5000x64 S2000000x1 S2000000x64 [1] [0] [0] 1
  scatter_S5000_S2000000x1_S2000000_n_0_0_1_wf : ScatterDims.WF S5000 S2000000x1 S2000000 [] [0] [0] 1
  dot_S5000x64_S64x64_S5000x64_1_0_0_1_n_n_wf : DotDims.WF S5000x64 S64x64 S5000x64 [1] [0] [0] [1] [] []
  gather_S5000x64_S2000000x1_S2000000x64_1_0_n_n_0_1_164_wf : GatherDims.WF S5000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S5000x1280_S1280x64_S5000x64_1_0_0_1_n_n : DotDims S5000x1280 S1280x64 S5000x64 where
  lhsContracting := [1]
  rhsContracting := [0]
  lhsNonContracting := [0]
  rhsNonContracting := [1]
  lhsBatch := []
  rhsBatch := []
  wf := dot_S5000x1280_S1280x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S5000x64_S2000000x1_S2000000x64_1_0_0_1 : ScatterDims S5000x64 S2000000x1 S2000000x64 where
  updateWindowDims := [1]
  insertedWindowDims := [0]
  scatterDimsToOperandDims := [0]
  indexVectorDim := 1
  wf := scatter_S5000x64_S2000000x1_S2000000x64_1_0_0_1_wf
def scatter_S5000_S2000000x1_S2000000_n_0_0_1 : ScatterDims S5000 S2000000x1 S2000000 where
  updateWindowDims := []
  insertedWindowDims := [0]
  scatterDimsToOperandDims := [0]
  indexVectorDim := 1
  wf := scatter_S5000_S2000000x1_S2000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S5000x64_S2000000x1_S2000000x64_1_0_n_n_0_1_164 : GatherDims S5000x64 S2000000x1 S2000000x64 where
  offsetDims := [1]
  collapsedSliceDims := [0]
  operandBatchingDims := []
  startIndicesBatchingDims := []
  startIndexMap := [0]
  indexVectorDim := 1
  sliceSizes := ![1, 64]
  wf := gather_S5000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The kernel program's run with its result named. Every weakly fair execution from a memory with zero
  counters terminates without a fault; in the final state the result array holds what the last boundary of
  the run's fold holds at the result buffer, and every argument array is as launched. This is the frame
  statement's run over the program's segments, with the result buffer read off the final thread state
  beside the argument buffers.
-/
import proofs.«178321_j61770219651569_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v113) = W14 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v113 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c)⟩)

end Cert.KernelIdeal.KRun

end
-- ==== Proof.KTactics.lean ====
/-
  One step of reasoning used at every host stretch: a buffer that none of the stretch's operations writes
  holds after the stretch what it held before it. The operations' written buffers are listed and each is
  compared with the buffer in question.
-/
import Idealize.ShloMosaic.Lib.StableHlo.Run

namespace Cert.KernelIdeal.KChain

open Idealize.ShloMosaic

/-- A buffer no operation of a host stretch writes holds after the stretch what it held before. -/
macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

end Cert.KernelIdeal.KChain
-- ==== Proof.KCarryA.lean ====
/-
  The argument arrays through the run. Between the launch and the last region the program alternates
  stretches of host operations with regions; no host operation writes an argument array and no region
  writes one (a region only reads it through an input window), so at every boundary each argument array
  holds what it held at launch. One equation per argument and boundary, each from the previous boundary's.
-/
import proofs.«178321_j61770219651569_2_alg».proof.Proof.Gen.KernelIdeal.Frame
import proofs.«178321_j61770219651569_2_alg».proof.Proof.KTactics
import Idealize.ShloMosaic.Lib.ValueLayout
import Idealize.ShloMosaic.Lib.Pipeline.Value

set_option maxRecDepth 16384

noncomputable section

open scoped BigOperators

namespace Cert.KernelIdeal.KChain

open Cert.KernelIdeal Cert.KernelIdeal.Gen Idealize.ShloMosaic Idealize.ShloMosaic.TcCoe
open Idealize.SL.Sem Idealize.ShloMosaic.Pipeline

variable (m : (ℓ : Loc nD τ sig) → Buf (Elt Ideal) ℓ) (ρ : Dev nD → PrngReg)

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (show W1 m ρ c (Proc.devRef .tc main_arg0) = W0 m ρ c (Proc.devRef .tc main_arg0) by host_keep hostOps0).trans (W0_main_arg0 m ρ c)
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (Proc.devRef .tc main_arg0) = m ((c : Thread nD τ).loc main_arg0) :=
  (show W3 m ρ c (Proc.devRef .tc main_arg0) = W2 m ρ c (Proc.devRef .tc main_arg0) by host_keep hostOps1).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (show W5 m ρ c (Proc.devRef .tc main_arg0) = W4 m ρ c (Proc.devRef .tc main_arg0) by host_keep hostOps2).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (show W7 m ρ c (Proc.devRef .tc main_arg0) = W6 m ρ c (Proc.devRef .tc main_arg0) by host_keep hostOps3).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (show W9 m ρ c (Proc.devRef .tc main_arg0) = W8 m ρ c (Proc.devRef .tc main_arg0) by host_keep hostOps4).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (show W11 m ρ c (Proc.devRef .tc main_arg0) = W10 m ρ c (Proc.devRef .tc main_arg0) by host_keep hostOps5).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (show W13 m ρ c (Proc.devRef .tc main_arg0) = W12 m ρ c (Proc.devRef .tc main_arg0) by host_keep hostOps6).trans (W12_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (show W1 m ρ c (Proc.devRef .tc main_arg1) = W0 m ρ c (Proc.devRef .tc main_arg1) by host_keep hostOps0).trans (W0_main_arg1 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (show W3 m ρ c (Proc.devRef .tc main_arg1) = W2 m ρ c (Proc.devRef .tc main_arg1) by host_keep hostOps1).trans (W2_main_arg1 m ρ c)
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)
theorem W5_main_arg1 (c : Dev nD) : W5 m ρ c (Proc.devRef .tc main_arg1) = m ((c : Thread nD τ).loc main_arg1) :=
  (show W5 m ρ c (Proc.devRef .tc main_arg1) = W4 m ρ c (Proc.devRef .tc main_arg1) by host_keep hostOps2).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (show W7 m ρ c (Proc.devRef .tc main_arg1) = W6 m ρ c (Proc.devRef .tc main_arg1) by host_keep hostOps3).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (show W9 m ρ c (Proc.devRef .tc main_arg1) = W8 m ρ c (Proc.devRef .tc main_arg1) by host_keep hostOps4).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (show W11 m ρ c (Proc.devRef .tc main_arg1) = W10 m ρ c (Proc.devRef .tc main_arg1) by host_keep hostOps5).trans (W10_main_arg1 m ρ c)
theorem W12_main_arg1 (c : Dev nD) : W12 m ρ c (Proc.devRef .tc main_arg1) = m ((c : Thread nD τ).loc main_arg1) :=
  (W12_of_ne m ρ c main_arg1 (by decide)).trans (W11_main_arg1 m ρ c)
theorem W13_main_arg1 (c : Dev nD) : W13 m ρ c (Proc.devRef .tc main_arg1) = m ((c : Thread nD τ).loc main_arg1) :=
  (show W13 m ρ c (Proc.devRef .tc main_arg1) = W12 m ρ c (Proc.devRef .tc main_arg1) by host_keep hostOps6).trans (W12_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (show W1 m ρ c (Proc.devRef .tc main_arg2) = W0 m ρ c (Proc.devRef .tc main_arg2) by host_keep hostOps0).trans (W0_main_arg2 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (show W3 m ρ c (Proc.devRef .tc main_arg2) = W2 m ρ c (Proc.devRef .tc main_arg2) by host_keep hostOps1).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) by host_keep hostOps2).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) by host_keep hostOps3).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (show W9 m ρ c (Proc.devRef .tc main_arg2) = W8 m ρ c (Proc.devRef .tc main_arg2) by host_keep hostOps4).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (show W11 m ρ c (Proc.devRef .tc main_arg2) = W10 m ρ c (Proc.devRef .tc main_arg2) by host_keep hostOps5).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W13_main_arg2 (c : Dev nD) : W13 m ρ c (Proc.devRef .tc main_arg2) = m ((c : Thread nD τ).loc main_arg2) :=
  (show W13 m ρ c (Proc.devRef .tc main_arg2) = W12 m ρ c (Proc.devRef .tc main_arg2) by host_keep hostOps6).trans (W12_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (show W1 m ρ c (Proc.devRef .tc main_arg3) = W0 m ρ c (Proc.devRef .tc main_arg3) by host_keep hostOps0).trans (W0_main_arg3 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (show W3 m ρ c (Proc.devRef .tc main_arg3) = W2 m ρ c (Proc.devRef .tc main_arg3) by host_keep hostOps1).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (show W5 m ρ c (Proc.devRef .tc main_arg3) = W4 m ρ c (Proc.devRef .tc main_arg3) by host_keep hostOps2).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (show W7 m ρ c (Proc.devRef .tc main_arg3) = W6 m ρ c (Proc.devRef .tc main_arg3) by host_keep hostOps3).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (show W9 m ρ c (Proc.devRef .tc main_arg3) = W8 m ρ c (Proc.devRef .tc main_arg3) by host_keep hostOps4).trans (W8_main_arg3 m ρ c)
theorem W10_main_arg3 (c : Dev nD) : W10 m ρ c (Proc.devRef .tc main_arg3) = m ((c : Thread nD τ).loc main_arg3) :=
  (W10_of_ne m ρ c main_arg3 (by decide)).trans (W9_main_arg3 m ρ c)
theorem W11_main_arg3 (c : Dev nD) : W11 m ρ c (Proc.devRef .tc main_arg3) = m ((c : Thread nD τ).loc main_arg3) :=
  (show W11 m ρ c (Proc.devRef .tc main_arg3) = W10 m ρ c (Proc.devRef .tc main_arg3) by host_keep hostOps5).trans (W10_main_arg3 m ρ c)
theorem W12_main_arg3 (c : Dev nD) : W12 m ρ c (Proc.devRef .tc main_arg3) = m ((c : Thread nD τ).loc main_arg3) :=
  (W12_of_ne m ρ c main_arg3 (by decide)).trans (W11_main_arg3 m ρ c)
theorem W13_main_arg3 (c : Dev nD) : W13 m ρ c (Proc.devRef .tc main_arg3) = m ((c : Thread nD τ).loc main_arg3) :=
  (show W13 m ρ c (Proc.devRef .tc main_arg3) = W12 m ρ c (Proc.devRef .tc main_arg3) by host_keep hostOps6).trans (W12_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (show W1 m ρ c (Proc.devRef .tc main_arg4) = W0 m ρ c (Proc.devRef .tc main_arg4) by host_keep hostOps0).trans (W0_main_arg4 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (show W3 m ρ c (Proc.devRef .tc main_arg4) = W2 m ρ c (Proc.devRef .tc main_arg4) by host_keep hostOps1).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (show W5 m ρ c (Proc.devRef .tc main_arg4) = W4 m ρ c (Proc.devRef .tc main_arg4) by host_keep hostOps2).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (show W7 m ρ c (Proc.devRef .tc main_arg4) = W6 m ρ c (Proc.devRef .tc main_arg4) by host_keep hostOps3).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (show W9 m ρ c (Proc.devRef .tc main_arg4) = W8 m ρ c (Proc.devRef .tc main_arg4) by host_keep hostOps4).trans (W8_main_arg4 m ρ c)
theorem W10_main_arg4 (c : Dev nD) : W10 m ρ c (Proc.devRef .tc main_arg4) = m ((c : Thread nD τ).loc main_arg4) :=
  (W10_of_ne m ρ c main_arg4 (by decide)).trans (W9_main_arg4 m ρ c)
theorem W11_main_arg4 (c : Dev nD) : W11 m ρ c (Proc.devRef .tc main_arg4) = m ((c : Thread nD τ).loc main_arg4) :=
  (show W11 m ρ c (Proc.devRef .tc main_arg4) = W10 m ρ c (Proc.devRef .tc main_arg4) by host_keep hostOps5).trans (W10_main_arg4 m ρ c)
theorem W12_main_arg4 (c : Dev nD) : W12 m ρ c (Proc.devRef .tc main_arg4) = m ((c : Thread nD τ).loc main_arg4) :=
  (W12_of_ne m ρ c main_arg4 (by decide)).trans (W11_main_arg4 m ρ c)
theorem W13_main_arg4 (c : Dev nD) : W13 m ρ c (Proc.devRef .tc main_arg4) = m ((c : Thread nD τ).loc main_arg4) :=
  (show W13 m ρ c (Proc.devRef .tc main_arg4) = W12 m ρ c (Proc.devRef .tc main_arg4) by host_keep hostOps6).trans (W12_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (show W1 m ρ c (Proc.devRef .tc main_arg5) = W0 m ρ c (Proc.devRef .tc main_arg5) by host_keep hostOps0).trans (W0_main_arg5 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (show W3 m ρ c (Proc.devRef .tc main_arg5) = W2 m ρ c (Proc.devRef .tc main_arg5) by host_keep hostOps1).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (show W5 m ρ c (Proc.devRef .tc main_arg5) = W4 m ρ c (Proc.devRef .tc main_arg5) by host_keep hostOps2).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (show W7 m ρ c (Proc.devRef .tc main_arg5) = W6 m ρ c (Proc.devRef .tc main_arg5) by host_keep hostOps3).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (show W9 m ρ c (Proc.devRef .tc main_arg5) = W8 m ρ c (Proc.devRef .tc main_arg5) by host_keep hostOps4).trans (W8_main_arg5 m ρ c)
theorem W10_main_arg5 (c : Dev nD) : W10 m ρ c (Proc.devRef .tc main_arg5) = m ((c : Thread nD τ).loc main_arg5) :=
  (W10_of_ne m ρ c main_arg5 (by decide)).trans (W9_main_arg5 m ρ c)
theorem W11_main_arg5 (c : Dev nD) : W11 m ρ c (Proc.devRef .tc main_arg5) = m ((c : Thread nD τ).loc main_arg5) :=
  (show W11 m ρ c (Proc.devRef .tc main_arg5) = W10 m ρ c (Proc.devRef .tc main_arg5) by host_keep hostOps5).trans (W10_main_arg5 m ρ c)
theorem W12_main_arg5 (c : Dev nD) : W12 m ρ c (Proc.devRef .tc main_arg5) = m ((c : Thread nD τ).loc main_arg5) :=
  (W12_of_ne m ρ c main_arg5 (by decide)).trans (W11_main_arg5 m ρ c)
theorem W13_main_arg5 (c : Dev nD) : W13 m ρ c (Proc.devRef .tc main_arg5) = m ((c : Thread nD τ).loc main_arg5) :=
  (show W13 m ρ c (Proc.devRef .tc main_arg5) = W12 m ρ c (Proc.devRef .tc main_arg5) by host_keep hostOps6).trans (W12_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (show W1 m ρ c (Proc.devRef .tc main_arg6) = W0 m ρ c (Proc.devRef .tc main_arg6) by host_keep hostOps0).trans (W0_main_arg6 m ρ c)
theorem W2_main_arg6 (c : Dev nD) : W2 m ρ c (Proc.devRef .tc main_arg6) = m ((c : Thread nD τ).loc main_arg6) :=
  ((W2_arr m ρ c 1).trans (((dat0 (V1 m ρ) c).arrAt_in 1 rfl _).trans (A_eq0 (V1 m ρ) c 1))).trans (W1_main_arg6 m ρ c)
theorem W3_main_arg6 (c : Dev nD) : W3 m ρ c (Proc.devRef .tc main_arg6) = m ((c : Thread nD τ).loc main_arg6) :=
  (show W3 m ρ c (Proc.devRef .tc main_arg6) = W2 m ρ c (Proc.devRef .tc main_arg6) by host_keep hostOps1).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (show W5 m ρ c (Proc.devRef .tc main_arg6) = W4 m ρ c (Proc.devRef .tc main_arg6) by host_keep hostOps2).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (show W7 m ρ c (Proc.devRef .tc main_arg6) = W6 m ρ c (Proc.devRef .tc main_arg6) by host_keep hostOps3).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (show W9 m ρ c (Proc.devRef .tc main_arg6) = W8 m ρ c (Proc.devRef .tc main_arg6) by host_keep hostOps4).trans (W8_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W11_main_arg6 (c : Dev nD) : W11 m ρ c (Proc.devRef .tc main_arg6) = m ((c : Thread nD τ).loc main_arg6) :=
  (show W11 m ρ c (Proc.devRef .tc main_arg6) = W10 m ρ c (Proc.devRef .tc main_arg6) by host_keep hostOps5).trans (W10_main_arg6 m ρ c)
theorem W12_main_arg6 (c : Dev nD) : W12 m ρ c (Proc.devRef .tc main_arg6) = m ((c : Thread nD τ).loc main_arg6) :=
  (W12_of_ne m ρ c main_arg6 (by decide)).trans (W11_main_arg6 m ρ c)
theorem W13_main_arg6 (c : Dev nD) : W13 m ρ c (Proc.devRef .tc main_arg6) = m ((c : Thread nD τ).loc main_arg6) :=
  (show W13 m ρ c (Proc.devRef .tc main_arg6) = W12 m ρ c (Proc.devRef .tc main_arg6) by host_keep hostOps6).trans (W12_main_arg6 m ρ c)

end Cert.KernelIdeal.KChain

end
-- ==== Proof.KCarryB.lean ====
/-
  The argument arrays through the run. Between the launch and the last region the program alternates
  stretches of host operations with regions; no host operation writes an argument array and no region
  writes one (a region only reads it through an input window), so at every boundary each argument array
  holds what it held at launch. One equation per argument and boundary, each from the previous boundary's.
-/
import proofs.«178321_j61770219651569_2_alg».proof.Proof.Gen.KernelIdeal.Frame
import proofs.«178321_j61770219651569_2_alg».proof.Proof.KTactics
import Idealize.ShloMosaic.Lib.ValueLayout
import Idealize.ShloMosaic.Lib.Pipeline.Value

set_option maxRecDepth 16384

noncomputable section

open scoped BigOperators

namespace Cert.KernelIdeal.KChain

open Cert.KernelIdeal Cert.KernelIdeal.Gen Idealize.ShloMosaic Idealize.ShloMosaic.TcCoe
open Idealize.SL.Sem Idealize.ShloMosaic.Pipeline

variable (m : (ℓ : Loc nD τ sig) → Buf (Elt Ideal) ℓ) (ρ : Dev nD → PrngReg)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (show W1 m ρ c (Proc.devRef .tc main_arg7) = W0 m ρ c (Proc.devRef .tc main_arg7) by host_keep hostOps0).trans (W0_main_arg7 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (show W3 m ρ c (Proc.devRef .tc main_arg7) = W2 m ρ c (Proc.devRef .tc main_arg7) by host_keep hostOps1).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (show W5 m ρ c (Proc.devRef .tc main_arg7) = W4 m ρ c (Proc.devRef .tc main_arg7) by host_keep hostOps2).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (show W7 m ρ c (Proc.devRef .tc main_arg7) = W6 m ρ c (Proc.devRef .tc main_arg7) by host_keep hostOps3).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W9_main_arg7 (c : Dev nD) : W9 m ρ c (Proc.devRef .tc main_arg7) = m ((c : Thread nD τ).loc main_arg7) :=
  (show W9 m ρ c (Proc.devRef .tc main_arg7) = W8 m ρ c (Proc.devRef .tc main_arg7) by host_keep hostOps4).trans (W8_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W11_main_arg7 (c : Dev nD) : W11 m ρ c (Proc.devRef .tc main_arg7) = m ((c : Thread nD τ).loc main_arg7) :=
  (show W11 m ρ c (Proc.devRef .tc main_arg7) = W10 m ρ c (Proc.devRef .tc main_arg7) by host_keep hostOps5).trans (W10_main_arg7 m ρ c)
theorem W12_main_arg7 (c : Dev nD) : W12 m ρ c (Proc.devRef .tc main_arg7) = m ((c : Thread nD τ).loc main_arg7) :=
  (W12_of_ne m ρ c main_arg7 (by decide)).trans (W11_main_arg7 m ρ c)
theorem W13_main_arg7 (c : Dev nD) : W13 m ρ c (Proc.devRef .tc main_arg7) = m ((c : Thread nD τ).loc main_arg7) :=
  (show W13 m ρ c (Proc.devRef .tc main_arg7) = W12 m ρ c (Proc.devRef .tc main_arg7) by host_keep hostOps6).trans (W12_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (show W1 m ρ c (Proc.devRef .tc main_arg8) = W0 m ρ c (Proc.devRef .tc main_arg8) by host_keep hostOps0).trans (W0_main_arg8 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (show W3 m ρ c (Proc.devRef .tc main_arg8) = W2 m ρ c (Proc.devRef .tc main_arg8) by host_keep hostOps1).trans (W2_main_arg8 m ρ c)
theorem W4_main_arg8 (c : Dev nD) : W4 m ρ c (Proc.devRef .tc main_arg8) = m ((c : Thread nD τ).loc main_arg8) :=
  ((W4_arr m ρ c 1).trans (((dat1 (V3 m ρ) c).arrAt_in 1 rfl _).trans (A_eq1 (V3 m ρ) c 1))).trans (W3_main_arg8 m ρ c)
theorem W5_main_arg8 (c : Dev nD) : W5 m ρ c (Proc.devRef .tc main_arg8) = m ((c : Thread nD τ).loc main_arg8) :=
  (show W5 m ρ c (Proc.devRef .tc main_arg8) = W4 m ρ c (Proc.devRef .tc main_arg8) by host_keep hostOps2).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (show W7 m ρ c (Proc.devRef .tc main_arg8) = W6 m ρ c (Proc.devRef .tc main_arg8) by host_keep hostOps3).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W9_main_arg8 (c : Dev nD) : W9 m ρ c (Proc.devRef .tc main_arg8) = m ((c : Thread nD τ).loc main_arg8) :=
  (show W9 m ρ c (Proc.devRef .tc main_arg8) = W8 m ρ c (Proc.devRef .tc main_arg8) by host_keep hostOps4).trans (W8_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W11_main_arg8 (c : Dev nD) : W11 m ρ c (Proc.devRef .tc main_arg8) = m ((c : Thread nD τ).loc main_arg8) :=
  (show W11 m ρ c (Proc.devRef .tc main_arg8) = W10 m ρ c (Proc.devRef .tc main_arg8) by host_keep hostOps5).trans (W10_main_arg8 m ρ c)
theorem W12_main_arg8 (c : Dev nD) : W12 m ρ c (Proc.devRef .tc main_arg8) = m ((c : Thread nD τ).loc main_arg8) :=
  (W12_of_ne m ρ c main_arg8 (by decide)).trans (W11_main_arg8 m ρ c)
theorem W13_main_arg8 (c : Dev nD) : W13 m ρ c (Proc.devRef .tc main_arg8) = m ((c : Thread nD τ).loc main_arg8) :=
  (show W13 m ρ c (Proc.devRef .tc main_arg8) = W12 m ρ c (Proc.devRef .tc main_arg8) by host_keep hostOps6).trans (W12_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (show W1 m ρ c (Proc.devRef .tc main_arg9) = W0 m ρ c (Proc.devRef .tc main_arg9) by host_keep hostOps0).trans (W0_main_arg9 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (show W3 m ρ c (Proc.devRef .tc main_arg9) = W2 m ρ c (Proc.devRef .tc main_arg9) by host_keep hostOps1).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (show W5 m ρ c (Proc.devRef .tc main_arg9) = W4 m ρ c (Proc.devRef .tc main_arg9) by host_keep hostOps2).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (show W7 m ρ c (Proc.devRef .tc main_arg9) = W6 m ρ c (Proc.devRef .tc main_arg9) by host_keep hostOps3).trans (W6_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)
theorem W9_main_arg9 (c : Dev nD) : W9 m ρ c (Proc.devRef .tc main_arg9) = m ((c : Thread nD τ).loc main_arg9) :=
  (show W9 m ρ c (Proc.devRef .tc main_arg9) = W8 m ρ c (Proc.devRef .tc main_arg9) by host_keep hostOps4).trans (W8_main_arg9 m ρ c)
theorem W10_main_arg9 (c : Dev nD) : W10 m ρ c (Proc.devRef .tc main_arg9) = m ((c : Thread nD τ).loc main_arg9) :=
  (W10_of_ne m ρ c main_arg9 (by decide)).trans (W9_main_arg9 m ρ c)
theorem W11_main_arg9 (c : Dev nD) : W11 m ρ c (Proc.devRef .tc main_arg9) = m ((c : Thread nD τ).loc main_arg9) :=
  (show W11 m ρ c (Proc.devRef .tc main_arg9) = W10 m ρ c (Proc.devRef .tc main_arg9) by host_keep hostOps5).trans (W10_main_arg9 m ρ c)
theorem W12_main_arg9 (c : Dev nD) : W12 m ρ c (Proc.devRef .tc main_arg9) = m ((c : Thread nD τ).loc main_arg9) :=
  (W12_of_ne m ρ c main_arg9 (by decide)).trans (W11_main_arg9 m ρ c)
theorem W13_main_arg9 (c : Dev nD) : W13 m ρ c (Proc.devRef .tc main_arg9) = m ((c : Thread nD τ).loc main_arg9) :=
  (show W13 m ρ c (Proc.devRef .tc main_arg9) = W12 m ρ c (Proc.devRef .tc main_arg9) by host_keep hostOps6).trans (W12_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (show W1 m ρ c (Proc.devRef .tc main_arg10) = W0 m ρ c (Proc.devRef .tc main_arg10) by host_keep hostOps0).trans (W0_main_arg10 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (show W3 m ρ c (Proc.devRef .tc main_arg10) = W2 m ρ c (Proc.devRef .tc main_arg10) by host_keep hostOps1).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (show W5 m ρ c (Proc.devRef .tc main_arg10) = W4 m ρ c (Proc.devRef .tc main_arg10) by host_keep hostOps2).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W7_main_arg10 (c : Dev nD) : W7 m ρ c (Proc.devRef .tc main_arg10) = m ((c : Thread nD τ).loc main_arg10) :=
  (show W7 m ρ c (Proc.devRef .tc main_arg10) = W6 m ρ c (Proc.devRef .tc main_arg10) by host_keep hostOps3).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W9_main_arg10 (c : Dev nD) : W9 m ρ c (Proc.devRef .tc main_arg10) = m ((c : Thread nD τ).loc main_arg10) :=
  (show W9 m ρ c (Proc.devRef .tc main_arg10) = W8 m ρ c (Proc.devRef .tc main_arg10) by host_keep hostOps4).trans (W8_main_arg10 m ρ c)
theorem W10_main_arg10 (c : Dev nD) : W10 m ρ c (Proc.devRef .tc main_arg10) = m ((c : Thread nD τ).loc main_arg10) :=
  (W10_of_ne m ρ c main_arg10 (by decide)).trans (W9_main_arg10 m ρ c)
theorem W11_main_arg10 (c : Dev nD) : W11 m ρ c (Proc.devRef .tc main_arg10) = m ((c : Thread nD τ).loc main_arg10) :=
  (show W11 m ρ c (Proc.devRef .tc main_arg10) = W10 m ρ c (Proc.devRef .tc main_arg10) by host_keep hostOps5).trans (W10_main_arg10 m ρ c)
theorem W12_main_arg10 (c : Dev nD) : W12 m ρ c (Proc.devRef .tc main_arg10) = m ((c : Thread nD τ).loc main_arg10) :=
  (W12_of_ne m ρ c main_arg10 (by decide)).trans (W11_main_arg10 m ρ c)
theorem W13_main_arg10 (c : Dev nD) : W13 m ρ c (Proc.devRef .tc main_arg10) = m ((c : Thread nD τ).loc main_arg10) :=
  (show W13 m ρ c (Proc.devRef .tc main_arg10) = W12 m ρ c (Proc.devRef .tc main_arg10) by host_keep hostOps6).trans (W12_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (show W1 m ρ c (Proc.devRef .tc main_arg11) = W0 m ρ c (Proc.devRef .tc main_arg11) by host_keep hostOps0).trans (W0_main_arg11 m ρ c)
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (show W3 m ρ c (Proc.devRef .tc main_arg11) = W2 m ρ c (Proc.devRef .tc main_arg11) by host_keep hostOps1).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  (show W5 m ρ c (Proc.devRef .tc main_arg11) = W4 m ρ c (Proc.devRef .tc main_arg11) by host_keep hostOps2).trans (W4_main_arg11 m ρ c)
theorem W6_main_arg11 (c : Dev nD) : W6 m ρ c (Proc.devRef .tc main_arg11) = m ((c : Thread nD τ).loc main_arg11) :=
  (W6_of_ne m ρ c main_arg11 (by decide)).trans (W5_main_arg11 m ρ c)
theorem W7_main_arg11 (c : Dev nD) : W7 m ρ c (Proc.devRef .tc main_arg11) = m ((c : Thread nD τ).loc main_arg11) :=
  (show W7 m ρ c (Proc.devRef .tc main_arg11) = W6 m ρ c (Proc.devRef .tc main_arg11) by host_keep hostOps3).trans (W6_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W9_main_arg11 (c : Dev nD) : W9 m ρ c (Proc.devRef .tc main_arg11) = m ((c : Thread nD τ).loc main_arg11) :=
  (show W9 m ρ c (Proc.devRef .tc main_arg11) = W8 m ρ c (Proc.devRef .tc main_arg11) by host_keep hostOps4).trans (W8_main_arg11 m ρ c)
theorem W10_main_arg11 (c : Dev nD) : W10 m ρ c (Proc.devRef .tc main_arg11) = m ((c : Thread nD τ).loc main_arg11) :=
  (W10_of_ne m ρ c main_arg11 (by decide)).trans (W9_main_arg11 m ρ c)
theorem W11_main_arg11 (c : Dev nD) : W11 m ρ c (Proc.devRef .tc main_arg11) = m ((c : Thread nD τ).loc main_arg11) :=
  (show W11 m ρ c (Proc.devRef .tc main_arg11) = W10 m ρ c (Proc.devRef .tc main_arg11) by host_keep hostOps5).trans (W10_main_arg11 m ρ c)
theorem W12_main_arg11 (c : Dev nD) : W12 m ρ c (Proc.devRef .tc main_arg11) = m ((c : Thread nD τ).loc main_arg11) :=
  (W12_of_ne m ρ c main_arg11 (by decide)).trans (W11_main_arg11 m ρ c)
theorem W13_main_arg11 (c : Dev nD) : W13 m ρ c (Proc.devRef .tc main_arg11) = m ((c : Thread nD τ).loc main_arg11) :=
  (show W13 m ρ c (Proc.devRef .tc main_arg11) = W12 m ρ c (Proc.devRef .tc main_arg11) by host_keep hostOps6).trans (W12_main_arg11 m ρ c)

theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (show W1 m ρ c (Proc.devRef .tc main_arg12) = W0 m ρ c (Proc.devRef .tc main_arg12) by host_keep hostOps0).trans (W0_main_arg12 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W3_main_arg12 (c : Dev nD) : W3 m ρ c (Proc.devRef .tc main_arg12) = m ((c : Thread nD τ).loc main_arg12) :=
  (show W3 m ρ c (Proc.devRef .tc main_arg12) = W2 m ρ c (Proc.devRef .tc main_arg12) by host_keep hostOps1).trans (W2_main_arg12 m ρ c)
theorem W4_main_arg12 (c : Dev nD) : W4 m ρ c (Proc.devRef .tc main_arg12) = m ((c : Thread nD τ).loc main_arg12) :=
  (W4_of_ne m ρ c main_arg12 (by decide)).trans (W3_main_arg12 m ρ c)
theorem W5_main_arg12 (c : Dev nD) : W5 m ρ c (Proc.devRef .tc main_arg12) = m ((c : Thread nD τ).loc main_arg12) :=
  (show W5 m ρ c (Proc.devRef .tc main_arg12) = W4 m ρ c (Proc.devRef .tc main_arg12) by host_keep hostOps2).trans (W4_main_arg12 m ρ c)
theorem W6_main_arg12 (c : Dev nD) : W6 m ρ c (Proc.devRef .tc main_arg12) = m ((c : Thread nD τ).loc main_arg12) :=
  (W6_of_ne m ρ c main_arg12 (by decide)).trans (W5_main_arg12 m ρ c)
theorem W7_main_arg12 (c : Dev nD) : W7 m ρ c (Proc.devRef .tc main_arg12) = m ((c : Thread nD τ).loc main_arg12) :=
  (show W7 m ρ c (Proc.devRef .tc main_arg12) = W6 m ρ c (Proc.devRef .tc main_arg12) by host_keep hostOps3).trans (W6_main_arg12 m ρ c)
theorem W8_main_arg12 (c : Dev nD) : W8 m ρ c (Proc.devRef .tc main_arg12) = m ((c : Thread nD τ).loc main_arg12) :=
  (W8_of_ne m ρ c main_arg12 (by decide)).trans (W7_main_arg12 m ρ c)
theorem W9_main_arg12 (c : Dev nD) : W9 m ρ c (Proc.devRef .tc main_arg12) = m ((c : Thread nD τ).loc main_arg12) :=
  (show W9 m ρ c (Proc.devRef .tc main_arg12) = W8 m ρ c (Proc.devRef .tc main_arg12) by host_keep hostOps4).trans (W8_main_arg12 m ρ c)
theorem W10_main_arg12 (c : Dev nD) : W10 m ρ c (Proc.devRef .tc main_arg12) = m ((c : Thread nD τ).loc main_arg12) :=
  (W10_of_ne m ρ c main_arg12 (by decide)).trans (W9_main_arg12 m ρ c)
theorem W11_main_arg12 (c : Dev nD) : W11 m ρ c (Proc.devRef .tc main_arg12) = m ((c : Thread nD τ).loc main_arg12) :=
  (show W11 m ρ c (Proc.devRef .tc main_arg12) = W10 m ρ c (Proc.devRef .tc main_arg12) by host_keep hostOps5).trans (W10_main_arg12 m ρ c)
theorem W12_main_arg12 (c : Dev nD) : W12 m ρ c (Proc.devRef .tc main_arg12) = m ((c : Thread nD τ).loc main_arg12) :=
  (W12_of_ne m ρ c main_arg12 (by decide)).trans (W11_main_arg12 m ρ c)
theorem W13_main_arg12 (c : Dev nD) : W13 m ρ c (Proc.devRef .tc main_arg12) = m ((c : Thread nD τ).loc main_arg12) :=
  (show W13 m ρ c (Proc.devRef .tc main_arg12) = W12 m ρ c (Proc.devRef .tc main_arg12) by host_keep hostOps6).trans (W12_main_arg12 m ρ c)

theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  (show W1 m ρ c (Proc.devRef .tc main_arg13) = W0 m ρ c (Proc.devRef .tc main_arg13) by host_keep hostOps0).trans (W0_main_arg13 m ρ c)
theorem W2_main_arg13 (c : Dev nD) : W2 m ρ c (Proc.devRef .tc main_arg13) = m ((c : Thread nD τ).loc main_arg13) :=
  (W2_of_ne m ρ c main_arg13 (by decide)).trans (W1_main_arg13 m ρ c)
theorem W3_main_arg13 (c : Dev nD) : W3 m ρ c (Proc.devRef .tc main_arg13) = m ((c : Thread nD τ).loc main_arg13) :=
  (show W3 m ρ c (Proc.devRef .tc main_arg13) = W2 m ρ c (Proc.devRef .tc main_arg13) by host_keep hostOps1).trans (W2_main_arg13 m ρ c)
theorem W4_main_arg13 (c : Dev nD) : W4 m ρ c (Proc.devRef .tc main_arg13) = m ((c : Thread nD τ).loc main_arg13) :=
  (W4_of_ne m ρ c main_arg13 (by decide)).trans (W3_main_arg13 m ρ c)
theorem W5_main_arg13 (c : Dev nD) : W5 m ρ c (Proc.devRef .tc main_arg13) = m ((c : Thread nD τ).loc main_arg13) :=
  (show W5 m ρ c (Proc.devRef .tc main_arg13) = W4 m ρ c (Proc.devRef .tc main_arg13) by host_keep hostOps2).trans (W4_main_arg13 m ρ c)
theorem W6_main_arg13 (c : Dev nD) : W6 m ρ c (Proc.devRef .tc main_arg13) = m ((c : Thread nD τ).loc main_arg13) :=
  (W6_of_ne m ρ c main_arg13 (by decide)).trans (W5_main_arg13 m ρ c)
theorem W7_main_arg13 (c : Dev nD) : W7 m ρ c (Proc.devRef .tc main_arg13) = m ((c : Thread nD τ).loc main_arg13) :=
  (show W7 m ρ c (Proc.devRef .tc main_arg13) = W6 m ρ c (Proc.devRef .tc main_arg13) by host_keep hostOps3).trans (W6_main_arg13 m ρ c)
theorem W8_main_arg13 (c : Dev nD) : W8 m ρ c (Proc.devRef .tc main_arg13) = m ((c : Thread nD τ).loc main_arg13) :=
  (W8_of_ne m ρ c main_arg13 (by decide)).trans (W7_main_arg13 m ρ c)
theorem W9_main_arg13 (c : Dev nD) : W9 m ρ c (Proc.devRef .tc main_arg13) = m ((c : Thread nD τ).loc main_arg13) :=
  (show W9 m ρ c (Proc.devRef .tc main_arg13) = W8 m ρ c (Proc.devRef .tc main_arg13) by host_keep hostOps4).trans (W8_main_arg13 m ρ c)
theorem W10_main_arg13 (c : Dev nD) : W10 m ρ c (Proc.devRef .tc main_arg13) = m ((c : Thread nD τ).loc main_arg13) :=
  (W10_of_ne m ρ c main_arg13 (by decide)).trans (W9_main_arg13 m ρ c)
theorem W11_main_arg13 (c : Dev nD) : W11 m ρ c (Proc.devRef .tc main_arg13) = m ((c : Thread nD τ).loc main_arg13) :=
  (show W11 m ρ c (Proc.devRef .tc main_arg13) = W10 m ρ c (Proc.devRef .tc main_arg13) by host_keep hostOps5).trans (W10_main_arg13 m ρ c)
theorem W12_main_arg13 (c : Dev nD) : W12 m ρ c (Proc.devRef .tc main_arg13) = m ((c : Thread nD τ).loc main_arg13) :=
  (W12_of_ne m ρ c main_arg13 (by decide)).trans (W11_main_arg13 m ρ c)
theorem W13_main_arg13 (c : Dev nD) : W13 m ρ c (Proc.devRef .tc main_arg13) = m ((c : Thread nD τ).loc main_arg13) :=
  (show W13 m ρ c (Proc.devRef .tc main_arg13) = W12 m ρ c (Proc.devRef .tc main_arg13) by host_keep hostOps6).trans (W12_main_arg13 m ρ c)

end Cert.KernelIdeal.KChain

end
-- ==== Proof.KCarryC.lean ====
/-
  The argument arrays through the run. Between the launch and the last region the program alternates
  stretches of host operations with regions; no host operation writes an argument array and no region
  writes one (a region only reads it through an input window), so at every boundary each argument array
  holds what it held at launch. One equation per argument and boundary, each from the previous boundary's.
-/
import proofs.«178321_j61770219651569_2_alg».proof.Proof.Gen.KernelIdeal.Frame
import proofs.«178321_j61770219651569_2_alg».proof.Proof.KTactics
import Idealize.ShloMosaic.Lib.ValueLayout
import Idealize.ShloMosaic.Lib.Pipeline.Value

set_option maxRecDepth 16384

noncomputable section

open scoped BigOperators

namespace Cert.KernelIdeal.KChain

open Cert.KernelIdeal Cert.KernelIdeal.Gen Idealize.ShloMosaic Idealize.ShloMosaic.TcCoe
open Idealize.SL.Sem Idealize.ShloMosaic.Pipeline

variable (m : (ℓ : Loc nD τ sig) → Buf (Elt Ideal) ℓ) (ρ : Dev nD → PrngReg)

theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  (show W1 m ρ c (Proc.devRef .tc main_arg14) = W0 m ρ c (Proc.devRef .tc main_arg14) by host_keep hostOps0).trans (W0_main_arg14 m ρ c)
theorem W2_main_arg14 (c : Dev nD) : W2 m ρ c (Proc.devRef .tc main_arg14) = m ((c : Thread nD τ).loc main_arg14) :=
  (W2_of_ne m ρ c main_arg14 (by decide)).trans (W1_main_arg14 m ρ c)
theorem W3_main_arg14 (c : Dev nD) : W3 m ρ c (Proc.devRef .tc main_arg14) = m ((c : Thread nD τ).loc main_arg14) :=
  (show W3 m ρ c (Proc.devRef .tc main_arg14) = W2 m ρ c (Proc.devRef .tc main_arg14) by host_keep hostOps1).trans (W2_main_arg14 m ρ c)
theorem W4_main_arg14 (c : Dev nD) : W4 m ρ c (Proc.devRef .tc main_arg14) = m ((c : Thread nD τ).loc main_arg14) :=
  (W4_of_ne m ρ c main_arg14 (by decide)).trans (W3_main_arg14 m ρ c)
theorem W5_main_arg14 (c : Dev nD) : W5 m ρ c (Proc.devRef .tc main_arg14) = m ((c : Thread nD τ).loc main_arg14) :=
  (show W5 m ρ c (Proc.devRef .tc main_arg14) = W4 m ρ c (Proc.devRef .tc main_arg14) by host_keep hostOps2).trans (W4_main_arg14 m ρ c)
theorem W6_main_arg14 (c : Dev nD) : W6 m ρ c (Proc.devRef .tc main_arg14) = m ((c : Thread nD τ).loc main_arg14) :=
  (W6_of_ne m ρ c main_arg14 (by decide)).trans (W5_main_arg14 m ρ c)
theorem W7_main_arg14 (c : Dev nD) : W7 m ρ c (Proc.devRef .tc main_arg14) = m ((c : Thread nD τ).loc main_arg14) :=
  (show W7 m ρ c (Proc.devRef .tc main_arg14) = W6 m ρ c (Proc.devRef .tc main_arg14) by host_keep hostOps3).trans (W6_main_arg14 m ρ c)
theorem W8_main_arg14 (c : Dev nD) : W8 m ρ c (Proc.devRef .tc main_arg14) = m ((c : Thread nD τ).loc main_arg14) :=
  (W8_of_ne m ρ c main_arg14 (by decide)).trans (W7_main_arg14 m ρ c)
theorem W9_main_arg14 (c : Dev nD) : W9 m ρ c (Proc.devRef .tc main_arg14) = m ((c : Thread nD τ).loc main_arg14) :=
  (show W9 m ρ c (Proc.devRef .tc main_arg14) = W8 m ρ c (Proc.devRef .tc main_arg14) by host_keep hostOps4).trans (W8_main_arg14 m ρ c)
theorem W10_main_arg14 (c : Dev nD) : W10 m ρ c (Proc.devRef .tc main_arg14) = m ((c : Thread nD τ).loc main_arg14) :=
  (W10_of_ne m ρ c main_arg14 (by decide)).trans (W9_main_arg14 m ρ c)
theorem W11_main_arg14 (c : Dev nD) : W11 m ρ c (Proc.devRef .tc main_arg14) = m ((c : Thread nD τ).loc main_arg14) :=
  (show W11 m ρ c (Proc.devRef .tc main_arg14) = W10 m ρ c (Proc.devRef .tc main_arg14) by host_keep hostOps5).trans (W10_main_arg14 m ρ c)
theorem W12_main_arg14 (c : Dev nD) : W12 m ρ c (Proc.devRef .tc main_arg14) = m ((c : Thread nD τ).loc main_arg14) :=
  (W12_of_ne m ρ c main_arg14 (by decide)).trans (W11_main_arg14 m ρ c)
theorem W13_main_arg14 (c : Dev nD) : W13 m ρ c (Proc.devRef .tc main_arg14) = m ((c : Thread nD τ).loc main_arg14) :=
  (show W13 m ρ c (Proc.devRef .tc main_arg14) = W12 m ρ c (Proc.devRef .tc main_arg14) by host_keep hostOps6).trans (W12_main_arg14 m ρ c)

theorem W0_main_arg15 (c : Dev nD) : W0 m ρ c (Proc.devRef .tc main_arg15) = m ((c : Thread nD τ).loc main_arg15) := rfl
theorem W1_main_arg15 (c : Dev nD) : W1 m ρ c (Proc.devRef .tc main_arg15) = m ((c : Thread nD τ).loc main_arg15) :=
  (show W1 m ρ c (Proc.devRef .tc main_arg15) = W0 m ρ c (Proc.devRef .tc main_arg15) by host_keep hostOps0).trans (W0_main_arg15 m ρ c)
theorem W2_main_arg15 (c : Dev nD) : W2 m ρ c (Proc.devRef .tc main_arg15) = m ((c : Thread nD τ).loc main_arg15) :=
  (W2_of_ne m ρ c main_arg15 (by decide)).trans (W1_main_arg15 m ρ c)
theorem W3_main_arg15 (c : Dev nD) : W3 m ρ c (Proc.devRef .tc main_arg15) = m ((c : Thread nD τ).loc main_arg15) :=
  (show W3 m ρ c (Proc.devRef .tc main_arg15) = W2 m ρ c (Proc.devRef .tc main_arg15) by host_keep hostOps1).trans (W2_main_arg15 m ρ c)
theorem W4_main_arg15 (c : Dev nD) : W4 m ρ c (Proc.devRef .tc main_arg15) = m ((c : Thread nD τ).loc main_arg15) :=
  (W4_of_ne m ρ c main_arg15 (by decide)).trans (W3_main_arg15 m ρ c)
theorem W5_main_arg15 (c : Dev nD) : W5 m ρ c (Proc.devRef .tc main_arg15) = m ((c : Thread nD τ).loc main_arg15) :=
  (show W5 m ρ c (Proc.devRef .tc main_arg15) = W4 m ρ c (Proc.devRef .tc main_arg15) by host_keep hostOps2).trans (W4_main_arg15 m ρ c)
theorem W6_main_arg15 (c : Dev nD) : W6 m ρ c (Proc.devRef .tc main_arg15) = m ((c : Thread nD τ).loc main_arg15) :=
  (W6_of_ne m ρ c main_arg15 (by decide)).trans (W5_main_arg15 m ρ c)
theorem W7_main_arg15 (c : Dev nD) : W7 m ρ c (Proc.devRef .tc main_arg15) = m ((c : Thread nD τ).loc main_arg15) :=
  (show W7 m ρ c (Proc.devRef .tc main_arg15) = W6 m ρ c (Proc.devRef .tc main_arg15) by host_keep hostOps3).trans (W6_main_arg15 m ρ c)
theorem W8_main_arg15 (c : Dev nD) : W8 m ρ c (Proc.devRef .tc main_arg15) = m ((c : Thread nD τ).loc main_arg15) :=
  (W8_of_ne m ρ c main_arg15 (by decide)).trans (W7_main_arg15 m ρ c)
theorem W9_main_arg15 (c : Dev nD) : W9 m ρ c (Proc.devRef .tc main_arg15) = m ((c : Thread nD τ).loc main_arg15) :=
  (show W9 m ρ c (Proc.devRef .tc main_arg15) = W8 m ρ c (Proc.devRef .tc main_arg15) by host_keep hostOps4).trans (W8_main_arg15 m ρ c)
theorem W10_main_arg15 (c : Dev nD) : W10 m ρ c (Proc.devRef .tc main_arg15) = m ((c : Thread nD τ).loc main_arg15) :=
  (W10_of_ne m ρ c main_arg15 (by decide)).trans (W9_main_arg15 m ρ c)
theorem W11_main_arg15 (c : Dev nD) : W11 m ρ c (Proc.devRef .tc main_arg15) = m ((c : Thread nD τ).loc main_arg15) :=
  (show W11 m ρ c (Proc.devRef .tc main_arg15) = W10 m ρ c (Proc.devRef .tc main_arg15) by host_keep hostOps5).trans (W10_main_arg15 m ρ c)
theorem W12_main_arg15 (c : Dev nD) : W12 m ρ c (Proc.devRef .tc main_arg15) = m ((c : Thread nD τ).loc main_arg15) :=
  (W12_of_ne m ρ c main_arg15 (by decide)).trans (W11_main_arg15 m ρ c)
theorem W13_main_arg15 (c : Dev nD) : W13 m ρ c (Proc.devRef .tc main_arg15) = m ((c : Thread nD τ).loc main_arg15) :=
  (show W13 m ρ c (Proc.devRef .tc main_arg15) = W12 m ρ c (Proc.devRef .tc main_arg15) by host_keep hostOps6).trans (W12_main_arg15 m ρ c)

theorem W0_main_arg16 (c : Dev nD) : W0 m ρ c (Proc.devRef .tc main_arg16) = m ((c : Thread nD τ).loc main_arg16) := rfl
theorem W1_main_arg16 (c : Dev nD) : W1 m ρ c (Proc.devRef .tc main_arg16) = m ((c : Thread nD τ).loc main_arg16) :=
  (show W1 m ρ c (Proc.devRef .tc main_arg16) = W0 m ρ c (Proc.devRef .tc main_arg16) by host_keep hostOps0).trans (W0_main_arg16 m ρ c)
theorem W2_main_arg16 (c : Dev nD) : W2 m ρ c (Proc.devRef .tc main_arg16) = m ((c : Thread nD τ).loc main_arg16) :=
  (W2_of_ne m ρ c main_arg16 (by decide)).trans (W1_main_arg16 m ρ c)
theorem W3_main_arg16 (c : Dev nD) : W3 m ρ c (Proc.devRef .tc main_arg16) = m ((c : Thread nD τ).loc main_arg16) :=
  (show W3 m ρ c (Proc.devRef .tc main_arg16) = W2 m ρ c (Proc.devRef .tc main_arg16) by host_keep hostOps1).trans (W2_main_arg16 m ρ c)
theorem W4_main_arg16 (c : Dev nD) : W4 m ρ c (Proc.devRef .tc main_arg16) = m ((c : Thread nD τ).loc main_arg16) :=
  (W4_of_ne m ρ c main_arg16 (by decide)).trans (W3_main_arg16 m ρ c)
theorem W5_main_arg16 (c : Dev nD) : W5 m ρ c (Proc.devRef .tc main_arg16) = m ((c : Thread nD τ).loc main_arg16) :=
  (show W5 m ρ c (Proc.devRef .tc main_arg16) = W4 m ρ c (Proc.devRef .tc main_arg16) by host_keep hostOps2).trans (W4_main_arg16 m ρ c)
theorem W6_main_arg16 (c : Dev nD) : W6 m ρ c (Proc.devRef .tc main_arg16) = m ((c : Thread nD τ).loc main_arg16) :=
  (W6_of_ne m ρ c main_arg16 (by decide)).trans (W5_main_arg16 m ρ c)
theorem W7_main_arg16 (c : Dev nD) : W7 m ρ c (Proc.devRef .tc main_arg16) = m ((c : Thread nD τ).loc main_arg16) :=
  (show W7 m ρ c (Proc.devRef .tc main_arg16) = W6 m ρ c (Proc.devRef .tc main_arg16) by host_keep hostOps3).trans (W6_main_arg16 m ρ c)
theorem W8_main_arg16 (c : Dev nD) : W8 m ρ c (Proc.devRef .tc main_arg16) = m ((c : Thread nD τ).loc main_arg16) :=
  (W8_of_ne m ρ c main_arg16 (by decide)).trans (W7_main_arg16 m ρ c)
theorem W9_main_arg16 (c : Dev nD) : W9 m ρ c (Proc.devRef .tc main_arg16) = m ((c : Thread nD τ).loc main_arg16) :=
  (show W9 m ρ c (Proc.devRef .tc main_arg16) = W8 m ρ c (Proc.devRef .tc main_arg16) by host_keep hostOps4).trans (W8_main_arg16 m ρ c)
theorem W10_main_arg16 (c : Dev nD) : W10 m ρ c (Proc.devRef .tc main_arg16) = m ((c : Thread nD τ).loc main_arg16) :=
  (W10_of_ne m ρ c main_arg16 (by decide)).trans (W9_main_arg16 m ρ c)
theorem W11_main_arg16 (c : Dev nD) : W11 m ρ c (Proc.devRef .tc main_arg16) = m ((c : Thread nD τ).loc main_arg16) :=
  (show W11 m ρ c (Proc.devRef .tc main_arg16) = W10 m ρ c (Proc.devRef .tc main_arg16) by host_keep hostOps5).trans (W10_main_arg16 m ρ c)
theorem W12_main_arg16 (c : Dev nD) : W12 m ρ c (Proc.devRef .tc main_arg16) = m ((c : Thread nD τ).loc main_arg16) :=
  (W12_of_ne m ρ c main_arg16 (by decide)).trans (W11_main_arg16 m ρ c)
theorem W13_main_arg16 (c : Dev nD) : W13 m ρ c (Proc.devRef .tc main_arg16) = m ((c : Thread nD τ).loc main_arg16) :=
  (show W13 m ρ c (Proc.devRef .tc main_arg16) = W12 m ρ c (Proc.devRef .tc main_arg16) by host_keep hostOps6).trans (W12_main_arg16 m ρ c)

theorem W0_main_arg17 (c : Dev nD) : W0 m ρ c (Proc.devRef .tc main_arg17) = m ((c : Thread nD τ).loc main_arg17) := rfl
theorem W1_main_arg17 (c : Dev nD) : W1 m ρ c (Proc.devRef .tc main_arg17) = m ((c : Thread nD τ).loc main_arg17) :=
  (show W1 m ρ c (Proc.devRef .tc main_arg17) = W0 m ρ c (Proc.devRef .tc main_arg17) by host_keep hostOps0).trans (W0_main_arg17 m ρ c)
theorem W2_main_arg17 (c : Dev nD) : W2 m ρ c (Proc.devRef .tc main_arg17) = m ((c : Thread nD τ).loc main_arg17) :=
  (W2_of_ne m ρ c main_arg17 (by decide)).trans (W1_main_arg17 m ρ c)
theorem W3_main_arg17 (c : Dev nD) : W3 m ρ c (Proc.devRef .tc main_arg17) = m ((c : Thread nD τ).loc main_arg17) :=
  (show W3 m ρ c (Proc.devRef .tc main_arg17) = W2 m ρ c (Proc.devRef .tc main_arg17) by host_keep hostOps1).trans (W2_main_arg17 m ρ c)
theorem W4_main_arg17 (c : Dev nD) : W4 m ρ c (Proc.devRef .tc main_arg17) = m ((c : Thread nD τ).loc main_arg17) :=
  (W4_of_ne m ρ c main_arg17 (by decide)).trans (W3_main_arg17 m ρ c)
theorem W5_main_arg17 (c : Dev nD) : W5 m ρ c (Proc.devRef .tc main_arg17) = m ((c : Thread nD τ).loc main_arg17) :=
  (show W5 m ρ c (Proc.devRef .tc main_arg17) = W4 m ρ c (Proc.devRef .tc main_arg17) by host_keep hostOps2).trans (W4_main_arg17 m ρ c)
theorem W6_main_arg17 (c : Dev nD) : W6 m ρ c (Proc.devRef .tc main_arg17) = m ((c : Thread nD τ).loc main_arg17) :=
  (W6_of_ne m ρ c main_arg17 (by decide)).trans (W5_main_arg17 m ρ c)
theorem W7_main_arg17 (c : Dev nD) : W7 m ρ c (Proc.devRef .tc main_arg17) = m ((c : Thread nD τ).loc main_arg17) :=
  (show W7 m ρ c (Proc.devRef .tc main_arg17) = W6 m ρ c (Proc.devRef .tc main_arg17) by host_keep hostOps3).trans (W6_main_arg17 m ρ c)
theorem W8_main_arg17 (c : Dev nD) : W8 m ρ c (Proc.devRef .tc main_arg17) = m ((c : Thread nD τ).loc main_arg17) :=
  (W8_of_ne m ρ c main_arg17 (by decide)).trans (W7_main_arg17 m ρ c)
theorem W9_main_arg17 (c : Dev nD) : W9 m ρ c (Proc.devRef .tc main_arg17) = m ((c : Thread nD τ).loc main_arg17) :=
  (show W9 m ρ c (Proc.devRef .tc main_arg17) = W8 m ρ c (Proc.devRef .tc main_arg17) by host_keep hostOps4).trans (W8_main_arg17 m ρ c)
theorem W10_main_arg17 (c : Dev nD) : W10 m ρ c (Proc.devRef .tc main_arg17) = m ((c : Thread nD τ).loc main_arg17) :=
  (W10_of_ne m ρ c main_arg17 (by decide)).trans (W9_main_arg17 m ρ c)
theorem W11_main_arg17 (c : Dev nD) : W11 m ρ c (Proc.devRef .tc main_arg17) = m ((c : Thread nD τ).loc main_arg17) :=
  (show W11 m ρ c (Proc.devRef .tc main_arg17) = W10 m ρ c (Proc.devRef .tc main_arg17) by host_keep hostOps5).trans (W10_main_arg17 m ρ c)
theorem W12_main_arg17 (c : Dev nD) : W12 m ρ c (Proc.devRef .tc main_arg17) = m ((c : Thread nD τ).loc main_arg17) :=
  (W12_of_ne m ρ c main_arg17 (by decide)).trans (W11_main_arg17 m ρ c)
theorem W13_main_arg17 (c : Dev nD) : W13 m ρ c (Proc.devRef .tc main_arg17) = m ((c : Thread nD τ).loc main_arg17) :=
  (show W13 m ρ c (Proc.devRef .tc main_arg17) = W12 m ρ c (Proc.devRef .tc main_arg17) by host_keep hostOps6).trans (W12_main_arg17 m ρ c)

theorem W0_main_arg18 (c : Dev nD) : W0 m ρ c (Proc.devRef .tc main_arg18) = m ((c : Thread nD τ).loc main_arg18) := rfl
theorem W1_main_arg18 (c : Dev nD) : W1 m ρ c (Proc.devRef .tc main_arg18) = m ((c : Thread nD τ).loc main_arg18) :=
  (show W1 m ρ c (Proc.devRef .tc main_arg18) = W0 m ρ c (Proc.devRef .tc main_arg18) by host_keep hostOps0).trans (W0_main_arg18 m ρ c)
theorem W2_main_arg18 (c : Dev nD) : W2 m ρ c (Proc.devRef .tc main_arg18) = m ((c : Thread nD τ).loc main_arg18) :=
  (W2_of_ne m ρ c main_arg18 (by decide)).trans (W1_main_arg18 m ρ c)
theorem W3_main_arg18 (c : Dev nD) : W3 m ρ c (Proc.devRef .tc main_arg18) = m ((c : Thread nD τ).loc main_arg18) :=
  (show W3 m ρ c (Proc.devRef .tc main_arg18) = W2 m ρ c (Proc.devRef .tc main_arg18) by host_keep hostOps1).trans (W2_main_arg18 m ρ c)
theorem W4_main_arg18 (c : Dev nD) : W4 m ρ c (Proc.devRef .tc main_arg18) = m ((c : Thread nD τ).loc main_arg18) :=
  (W4_of_ne m ρ c main_arg18 (by decide)).trans (W3_main_arg18 m ρ c)
theorem W5_main_arg18 (c : Dev nD) : W5 m ρ c (Proc.devRef .tc main_arg18) = m ((c : Thread nD τ).loc main_arg18) :=
  (show W5 m ρ c (Proc.devRef .tc main_arg18) = W4 m ρ c (Proc.devRef .tc main_arg18) by host_keep hostOps2).trans (W4_main_arg18 m ρ c)
theorem W6_main_arg18 (c : Dev nD) : W6 m ρ c (Proc.devRef .tc main_arg18) = m ((c : Thread nD τ).loc main_arg18) :=
  (W6_of_ne m ρ c main_arg18 (by decide)).trans (W5_main_arg18 m ρ c)
theorem W7_main_arg18 (c : Dev nD) : W7 m ρ c (Proc.devRef .tc main_arg18) = m ((c : Thread nD τ).loc main_arg18) :=
  (show W7 m ρ c (Proc.devRef .tc main_arg18) = W6 m ρ c (Proc.devRef .tc main_arg18) by host_keep hostOps3).trans (W6_main_arg18 m ρ c)
theorem W8_main_arg18 (c : Dev nD) : W8 m ρ c (Proc.devRef .tc main_arg18) = m ((c : Thread nD τ).loc main_arg18) :=
  (W8_of_ne m ρ c main_arg18 (by decide)).trans (W7_main_arg18 m ρ c)
theorem W9_main_arg18 (c : Dev nD) : W9 m ρ c (Proc.devRef .tc main_arg18) = m ((c : Thread nD τ).loc main_arg18) :=
  (show W9 m ρ c (Proc.devRef .tc main_arg18) = W8 m ρ c (Proc.devRef .tc main_arg18) by host_keep hostOps4).trans (W8_main_arg18 m ρ c)
theorem W10_main_arg18 (c : Dev nD) : W10 m ρ c (Proc.devRef .tc main_arg18) = m ((c : Thread nD τ).loc main_arg18) :=
  (W10_of_ne m ρ c main_arg18 (by decide)).trans (W9_main_arg18 m ρ c)
theorem W11_main_arg18 (c : Dev nD) : W11 m ρ c (Proc.devRef .tc main_arg18) = m ((c : Thread nD τ).loc main_arg18) :=
  (show W11 m ρ c (Proc.devRef .tc main_arg18) = W10 m ρ c (Proc.devRef .tc main_arg18) by host_keep hostOps5).trans (W10_main_arg18 m ρ c)
theorem W12_main_arg18 (c : Dev nD) : W12 m ρ c (Proc.devRef .tc main_arg18) = m ((c : Thread nD τ).loc main_arg18) :=
  (W12_of_ne m ρ c main_arg18 (by decide)).trans (W11_main_arg18 m ρ c)
theorem W13_main_arg18 (c : Dev nD) : W13 m ρ c (Proc.devRef .tc main_arg18) = m ((c : Thread nD τ).loc main_arg18) :=
  (show W13 m ρ c (Proc.devRef .tc main_arg18) = W12 m ρ c (Proc.devRef .tc main_arg18) by host_keep hostOps6).trans (W12_main_arg18 m ρ c)

theorem W0_main_arg19 (c : Dev nD) : W0 m ρ c (Proc.devRef .tc main_arg19) = m ((c : Thread nD τ).loc main_arg19) := rfl
theorem W1_main_arg19 (c : Dev nD) : W1 m ρ c (Proc.devRef .tc main_arg19) = m ((c : Thread nD τ).loc main_arg19) :=
  (show W1 m ρ c (Proc.devRef .tc main_arg19) = W0 m ρ c (Proc.devRef .tc main_arg19) by host_keep hostOps0).trans (W0_main_arg19 m ρ c)
theorem W2_main_arg19 (c : Dev nD) : W2 m ρ c (Proc.devRef .tc main_arg19) = m ((c : Thread nD τ).loc main_arg19) :=
  (W2_of_ne m ρ c main_arg19 (by decide)).trans (W1_main_arg19 m ρ c)
theorem W3_main_arg19 (c : Dev nD) : W3 m ρ c (Proc.devRef .tc main_arg19) = m ((c : Thread nD τ).loc main_arg19) :=
  (show W3 m ρ c (Proc.devRef .tc main_arg19) = W2 m ρ c (Proc.devRef .tc main_arg19) by host_keep hostOps1).trans (W2_main_arg19 m ρ c)
theorem W4_main_arg19 (c : Dev nD) : W4 m ρ c (Proc.devRef .tc main_arg19) = m ((c : Thread nD τ).loc main_arg19) :=
  (W4_of_ne m ρ c main_arg19 (by decide)).trans (W3_main_arg19 m ρ c)
theorem W5_main_arg19 (c : Dev nD) : W5 m ρ c (Proc.devRef .tc main_arg19) = m ((c : Thread nD τ).loc main_arg19) :=
  (show W5 m ρ c (Proc.devRef .tc main_arg19) = W4 m ρ c (Proc.devRef .tc main_arg19) by host_keep hostOps2).trans (W4_main_arg19 m ρ c)
theorem W6_main_arg19 (c : Dev nD) : W6 m ρ c (Proc.devRef .tc main_arg19) = m ((c : Thread nD τ).loc main_arg19) :=
  (W6_of_ne m ρ c main_arg19 (by decide)).trans (W5_main_arg19 m ρ c)
theorem W7_main_arg19 (c : Dev nD) : W7 m ρ c (Proc.devRef .tc main_arg19) = m ((c : Thread nD τ).loc main_arg19) :=
  (show W7 m ρ c (Proc.devRef .tc main_arg19) = W6 m ρ c (Proc.devRef .tc main_arg19) by host_keep hostOps3).trans (W6_main_arg19 m ρ c)
theorem W8_main_arg19 (c : Dev nD) : W8 m ρ c (Proc.devRef .tc main_arg19) = m ((c : Thread nD τ).loc main_arg19) :=
  (W8_of_ne m ρ c main_arg19 (by decide)).trans (W7_main_arg19 m ρ c)
theorem W9_main_arg19 (c : Dev nD) : W9 m ρ c (Proc.devRef .tc main_arg19) = m ((c : Thread nD τ).loc main_arg19) :=
  (show W9 m ρ c (Proc.devRef .tc main_arg19) = W8 m ρ c (Proc.devRef .tc main_arg19) by host_keep hostOps4).trans (W8_main_arg19 m ρ c)
theorem W10_main_arg19 (c : Dev nD) : W10 m ρ c (Proc.devRef .tc main_arg19) = m ((c : Thread nD τ).loc main_arg19) :=
  (W10_of_ne m ρ c main_arg19 (by decide)).trans (W9_main_arg19 m ρ c)
theorem W11_main_arg19 (c : Dev nD) : W11 m ρ c (Proc.devRef .tc main_arg19) = m ((c : Thread nD τ).loc main_arg19) :=
  (show W11 m ρ c (Proc.devRef .tc main_arg19) = W10 m ρ c (Proc.devRef .tc main_arg19) by host_keep hostOps5).trans (W10_main_arg19 m ρ c)
theorem W12_main_arg19 (c : Dev nD) : W12 m ρ c (Proc.devRef .tc main_arg19) = m ((c : Thread nD τ).loc main_arg19) :=
  (W12_of_ne m ρ c main_arg19 (by decide)).trans (W11_main_arg19 m ρ c)
theorem W13_main_arg19 (c : Dev nD) : W13 m ρ c (Proc.devRef .tc main_arg19) = m ((c : Thread nD τ).loc main_arg19) :=
  (show W13 m ρ c (Proc.devRef .tc main_arg19) = W12 m ρ c (Proc.devRef .tc main_arg19) by host_keep hostOps6).trans (W12_main_arg19 m ρ c)

end Cert.KernelIdeal.KChain

end
-- ==== Proof.SageSpec.lean ====
/-
  The mathematics of a two-sided mean-aggregation graph layer, as functions of whole matrices over the
  extended reals, position by position.

  A matrix is a function of its (row, column) position. `dense x w` is the matrix product: at (r, c) the
  finite sum over k of x (r, k) * w (k, c). `linRelu` is a product plus a row bias, cut below at zero.
  `combine` is one layer's update of the destination rows: the aggregated sums s scaled row by row by
  inv, times wl, plus the bias, plus the destination rows times wr, cut below at zero, plus the destination
  rows themselves. `combineDiv` is the same update with each aggregated row DIVIDED by a row divisor d
  instead of multiplied by its reciprocal. `head` is the two-product read-out. Every one of these reads, at
  row r of its result, only row r of its row-wise operands: that is what lets a result be computed in
  blocks of rows.

  The law that joins a multiplied reciprocal with a division: off zero, x * (1 / d) = x / d on the extended
  reals, at the infinities too, because the quotient is DEFINED as the product with the inverse there.
-/
import Idealize.ShloMosaic.PureOps.Ideal.Laws
import Idealize.ShloMosaic.Lib.ValueIdx

noncomputable section

open scoped BigOperators

namespace Cert.Sage

open Idealize.ShloMosaic Idealize.ShloMosaic.ValueIdx

/-- An M×N matrix of extended reals, as a function of the position. -/
abbrev Mat (M N : ℕ) : Type := (⟨2, ![M, N]⟩ : Shape).Idx → EReal

/-- A length-n vector as a one-row matrix. -/
def rowOf {n : ℕ} (b : (⟨1, ![n]⟩ : Shape).Idx → EReal) : Mat 1 n := fun i => b (ix1 (n := n) (i 1))

/-- A length-n vector as a one-column matrix. -/
def colOf {n : ℕ} (d : (⟨1, ![n]⟩ : Shape).Idx → EReal) : Mat n 1 := fun i => d (ix1 (n := n) (i 0))

/-- The matrix product: at (r, c), the sum over k of x (r, k) * w (k, c). -/
def dense {M K H : ℕ} (x : Mat M K) (w : Mat K H) : Mat M H :=
  fun i => ∑ k : Fin K, x (ix2 (n0 := M) (i 0) k) * w (ix2 (n1 := H) k (i 1))

/-- A product plus a bias row, cut below at zero. -/
def linRelu {M K H : ℕ} (x : Mat M K) (w : Mat K H) (b : Mat 1 H) : Mat M H :=
  fun i => max (dense x w i + b (ix2 (n1 := H) (0 : Fin 1) (i 1))) 0

/-- The aggregated sums scaled row by row. -/
def scaleRows {M H : ℕ} (s : Mat M H) (inv : Mat M 1) : Mat M H :=
  fun i => s i * inv (ix2 (n0 := M) (i 0) (0 : Fin 1))

/-- The aggregated sums divided row by row. -/
def divRows {M H : ℕ} (s : Mat M H) (d : Mat M 1) : Mat M H :=
  fun i => Ideal.div (s i) (d (ix2 (n0 := M) (i 0) (0 : Fin 1)))

/-- One layer's update of the destination rows from an already averaged aggregate. -/
def update {M H : ℕ} (mean : Mat M H) (xd : Mat M H) (wl : Mat H H) (bl : Mat 1 H) (wr : Mat H H) : Mat M H :=
  fun i => max ((dense mean wl i + bl (ix2 (n1 := H) (0 : Fin 1) (i 1))) + dense xd wr i) 0 + xd i

/-- The update with the aggregate multiplied by a reciprocal row scale. -/
def combine {M H : ℕ} (s : Mat M H) (inv : Mat M 1) (xd : Mat M H) (wl : Mat H H) (bl : Mat 1 H) (wr : Mat H H) :
    Mat M H := update (scaleRows s inv) xd wl bl wr

/-- The update with the aggregate divided by a row divisor. -/
def combineDiv {M H : ℕ} (s : Mat M H) (d : Mat M 1) (xd : Mat M H) (wl : Mat H H) (bl : Mat 1 H) (wr : Mat H H) :
    Mat M H := update (divRows s d) xd wl bl wr

/-- The read-out: a product with bias cut below at zero, then a product with bias. -/
def head {M H H2 O : ℕ} (xc : Mat M H) (wo1 : Mat H H2) (bo1 : Mat 1 H2) (wo2 : Mat H2 O) (bo2 : Mat 1 O) : Mat M O :=
  fun i => dense (linRelu xc wo1 bo1) wo2 i + bo2 (ix2 (n1 := O) (0 : Fin 1) (i 1))

/-- Off zero, multiplying by the quotient 1 / d is dividing by d, for every extended real x. -/
theorem mul_one_div {d : EReal} (hd : d ≠ 0) (x : EReal) : x * Ideal.div 1 d = Ideal.div x d := by
  unfold Ideal.div
  rw [if_neg hd, if_neg hd, one_mul]

/-- A maximum with one is not zero. -/
theorem max_one_ne_zero (a : EReal) : max a 1 ≠ 0 := by
  have h : (0 : EReal) < max a 1 := lt_of_lt_of_le zero_lt_one (le_max_right a 1)
  exact ne_of_gt h

/-- Scaling the rows by the reciprocals of divisors that are maxima with one is dividing the rows by them. -/
theorem scaleRows_eq_divRows {M H : ℕ} (s : Mat M H) (cnt : Mat M 1) :
    scaleRows s (fun j => Ideal.div 1 (max (cnt j) 1)) = divRows s (fun j => max (cnt j) 1) := by
  funext i
  exact mul_one_div (max_one_ne_zero _) _

end Cert.Sage

end
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.SageBody.lean ====
/-
  The row-block computations of the layer, and the host's whole-array computations of it, are the
  position-by-position functions of `SageSpec`.

  Every float operation here is the exact one on the extended reals, a change of float format is the
  identity, and a matrix product into a zero accumulator (on the accelerator) or a general dot product (on
  the host) with the plain dimension numbers is, at (r, c), the finite sum over k of lhs (r, k) * rhs (k, c).
  A bias row is broadcast over the rows; a one-column scale is broadcast over the columns. So each block
  body and each host stage is one of `linRelu`, `combine`, `combineDiv`, `head` of its operands.
-/
import proofs.«178321_j61770219651569_2_alg».proof.Proof.SageSpec
import proofs.«178321_j61770219651569_2_alg».proof.Proof.LibPlainDot
import Idealize.ShloMosaic.Lib.ValueLayout
import Idealize.ShloMosaic.Lib.Pipeline.Value

noncomputable section

open scoped BigOperators

namespace Cert.Sage

open Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accelerator's product into the zero accumulator is the matrix product. -/
theorem matmulZero_eq_dense {M K H : ℕ} {φ₁ φ₂ : FTy} (d : DotDims ⟨2, ![M, K]⟩ ⟨2, ![K, H]⟩ ⟨2, ![M, H]⟩)
    (hd : d = DotDims.plain M K H) (prec : Option ContractPrecision)
    (x : FVec Ideal ⟨2, ![M, K]⟩ φ₁) (w : FVec Ideal ⟨2, ![K, H]⟩ φ₂) :
    FloatOps.matmul d prec x w (constant ⟨2, ![M, H]⟩ .f32 0x00000000#32) = dense (M := M) (K := K) (H := H) x w := by
  subst hd
  funext i
  rw [Ideal.matmul_constant_zero_apply, eq_ix2 i]
  exact Cert.PlainDot.sum_eq x w (i 0) (i 1)

/-- The host's general dot product is the matrix product. -/
theorem dotGeneral_eq_dense {M K H : ℕ} {φ₁ φ₂ : FTy} (d : DotDims ⟨2, ![M, K]⟩ ⟨2, ![K, H]⟩ ⟨2, ![M, H]⟩)
    (hd : d = DotDims.plain M K H) (prec : Option ContractPrecision) (sched : HostSchedule)
    (x : FVec Ideal ⟨2, ![M, K]⟩ φ₁) (w : FVec Ideal ⟨2, ![K, H]⟩ φ₂) :
    FloatOps.dotGeneral d prec sched x w = dense (M := M) (K := K) (H := H) x w := by
  subst hd
  funext i
  rw [Ideal.dotGeneral_apply, eq_ix2 i]
  exact Cert.PlainDot.sum_eq x w (i 0) (i 1)

end Cert.Sage

end
-- ==== Proof.SageTerms.lean ====
/-
  The three block bodies as terms of vector operations, at the exact extended-real values.

  `linReluTerm`: product into zeros, plus the broadcast bias row, maximum with a zero splat.
  `combineTerm`: the aggregate times its one-column scale broadcast over the columns, product with wl into
  zeros, plus the bias row, plus the product of the destination rows with wr, maximum with zero, plus the
  destination rows. `readoutTerm`: product into zeros plus the bias row. Each is the position-by-position
  function of `SageSpec` of the same operands: format changes are the identity, a product into zeros is
  `dense`, a row or column broadcast reads its one row or column.
-/
import proofs.«178321_j61770219651569_2_alg».proof.Proof.SageBody

noncomputable section

open scoped BigOperators

namespace Cert.Sage

open Idealize.ShloMosaic Idealize.ShloMosaic.ValueIdx

variable {M K H H2 O : ℕ}

/-- The accelerator's product into the zero accumulator, as the vector operation spells it, is the matrix product. -/
theorem matmul_eq_dense {φ₁ φ₂ : FTy} (d : DotDims ⟨2, ![M, K]⟩ ⟨2, ![K, H]⟩ ⟨2, ![M, H]⟩) (hd : d = DotDims.plain M K H)
    (prec : Option ContractPrecision) (x : FVec Ideal ⟨2, ![M, K]⟩ φ₁) (w : FVec Ideal ⟨2, ![K, H]⟩ φ₂) :
    matmul d prec x w (constant ⟨2, ![M, H]⟩ .f32 0x00000000#32) = dense (M := M) (K := K) (H := H) x w :=
  matmulZero_eq_dense d hd prec x w

theorem linReluTerm_eq (d : DotDims ⟨2, ![M, K]⟩ ⟨2, ![K, H]⟩ ⟨2, ![M, H]⟩) (hd : d = DotDims.plain M K H)
    (x : FVec Ideal ⟨2, ![M, K]⟩ .f32) (w : FVec Ideal ⟨2, ![K, H]⟩ .f32) (b : FVec Ideal ⟨2, ![1, H]⟩ .f32)
    (hx : FTy.bf16.bits < FTy.f32.bits) (hb : (⟨2, ![1, H]⟩ : Shape).Broadcasts ⟨2, ![M, H]⟩) :
    maximumf (addf (matmul d none (truncf .bf16 x hx) (truncf .bf16 w hx) (constant ⟨2, ![M, H]⟩ .f32 0x00000000#32))
        (broadcastTo ⟨2, ![M, H]⟩ b hb))
      (broadcast ⟨2, ![M, H]⟩ (Scalar.ofBits (F := Ideal) .f32 0x00000000#32)) = linRelu x w b := by
  rw [matmul_eq_dense d hd]
  funext i
  obtain ⟨r, c, rfl⟩ : ∃ (r : Fin M) (c : Fin H), i = ix2 r c := ⟨i 0, i 1, eq_ix2 i⟩
  show max (dense (M := M) (K := K) (H := H) x w (ix2 r c) + broadcastTo ⟨2, ![M, H]⟩ b hb (ix2 r c)) (Ideal.ofBits .f32 0x00000000#32) = _
  rw [broadcastTo_1b_ab_apply, Ideal.ofBits_zero_f32]
  rfl

theorem combineTerm_eq (d : DotDims ⟨2, ![M, H]⟩ ⟨2, ![H, H]⟩ ⟨2, ![M, H]⟩) (hd : d = DotDims.plain M H H)
    (s : FVec Ideal ⟨2, ![M, H]⟩ .f32) (inv : FVec Ideal ⟨2, ![M, 1]⟩ .f32) (xd : FVec Ideal ⟨2, ![M, H]⟩ .f32)
    (wl : FVec Ideal ⟨2, ![H, H]⟩ .f32) (bl : FVec Ideal ⟨2, ![1, H]⟩ .f32) (wr : FVec Ideal ⟨2, ![H, H]⟩ .f32)
    (hx : FTy.bf16.bits < FTy.f32.bits) (hc : (⟨2, ![M, 1]⟩ : Shape).Broadcasts ⟨2, ![M, H]⟩)
    (hb : (⟨2, ![1, H]⟩ : Shape).Broadcasts ⟨2, ![M, H]⟩) :
    addf (maximumf (addf (addf (matmul d none (truncf .bf16 (mulf s (broadcastTo ⟨2, ![M, H]⟩ inv hc)) hx) (truncf .bf16 wl hx)
              (constant ⟨2, ![M, H]⟩ .f32 0x00000000#32)) (broadcastTo ⟨2, ![M, H]⟩ bl hb))
            (matmul d none (truncf .bf16 xd hx) (truncf .bf16 wr hx) (constant ⟨2, ![M, H]⟩ .f32 0x00000000#32)))
          (broadcast ⟨2, ![M, H]⟩ (Scalar.ofBits (F := Ideal) .f32 0x00000000#32))) xd
      = combine s inv xd wl bl wr := by
  rw [matmul_eq_dense d hd, matmul_eq_dense d hd]
  have hs : (truncf .bf16 (mulf s (broadcastTo ⟨2, ![M, H]⟩ inv hc)) hx : FVec Ideal ⟨2, ![M, H]⟩ .bf16) = scaleRows s inv := by
    funext i
    obtain ⟨r, c, rfl⟩ : ∃ (r : Fin M) (c : Fin H), i = ix2 r c := ⟨i 0, i 1, eq_ix2 i⟩
    show s (ix2 r c) * broadcastTo ⟨2, ![M, H]⟩ inv hc (ix2 r c) = _
    rw [broadcastTo_a1_ab_apply]
    rfl
  rw [hs]
  funext i
  obtain ⟨r, c, rfl⟩ : ∃ (r : Fin M) (c : Fin H), i = ix2 r c := ⟨i 0, i 1, eq_ix2 i⟩
  show max ((dense (M := M) (K := H) (H := H) (scaleRows s inv) wl (ix2 r c) + broadcastTo ⟨2, ![M, H]⟩ bl hb (ix2 r c))
      + dense (M := M) (K := H) (H := H) xd wr (ix2 r c)) (Ideal.ofBits .f32 0x00000000#32) + xd (ix2 r c) = _
  rw [broadcastTo_1b_ab_apply, Ideal.ofBits_zero_f32]
  rfl

theorem readoutTerm_eq (d : DotDims ⟨2, ![M, H2]⟩ ⟨2, ![H2, O]⟩ ⟨2, ![M, O]⟩) (hd : d = DotDims.plain M H2 O)
    (h : FVec Ideal ⟨2, ![M, H2]⟩ .bf16) (w : FVec Ideal ⟨2, ![H2, O]⟩ .f32) (b : FVec Ideal ⟨2, ![1, O]⟩ .f32)
    (hx : FTy.bf16.bits < FTy.f32.bits) (hb : (⟨2, ![1, O]⟩ : Shape).Broadcasts ⟨2, ![M, O]⟩) :
    addf (matmul d none h (truncf .bf16 w hx) (constant ⟨2, ![M, O]⟩ .f32 0x00000000#32)) (broadcastTo ⟨2, ![M, O]⟩ b hb)
      = fun i => dense (M := M) (K := H2) (H := O) h w i + b (ix2 (n1 := O) (0 : Fin 1) (i 1)) := by
  rw [matmul_eq_dense d hd]
  funext i
  obtain ⟨r, c, rfl⟩ : ∃ (r : Fin M) (c : Fin O), i = ix2 r c := ⟨i 0, i 1, eq_ix2 i⟩
  show dense (M := M) (K := H2) (H := O) h w (ix2 r c) + broadcastTo ⟨2, ![M, O]⟩ b hb (ix2 r c) = _
  rw [broadcastTo_1b_ab_apply]
  rfl

end Cert.Sage

end
-- ==== Proof.SageRows.lean ====
/-
  Row locality. Each of `dense`, `linRelu`, `combine`, `head` reads, for row r of its result, only row r of
  its row-wise operands (and the weights, which are not split). So if a block of rows of the operands agrees
  with the whole operands along one row — block row (j 0) against whole row (i 0) — and the columns (j 1) and
  (i 1) are the same column of the weights, then the block's result at j is the whole result at i.
-/
import proofs.«178321_j61770219651569_2_alg».proof.Proof.SageSpec

noncomputable section

open scoped BigOperators

namespace Cert.Sage

open Idealize.ShloMosaic Idealize.ShloMosaic.ValueIdx

variable {Mb M K H H2 O : ℕ}

theorem dense_row (xb : Mat Mb K) (wb : Mat K H) (X : Mat M K) (W : Mat K H)
    (j : (⟨2, ![Mb, H]⟩ : Shape).Idx) (i : (⟨2, ![M, H]⟩ : Shape).Idx)
    (hx : ∀ k : Fin K, xb (ix2 (n0 := Mb) (j 0) k) = X (ix2 (n0 := M) (i 0) k))
    (hw : ∀ k : Fin K, wb (ix2 (n1 := H) k (j 1)) = W (ix2 (n1 := H) k (i 1))) :
    dense xb wb j = dense X W i := by
  unfold dense
  exact Finset.sum_congr rfl fun k _ => by rw [hx k, hw k]

theorem linRelu_row (xb : Mat Mb K) (wb : Mat K H) (bb : Mat 1 H) (X : Mat M K) (W : Mat K H) (B : Mat 1 H)
    (j : (⟨2, ![Mb, H]⟩ : Shape).Idx) (i : (⟨2, ![M, H]⟩ : Shape).Idx)
    (hx : ∀ k : Fin K, xb (ix2 (n0 := Mb) (j 0) k) = X (ix2 (n0 := M) (i 0) k))
    (hw : ∀ k : Fin K, wb (ix2 (n1 := H) k (j 1)) = W (ix2 (n1 := H) k (i 1)))
    (hb : bb (ix2 (n1 := H) (0 : Fin 1) (j 1)) = B (ix2 (n1 := H) (0 : Fin 1) (i 1))) :
    linRelu xb wb bb j = linRelu X W B i := by
  unfold linRelu
  rw [dense_row xb wb X W j i hx hw, hb]

theorem combine_row (sb : Mat Mb H) (invb : Mat Mb 1) (xdb : Mat Mb H) (wlb : Mat H H) (blb : Mat 1 H) (wrb : Mat H H)
    (S : Mat M H) (Inv : Mat M 1) (XD : Mat M H) (WL : Mat H H) (BL : Mat 1 H) (WR : Mat H H)
    (j : (⟨2, ![Mb, H]⟩ : Shape).Idx) (i : (⟨2, ![M, H]⟩ : Shape).Idx)
    (hs : ∀ k : Fin H, sb (ix2 (n0 := Mb) (j 0) k) = S (ix2 (n0 := M) (i 0) k))
    (hinv : invb (ix2 (n0 := Mb) (j 0) (0 : Fin 1)) = Inv (ix2 (n0 := M) (i 0) (0 : Fin 1)))
    (hxd : ∀ k : Fin H, xdb (ix2 (n0 := Mb) (j 0) k) = XD (ix2 (n0 := M) (i 0) k))
    (hxdj : xdb j = XD i)
    (hwl : ∀ k : Fin H, wlb (ix2 (n1 := H) k (j 1)) = WL (ix2 (n1 := H) k (i 1)))
    (hbl : blb (ix2 (n1 := H) (0 : Fin 1) (j 1)) = BL (ix2 (n1 := H) (0 : Fin 1) (i 1)))
    (hwr : ∀ k : Fin H, wrb (ix2 (n1 := H) k (j 1)) = WR (ix2 (n1 := H) k (i 1))) :
    combine sb invb xdb wlb blb wrb j = combine S Inv XD WL BL WR i := by
  unfold combine update
  have h1 : dense (scaleRows sb invb) wlb j = dense (scaleRows S Inv) WL i :=
    dense_row _ _ _ _ j i (fun k => by
      show sb (ix2 (n0 := Mb) (j 0) k) * invb (ix2 (n0 := Mb) (j 0) (0 : Fin 1))
        = S (ix2 (n0 := M) (i 0) k) * Inv (ix2 (n0 := M) (i 0) (0 : Fin 1))
      rw [hs k, hinv]) hwl
  have h2 : dense xdb wrb j = dense XD WR i := dense_row _ _ _ _ j i hxd hwr
  rw [h1, h2, hbl, hxdj]

theorem head_row (xcb : Mat Mb H) (wo1 : Mat H H2) (bo1 : Mat 1 H2) (wo2 : Mat H2 O) (bo2 : Mat 1 O) (XC : Mat M H)
    (j : (⟨2, ![Mb, O]⟩ : Shape).Idx) (i : (⟨2, ![M, O]⟩ : Shape).Idx)
    (hxc : ∀ k : Fin H, xcb (ix2 (n0 := Mb) (j 0) k) = XC (ix2 (n0 := M) (i 0) k))
    (hcol : (j 1).val = (i 1).val) :
    head xcb wo1 bo1 wo2 bo2 j = head XC wo1 bo1 wo2 bo2 i := by
  have hc : (j 1 : Fin O) = (i 1 : Fin O) := Fin.ext hcol
  unfold head
  have h1 : dense (linRelu xcb wo1 bo1) wo2 j = dense (linRelu XC wo1 bo1) wo2 i :=
    dense_row _ _ _ _ j i (fun k2 =>
      linRelu_row xcb wo1 bo1 XC wo1 bo1 _ _ hxc (fun _ => rfl) rfl) (fun k2 => by
        show wo2 (ix2 (n1 := O) k2 (j 1)) = wo2 (ix2 (n1 := O) k2 (i 1))
        rw [hc])
  rw [h1]
  show _ + bo2 (ix2 (n1 := O) (0 : Fin 1) (j 1)) = _ + bo2 (ix2 (n1 := O) (0 : Fin 1) (i 1))
  rw [hc]

end Cert.Sage

end
-- ==== Proof.KReg0.lean ====
/-
  Row block of the compound projection: the region computes, for each block of 2000 rows, the product of the
  block with the whole weight matrix plus the bias row, cut below at zero. Block t covers rows
  t * 2000 … t * 2000 + 1999; the 50 blocks tile the 100000 rows, so the array the region leaves is
  `linRelu` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal0

open Cert.KernelIdeal Cert.KernelIdeal.Gen Idealize.ShloMosaic Idealize.ShloMosaic.TcCoe Idealize.ShloMosaic.ValueIdx
open Idealize.SL.Sem Idealize.ShloMosaic.Pipeline Cert.Sage

/-- The block body is `linRelu` of its three loaded blocks. -/
theorem pay (v0 : Vec Ideal S2000x1024 .f32) (v2 : Vec Ideal S1024x64 .f32) (v5 : Vec Ideal S1x64 .f32) :
    k0_pay1 (F := Ideal) v0 v2 v5 = linRelu (M := 2000) (K := 1024) (H := 64) v0 v2 v5 := by
  unfold k0_pay1
  simp only [shapeCast_self]
  exact linReluTerm_eq _ rfl v0 v2 v5 _ _

theorem hz : (![0, 0] : Fin 2 → Nat) = fun _ => 0 := funext fun a => by fin_cases a <;> rfl

/-- The printed index maps over the grid: the row-blocked windows sit at block row t, the others at the origin. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of `linRelu` of the whole operands. -/
theorem flushed (c : Dev nD) (t : Fin cfg0.N) :
    (dat0 V c).flushed 3 t = ((cfg0.win 3).blk t).view.read (Elt Ideal)
      (linRelu (M := 100000) (K := 1024) (H := 64) (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S2000x1024) hz, View.ld_unit_zero (S := S1024x64) hz, View.ld_unit_zero (S := S1x64) hz]
  rw [pay]
  obtain ⟨e0, e1, e2, e3, e4, e5, e6, e7⟩ := idx t
  funext j
  refine linRelu_row _ _ _ _ _ _ j (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 1024 + 1 * k.val = k.val
      omega
  · show V c main_arg6 (((cfg0.win 1).blk t).view.emb (ix2 k (j 1))) = V c main_arg6 (ix2 k ((((cfg0.win 3).blk t).view.emb j) 1))
    refine congrArg (V c main_arg6) (funext fun a => Fin.ext ?_)
    match a with
    | ⟨0, _⟩ =>
      show win0_1.index t (0 : Fin 2) * 1024 + 1 * k.val = k.val
      omega
    | ⟨1, _⟩ =>
      show win0_1.index t (1 : Fin 2) * 64 + 1 * (j 1).val = win0_3.index t (1 : Fin 2) * 64 + 1 * (j 1).val
      omega
  · show V c main_v0 (((cfg0.win 2).blk t).view.emb (ix2 (0 : Fin 1) (j 1))) = V c main_v0 (ix2 (0 : Fin 1) ((((cfg0.win 3).blk t).view.emb j) 1))
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 64 + 1 * (j 1).val = win0_3.index t (1 : Fin 2) * 64 + 1 * (j 1).val
      omega

/-- A position of the output array is in point t's block iff each coordinate is in the block's range. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v1).slice (win0_3.rect t)).set ↔ _
  rw [View.set_slice_whole, Rect.mem_set_unit]
  exact Iff.rfl

/-- Every position is in the block of the point numbered by its row divided by 2000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  have ht : t.val = (i 0).val / 2000 := rfl
  obtain ⟨-, -, -, -, -, -, e6, e7⟩ := idx t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- The array the region leaves: `linRelu` of the operands as the region finds them. -/
theorem final (c : Dev nD) :
    (dat0 V c).arrAt 3 cfg0.N = linRelu (M := 100000) (K := 1024) (H := 64) (V c main_arg0) (V c main_arg6) (V c main_v0) :=
  (dat0 V c).arrAt_eq_of_cover 3 _ (fun t _ => flushed V c t) cover

end Cert.KernelIdeal.KVal0

end
-- ==== Proof.KReg1.lean ====
/-
  Row block of the target projection: the region computes, for each block of 1000 rows, the product of the
  block with the whole weight matrix plus the bias row, cut below at zero. Block t covers rows
  t * 1000 … t * 1000 + 999; the 5 blocks tile the 5000 rows, so the array the region leaves is
  `linRelu` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal1

open Cert.KernelIdeal Cert.KernelIdeal.Gen Idealize.ShloMosaic Idealize.ShloMosaic.TcCoe Idealize.ShloMosaic.ValueIdx
open Idealize.SL.Sem Idealize.ShloMosaic.Pipeline Cert.Sage

/-- The block body is `linRelu` of its three loaded blocks. -/
theorem pay (v0 : Vec Ideal S1000x1280 .f32) (v2 : Vec Ideal S1280x64 .f32) (v5 : Vec Ideal S1x64 .f32) :
    k1_pay1 (F := Ideal) v0 v2 v5 = linRelu (M := 1000) (K := 1280) (H := 64) v0 v2 v5 := by
  unfold k1_pay1
  simp only [shapeCast_self]
  exact linReluTerm_eq _ rfl v0 v2 v5 _ _

theorem hz : (![0, 0] : Fin 2 → Nat) = fun _ => 0 := funext fun a => by fin_cases a <;> rfl

/-- The printed index maps over the grid: the row-blocked windows sit at block row t, the others at the origin. -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of `linRelu` of the whole operands. -/
theorem flushed (c : Dev nD) (t : Fin cfg1.N) :
    (dat1 V c).flushed 3 t = ((cfg1.win 3).blk t).view.read (Elt Ideal)
      (linRelu (M := 5000) (K := 1280) (H := 64) (V c main_arg1) (V c main_arg8) (V c main_v2)) := by
  show (cfg1.win 3).cut (grid1.coords t) ((dat1 V c).after 3 t) = _
  rw [after1_3]
  unfold out1_3
  rw [View.canon_unit_zero hz]
  simp only [View.ld_unit_zero (S := S1000x1280) hz, View.ld_unit_zero (S := S1280x64) hz, View.ld_unit_zero (S := S1x64) hz]
  rw [pay]
  obtain ⟨e0, e1, e2, e3, e4, e5, e6, e7⟩ := idx t
  funext j
  refine linRelu_row _ _ _ _ _ _ j (((cfg1.win 3).blk t).view.emb j) (fun k => ?_) (fun k => ?_) ?_
  · show V c main_arg1 (((cfg1.win 0).blk t).view.emb (ix2 (j 0) k)) = V c main_arg1 (ix2 ((((cfg1.win 3).blk t).view.emb j) 0) k)
    refine congrArg (V c main_arg1) (funext fun a => Fin.ext ?_)
    match a with
    | ⟨0, _⟩ =>
      show win1_0.index t (0 : Fin 2) * 1000 + 1 * (j 0).val = win1_3.index t (0 : Fin 2) * 1000 + 1 * (j 0).val
      omega
    | ⟨1, _⟩ =>
      show win1_0.index t (1 : Fin 2) * 1280 + 1 * k.val = k.val
      omega
  · show V c main_arg8 (((cfg1.win 1).blk t).view.emb (ix2 k (j 1))) = V c main_arg8 (ix2 k ((((cfg1.win 3).blk t).view.emb j) 1))
    refine congrArg (V c main_arg8) (funext fun a => Fin.ext ?_)
    match a with
    | ⟨0, _⟩ =>
      show win1_1.index t (0 : Fin 2) * 1280 + 1 * k.val = k.val
      omega
    | ⟨1, _⟩ =>
      show win1_1.index t (1 : Fin 2) * 64 + 1 * (j 1).val = win1_3.index t (1 : Fin 2) * 64 + 1 * (j 1).val
      omega
  · show V c main_v2 (((cfg1.win 2).blk t).view.emb (ix2 (0 : Fin 1) (j 1))) = V c main_v2 (ix2 (0 : Fin 1) ((((cfg1.win 3).blk t).view.emb j) 1))
    refine congrArg (V c main_v2) (funext fun a => Fin.ext ?_)
    match a with
    | ⟨0, _⟩ =>
      show win1_2.index t (0 : Fin 2) * 1 + 1 * 0 = 0
      omega
    | ⟨1, _⟩ =>
      show win1_2.index t (1 : Fin 2) * 64 + 1 * (j 1).val = win1_3.index t (1 : Fin 2) * 64 + 1 * (j 1).val
      omega

/-- A position of the output array is in point t's block iff each coordinate is in the block's range. -/
theorem mem_blk (t : Fin cfg1.N) (i : S5000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v3).slice (win1_3.rect t)).set ↔ _
  rw [View.set_slice_whole, Rect.mem_set_unit]
  exact Iff.rfl

/-- Every position is in the block of the point numbered by its row divided by 1000. -/
theorem cover (i : S5000x64.Idx) :
    ∃ t : Fin cfg1.N, (cfg1.win 3).flush t = true ∧ i ∈ ((cfg1.win 3).blk t).view.set := by
  have hi0 : (i 0).val < 5000 := (i 0).isLt
  have hi1 : (i 1).val < 64 := (i 1).isLt
  have hN : cfg1.N = 5 := N_1
  let t : Fin cfg1.N := ⟨(i 0).val / 1000, by rw [hN]; omega⟩
  have ht : t.val = (i 0).val / 1000 := rfl
  obtain ⟨-, -, -, -, -, -, e6, e7⟩ := idx t
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 64 ≤ (i 1).val ∧ (i 1).val < win1_3.index t (1 : Fin 2) * 64 + 64
    omega

/-- The array the region leaves: `linRelu` of the operands as the region finds them. -/
theorem final (c : Dev nD) :
    (dat1 V c).arrAt 3 cfg1.N = linRelu (M := 5000) (K := 1280) (H := 64) (V c main_arg1) (V c main_arg8) (V c main_v2) :=
  (dat1 V c).arrAt_eq_of_cover 3 _ (fun t _ => flushed V c t) cover

end Cert.KernelIdeal.KVal1

end
-- ==== Proof.KReg2.lean ====
/-
  One layer's update of a kind of rows, block by block: for each block of 1000 rows the region computes the
  update of those rows from the block of aggregated sums, the block of the one-column scale, the block of
  the rows themselves, and the whole weights and bias. Block t covers rows t * 1000 … t * 1000 + 999; the
  5 blocks tile the 5000 rows, so the array the region leaves is `combine` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal2

open Cert.KernelIdeal Cert.KernelIdeal.Gen Idealize.ShloMosaic Idealize.ShloMosaic.TcCoe Idealize.ShloMosaic.ValueIdx
open Idealize.SL.Sem Idealize.ShloMosaic.Pipeline Cert.Sage

/-- The block body is `combine` of its six loaded blocks. -/
theorem pay (v0 : Vec Ideal S1000x64 .f32) (v2 : Vec Ideal S1000x1 .f32) (v6 : Vec Ideal S1000x64 .f32)
    (v9 : Vec Ideal S64x64 .f32) (v13 : Vec Ideal S1x64 .f32) (v18 : Vec Ideal S64x64 .f32) :
    k2_pay1 (F := Ideal) v0 v2 v6 v9 v13 v18 = combine (M := 1000) (H := 64) v0 v2 v6 v9 v13 v18 := by
  unfold k2_pay1
  simp only [shapeCast_self]
  exact combineTerm_eq _ rfl v0 v2 v6 v9 v13 v18 _ _ _

theorem hz : (![0, 0] : Fin 2 → Nat) = fun _ => 0 := funext fun a => by fin_cases a <;> rfl

/-- The printed index maps over the grid: the row-blocked windows sit at block row t, the others at the origin. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 1600000 in
/-- What point t writes back is block t of `combine` of the whole operands. -/
theorem flushed (c : Dev nD) (t : Fin cfg2.N) :
    (dat2 V c).flushed 6 t = ((cfg2.win 6).blk t).view.read (Elt Ideal)
      (combine (M := 5000) (H := 64) (V c main_v31) (V c main_v12) (V c main_v3) (V c main_v33) (V c main_v38) (V c main_v37)) := by
  show (cfg2.win 6).cut (grid2.coords t) ((dat2 V c).after 6 t) = _
  rw [after2_6]
  unfold out2_6
  rw [View.canon_unit_zero hz]
  simp only [View.ld_unit_zero (S := S1000x64) hz, View.ld_unit_zero (S := S1000x1) hz, View.ld_unit_zero (S := S64x64) hz, View.ld_unit_zero (S := S1x64) hz]
  rw [pay]
  obtain ⟨e00, e01, e10, e11, e20, e21, e30, e31, e40, e41, e50, e51, e60, e61⟩ := idx t
  funext j
  have hj0 : (j 0).val < 1000 := (j 0).isLt
  have hj1 : (j 1).val < 64 := (j 1).isLt
  refine combine_row _ _ _ _ _ _ _ _ _ _ _ _ j (((cfg2.win 6).blk t).view.emb j) (fun k => ?_) ?_ (fun k => ?_) ?_ (fun k => ?_) ?_ (fun k => ?_)
  · show V c main_v31 (((cfg2.win 0).blk t).view.emb (ix2 (j 0) k)) = V c main_v31 (ix2 ((((cfg2.win 6).blk t).view.emb j) 0) k)
    refine congrArg (V c main_v31) (funext fun a => Fin.ext ?_)
    match a with
    | ⟨0, _⟩ =>
      show win2_0.index t (0 : Fin 2) * 1000 + 1 * (j 0).val = win2_6.index t (0 : Fin 2) * 1000 + 1 * (j 0).val
      omega
    | ⟨1, _⟩ =>
      show win2_0.index t (1 : Fin 2) * 64 + 1 * k.val = k.val
      omega
  · show V c main_v12 (((cfg2.win 1).blk t).view.emb (ix2 (j 0) (0 : Fin 1))) = V c main_v12 (ix2 ((((cfg2.win 6).blk t).view.emb j) 0) (0 : Fin 1))
    refine congrArg (V c main_v12) (funext fun a => Fin.ext ?_)
    match a with
    | ⟨0, _⟩ =>
      show win2_1.index t (0 : Fin 2) * 1000 + 1 * (j 0).val = win2_6.index t (0 : Fin 2) * 1000 + 1 * (j 0).val
      omega
    | ⟨1, _⟩ =>
      show win2_1.index t (1 : Fin 2) * 1 + 1 * 0 = 0
      omega
  · show V c main_v3 (((cfg2.win 2).blk t).view.emb (ix2 (j 0) k)) = V c main_v3 (ix2 ((((cfg2.win 6).blk t).view.emb j) 0) k)
    refine congrArg (V c main_v3) (funext fun a => Fin.ext ?_)
    match a with
    | ⟨0, _⟩ =>
      show win2_2.index t (0 : Fin 2) * 1000 + 1 * (j 0).val = win2_6.index t (0 : Fin 2) * 1000 + 1 * (j 0).val
      omega
    | ⟨1, _⟩ =>
      show win2_2.index t (1 : Fin 2) * 64 + 1 * k.val = k.val
      omega
  · show V c main_v3 (((cfg2.win 2).blk t).view.emb (j)) = V c main_v3 (((cfg2.win 6).blk t).view.emb j)
    refine congrArg (V c main_v3) (funext fun a => Fin.ext ?_)
    match a with
    | ⟨0, _⟩ =>
      show win2_2.index t (0 : Fin 2) * 1000 + 1 * (j 0).val = win2_6.index t (0 : Fin 2) * 1000 + 1 * (j 0).val
      omega
    | ⟨1, _⟩ =>
      show win2_2.index t (1 : Fin 2) * 64 + 1 * (j 1).val = win2_6.index t (1 : Fin 2) * 64 + 1 * (j 1).val
      omega
  · show V c main_v33 (((cfg2.win 3).blk t).view.emb (ix2 k (j 1))) = V c main_v33 (ix2 k ((((cfg2.win 6).blk t).view.emb j) 1))
    refine congrArg (V c main_v33) (funext fun a => Fin.ext ?_)
    match a with
    | ⟨0, _⟩ =>
      show win2_3.index t (0 : Fin 2) * 64 + 1 * k.val = k.val
      omega
    | ⟨1, _⟩ =>
      show win2_3.index t (1 : Fin 2) * 64 + 1 * (j 1).val = win2_6.index t (1 : Fin 2) * 64 + 1 * (j 1).val
      omega
  · show V c main_v38 (((cfg2.win 4).blk t).view.emb (ix2 (0 : Fin 1) (j 1))) = V c main_v38 (ix2 (0 : Fin 1) ((((cfg2.win 6).blk t).view.emb j) 1))
    refine congrArg (V c main_v38) (funext fun a => Fin.ext ?_)
    match a with
    | ⟨0, _⟩ =>
      show win2_4.index t (0 : Fin 2) * 1 + 1 * 0 = 0
      omega
    | ⟨1, _⟩ =>
      show win2_4.index t (1 : Fin 2) * 64 + 1 * (j 1).val = win2_6.index t (1 : Fin 2) * 64 + 1 * (j 1).val
      omega
  · show V c main_v37 (((cfg2.win 5).blk t).view.emb (ix2 k (j 1))) = V c main_v37 (ix2 k ((((cfg2.win 6).blk t).view.emb j) 1))
    refine congrArg (V c main_v37) (funext fun a => Fin.ext ?_)
    match a with
    | ⟨0, _⟩ =>
      show win2_5.index t (0 : Fin 2) * 64 + 1 * k.val = k.val
      omega
    | ⟨1, _⟩ =>
      show win2_5.index t (1 : Fin 2) * 64 + 1 * (j 1).val = win2_6.index t (1 : Fin 2) * 64 + 1 * (j 1).val
      omega

/-- A position of the output array is in point t's block iff each coordinate is in the block's range. -/
theorem mem_blk (t : Fin cfg2.N) (i : S5000x64.Idx) :
    i ∈ ((cfg2.win 6).blk t).view.set ↔ ∀ a : Fin 2, win2_6.index t a * S1000x64.size a ≤ (i a).val ∧ (i a).val < win2_6.index t a * S1000x64.size a + S1000x64.size a := by
  show i ∈ ((View.whole main_v39).slice (win2_6.rect t)).set ↔ _
  rw [View.set_slice_whole, Rect.mem_set_unit]
  exact Iff.rfl

/-- Every position is in the block of the point numbered by its row divided by 1000. -/
theorem cover (i : S5000x64.Idx) :
    ∃ t : Fin cfg2.N, (cfg2.win 6).flush t = true ∧ i ∈ ((cfg2.win 6).blk t).view.set := by
  have hi0 : (i 0).val < 5000 := (i 0).isLt
  have hi1 : (i 1).val < 64 := (i 1).isLt
  have hN : cfg2.N = 5 := N_2
  let t : Fin cfg2.N := ⟨(i 0).val / 1000, by rw [hN]; omega⟩
  have ht : t.val = (i 0).val / 1000 := rfl
  obtain ⟨-, -, -, -, -, -, -, -, -, -, -, -, e60, e61⟩ := idx t
  refine ⟨t, flush2_6 t, ?_⟩
  rw [mem_blk]
  intro a
  match a with
  | ⟨0, _⟩ =>
    show win2_6.index t (0 : Fin 2) * 1000 ≤ (i 0).val ∧ (i 0).val < win2_6.index t (0 : Fin 2) * 1000 + 1000
    omega
  | ⟨1, _⟩ =>
    show win2_6.index t (1 : Fin 2) * 64 ≤ (i 1).val ∧ (i 1).val < win2_6.index t (1 : Fin 2) * 64 + 64
    omega

/-- The array the region leaves: `combine` of the operands as the region finds them. -/
theorem final (c : Dev nD) :
    (dat2 V c).arrAt 6 cfg2.N
      = combine (M := 5000) (H := 64) (V c main_v31) (V c main_v12) (V c main_v3) (V c main_v33) (V c main_v38) (V c main_v37) :=
  (dat2 V c).arrAt_eq_of_cover 6 _ (fun t _ => flushed V c t) cover

end Cert.KernelIdeal.KVal2

end
-- ==== Proof.KReg3.lean ====
/-
  One layer's update of a kind of rows, block by block: for each block of 2000 rows the region computes the
  update of those rows from the block of aggregated sums, the block of the one-column scale, the block of
  the rows themselves, and the whole weights and bias. Block t covers rows t * 2000 … t * 2000 + 1999; the
  50 blocks tile the 100000 rows, so the array the region leaves is `combine` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal3

open Cert.KernelIdeal Cert.KernelIdeal.Gen Idealize.ShloMosaic Idealize.ShloMosaic.TcCoe Idealize.ShloMosaic.ValueIdx
open Idealize.SL.Sem Idealize.ShloMosaic.Pipeline Cert.Sage

/-- The block body is `combine` of its six loaded blocks. -/
theorem pay (v0 : Vec Ideal S2000x64 .f32) (v2 : Vec Ideal S2000x1 .f32) (v6 : Vec Ideal S2000x64 .f32)
    (v9 : Vec Ideal S64x64 .f32) (v13 : Vec Ideal S1x64 .f32) (v18 : Vec Ideal S64x64 .f32) :
    k3_pay1 (F := Ideal) v0 v2 v6 v9 v13 v18 = combine (M := 2000) (H := 64) v0 v2 v6 v9 v13 v18 := by
  unfold k3_pay1
  simp only [shapeCast_self]
  exact combineTerm_eq _ rfl v0 v2 v6 v9 v13 v18 _ _ _

theorem hz : (![0, 0] : Fin 2 → Nat) = fun _ => 0 := funext fun a => by fin_cases a <;> rfl

/-- The printed index maps over the grid: the row-blocked windows sit at block row t, the others at the origin. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

set_option maxHeartbeats 1600000 in
/-- What point t writes back is block t of `combine` of the whole operands. -/
theorem flushed (c : Dev nD) (t : Fin cfg3.N) :
    (dat3 V c).flushed 6 t = ((cfg3.win 6).blk t).view.read (Elt Ideal)
      (combine (M := 100000) (H := 64) (V c main_v49) (V c main_v21) (V c main_v1) (V c main_v51) (V c main_v56) (V c main_v55)) := by
  show (cfg3.win 6).cut (grid3.coords t) ((dat3 V c).after 6 t) = _
  rw [after3_6]
  unfold out3_6
  rw [View.canon_unit_zero hz]
  simp only [View.ld_unit_zero (S := S2000x64) hz, View.ld_unit_zero (S := S2000x1) hz, View.ld_unit_zero (S := S64x64) hz, View.ld_unit_zero (S := S1x64) hz]
  rw [pay]
  obtain ⟨e00, e01, e10, e11, e20, e21, e30, e31, e40, e41, e50, e51, e60, e61⟩ := idx t
  funext j
  have hj0 : (j 0).val < 2000 := (j 0).isLt
  have hj1 : (j 1).val < 64 := (j 1).isLt
  refine combine_row _ _ _ _ _ _ _ _ _ _ _ _ j (((cfg3.win 6).blk t).view.emb j) (fun k => ?_) ?_ (fun k => ?_) ?_ (fun k => ?_) ?_ (fun k => ?_)
  · show V c main_v49 (((cfg3.win 0).blk t).view.emb (ix2 (j 0) k)) = V c main_v49 (ix2 ((((cfg3.win 6).blk t).view.emb j) 0) k)
    refine congrArg (V c main_v49) (funext fun a => Fin.ext ?_)
    match a with
    | ⟨0, _⟩ =>
      show win3_0.index t (0 : Fin 2) * 2000 + 1 * (j 0).val = win3_6.index t (0 : Fin 2) * 2000 + 1 * (j 0).val
      omega
    | ⟨1, _⟩ =>
      show win3_0.index t (1 : Fin 2) * 64 + 1 * k.val = k.val
      omega
  · show V c main_v21 (((cfg3.win 1).blk t).view.emb (ix2 (j 0) (0 : Fin 1))) = V c main_v21 (ix2 ((((cfg3.win 6).blk t).view.emb j) 0) (0 : Fin 1))
    refine congrArg (V c main_v21) (funext fun a => Fin.ext ?_)
    match a with
    | ⟨0, _⟩ =>
      show win3_1.index t (0 : Fin 2) * 2000 + 1 * (j 0).val = win3_6.index t (0 : Fin 2) * 2000 + 1 * (j 0).val
      omega
    | ⟨1, _⟩ =>
      show win3_1.index t (1 : Fin 2) * 1 + 1 * 0 = 0
      omega
  · show V c main_v1 (((cfg3.win 2).blk t).view.emb (ix2 (j 0) k)) = V c main_v1 (ix2 ((((cfg3.win 6).blk t).view.emb j) 0) k)
    refine congrArg (V c main_v1) (funext fun a => Fin.ext ?_)
    match a with
    | ⟨0, _⟩ =>
      show win3_2.index t (0 : Fin 2) * 2000 + 1 * (j 0).val = win3_6.index t (0 : Fin 2) * 2000 + 1 * (j 0).val
      omega
    | ⟨1, _⟩ =>
      show win3_2.index t (1 : Fin 2) * 64 + 1 * k.val = k.val
      omega
  · show V c main_v1 (((cfg3.win 2).blk t).view.emb (j)) = V c main_v1 (((cfg3.win 6).blk t).view.emb j)
    refine congrArg (V c main_v1) (funext fun a => Fin.ext ?_)
    match a with
    | ⟨0, _⟩ =>
      show win3_2.index t (0 : Fin 2) * 2000 + 1 * (j 0).val = win3_6.index t (0 : Fin 2) * 2000 + 1 * (j 0).val
      omega
    | ⟨1, _⟩ =>
      show win3_2.index t (1 : Fin 2) * 64 + 1 * (j 1).val = win3_6.index t (1 : Fin 2) * 64 + 1 * (j 1).val
      omega
  · show V c main_v51 (((cfg3.win 3).blk t).view.emb (ix2 k (j 1))) = V c main_v51 (ix2 k ((((cfg3.win 6).blk t).view.emb j) 1))
    refine congrArg (V c main_v51) (funext fun a => Fin.ext ?_)
    match a with
    | ⟨0, _⟩ =>
      show win3_3.index t (0 : Fin 2) * 64 + 1 * k.val = k.val
      omega
    | ⟨1, _⟩ =>
      show win3_3.index t (1 : Fin 2) * 64 + 1 * (j 1).val = win3_6.index t (1 : Fin 2) * 64 + 1 * (j 1).val
      omega
  · show V c main_v56 (((cfg3.win 4).blk t).view.emb (ix2 (0 : Fin 1) (j 1))) = V c main_v56 (ix2 (0 : Fin 1) ((((cfg3.win 6).blk t).view.emb j) 1))
    refine congrArg (V c main_v56) (funext fun a => Fin.ext ?_)
    match a with
    | ⟨0, _⟩ =>
      show win3_4.index t (0 : Fin 2) * 1 + 1 * 0 = 0
      omega
    | ⟨1, _⟩ =>
      show win3_4.index t (1 : Fin 2) * 64 + 1 * (j 1).val = win3_6.index t (1 : Fin 2) * 64 + 1 * (j 1).val
      omega
  · show V c main_v55 (((cfg3.win 5).blk t).view.emb (ix2 k (j 1))) = V c main_v55 (ix2 k ((((cfg3.win 6).blk t).view.emb j) 1))
    refine congrArg (V c main_v55) (funext fun a => Fin.ext ?_)
    match a with
    | ⟨0, _⟩ =>
      show win3_5.index t (0 : Fin 2) * 64 + 1 * k.val = k.val
      omega
    | ⟨1, _⟩ =>
      show win3_5.index t (1 : Fin 2) * 64 + 1 * (j 1).val = win3_6.index t (1 : Fin 2) * 64 + 1 * (j 1).val
      omega

/-- A position of the output array is in point t's block iff each coordinate is in the block's range. -/
theorem mem_blk (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v57).slice (win3_6.rect t)).set ↔ _
  rw [View.set_slice_whole, Rect.mem_set_unit]
  exact Iff.rfl

/-- Every position is in the block of the point numbered by its row divided by 2000. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  have ht : t.val = (i 0).val / 2000 := rfl
  obtain ⟨-, -, -, -, -, -, -, -, -, -, -, -, e60, e61⟩ := idx t
  refine ⟨t, flush3_6 t, ?_⟩
  rw [mem_blk]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 64 ≤ (i 1).val ∧ (i 1).val < win3_6.index t (1 : Fin 2) * 64 + 64
    omega

/-- The array the region leaves: `combine` of the operands as the region finds them. -/
theorem final (c : Dev nD) :
    (dat3 V c).arrAt 6 cfg3.N
      = combine (M := 100000) (H := 64) (V c main_v49) (V c main_v21) (V c main_v1) (V c main_v51) (V c main_v56) (V c main_v55) :=
  (dat3 V c).arrAt_eq_of_cover 6 _ (fun t _ => flushed V c t) cover

end Cert.KernelIdeal.KVal3

end
-- ==== Proof.KReg4.lean ====
/-
  One layer's update of a kind of rows, block by block: for each block of 1000 rows the region computes the
  update of those rows from the block of aggregated sums, the block of the one-column scale, the block of
  the rows themselves, and the whole weights and bias. Block t covers rows t * 1000 … t * 1000 + 999; the
  5 blocks tile the 5000 rows, so the array the region leaves is `combine` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal4

open Cert.KernelIdeal Cert.KernelIdeal.Gen Idealize.ShloMosaic Idealize.ShloMosaic.TcCoe Idealize.ShloMosaic.ValueIdx
open Idealize.SL.Sem Idealize.ShloMosaic.Pipeline Cert.Sage

/-- The block body is `combine` of its six loaded blocks. -/
theorem pay (v0 : Vec Ideal S1000x64 .f32) (v2 : Vec Ideal S1000x1 .f32) (v6 : Vec Ideal S1000x64 .f32)
    (v9 : Vec Ideal S64x64 .f32) (v13 : Vec Ideal S1x64 .f32) (v18 : Vec Ideal S64x64 .f32) :
    k4_pay1 (F := Ideal) v0 v2 v6 v9 v13 v18 = combine (M := 1000) (H := 64) v0 v2 v6 v9 v13 v18 := by
  unfold k4_pay1
  simp only [shapeCast_self]
  exact combineTerm_eq _ rfl v0 v2 v6 v9 v13 v18 _ _ _

theorem hz : (![0, 0] : Fin 2 → Nat) = fun _ => 0 := funext fun a => by fin_cases a <;> rfl

/-- The printed index maps over the grid: the row-blocked windows sit at block row t, the others at the origin. -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b))

set_option maxHeartbeats 1600000 in
/-- What point t writes back is block t of `combine` of the whole operands. -/
theorem flushed (c : Dev nD) (t : Fin cfg4.N) :
    (dat4 V c).flushed 6 t = ((cfg4.win 6).blk t).view.read (Elt Ideal)
      (combine (M := 5000) (H := 64) (V c main_v67) (V c main_v12) (V c main_v39) (V c main_v69) (V c main_v74) (V c main_v73)) := by
  show (cfg4.win 6).cut (grid4.coords t) ((dat4 V c).after 6 t) = _
  rw [after4_6]
  unfold out4_6
  rw [View.canon_unit_zero hz]
  simp only [View.ld_unit_zero (S := S1000x64) hz, View.ld_unit_zero (S := S1000x1) hz, View.ld_unit_zero (S := S64x64) hz, View.ld_unit_zero (S := S1x64) hz]
  rw [pay]
  obtain ⟨e00, e01, e10, e11, e20, e21, e30, e31, e40, e41, e50, e51, e60, e61⟩ := idx t
  funext j
  have hj0 : (j 0).val < 1000 := (j 0).isLt
  have hj1 : (j 1).val < 64 := (j 1).isLt
  refine combine_row _ _ _ _ _ _ _ _ _ _ _ _ j (((cfg4.win 6).blk t).view.emb j) (fun k => ?_) ?_ (fun k => ?_) ?_ (fun k => ?_) ?_ (fun k => ?_)
  · show V c main_v67 (((cfg4.win 0).blk t).view.emb (ix2 (j 0) k)) = V c main_v67 (ix2 ((((cfg4.win 6).blk t).view.emb j) 0) k)
    refine congrArg (V c main_v67) (funext fun a => Fin.ext ?_)
    match a with
    | ⟨0, _⟩ =>
      show win4_0.index t (0 : Fin 2) * 1000 + 1 * (j 0).val = win4_6.index t (0 : Fin 2) * 1000 + 1 * (j 0).val
      omega
    | ⟨1, _⟩ =>
      show win4_0.index t (1 : Fin 2) * 64 + 1 * k.val = k.val
      omega
  · show V c main_v12 (((cfg4.win 1).blk t).view.emb (ix2 (j 0) (0 : Fin 1))) = V c main_v12 (ix2 ((((cfg4.win 6).blk t).view.emb j) 0) (0 : Fin 1))
    refine congrArg (V c main_v12) (funext fun a => Fin.ext ?_)
    match a with
    | ⟨0, _⟩ =>
      show win4_1.index t (0 : Fin 2) * 1000 + 1 * (j 0).val = win4_6.index t (0 : Fin 2) * 1000 + 1 * (j 0).val
      omega
    | ⟨1, _⟩ =>
      show win4_1.index t (1 : Fin 2) * 1 + 1 * 0 = 0
      omega
  · show V c main_v39 (((cfg4.win 2).blk t).view.emb (ix2 (j 0) k)) = V c main_v39 (ix2 ((((cfg4.win 6).blk t).view.emb j) 0) k)
    refine congrArg (V c main_v39) (funext fun a => Fin.ext ?_)
    match a with
    | ⟨0, _⟩ =>
      show win4_2.index t (0 : Fin 2) * 1000 + 1 * (j 0).val = win4_6.index t (0 : Fin 2) * 1000 + 1 * (j 0).val
      omega
    | ⟨1, _⟩ =>
      show win4_2.index t (1 : Fin 2) * 64 + 1 * k.val = k.val
      omega
  · show V c main_v39 (((cfg4.win 2).blk t).view.emb (j)) = V c main_v39 (((cfg4.win 6).blk t).view.emb j)
    refine congrArg (V c main_v39) (funext fun a => Fin.ext ?_)
    match a with
    | ⟨0, _⟩ =>
      show win4_2.index t (0 : Fin 2) * 1000 + 1 * (j 0).val = win4_6.index t (0 : Fin 2) * 1000 + 1 * (j 0).val
      omega
    | ⟨1, _⟩ =>
      show win4_2.index t (1 : Fin 2) * 64 + 1 * (j 1).val = win4_6.index t (1 : Fin 2) * 64 + 1 * (j 1).val
      omega
  · show V c main_v69 (((cfg4.win 3).blk t).view.emb (ix2 k (j 1))) = V c main_v69 (ix2 k ((((cfg4.win 6).blk t).view.emb j) 1))
    refine congrArg (V c main_v69) (funext fun a => Fin.ext ?_)
    match a with
    | ⟨0, _⟩ =>
      show win4_3.index t (0 : Fin 2) * 64 + 1 * k.val = k.val
      omega
    | ⟨1, _⟩ =>
      show win4_3.index t (1 : Fin 2) * 64 + 1 * (j 1).val = win4_6.index t (1 : Fin 2) * 64 + 1 * (j 1).val
      omega
  · show V c main_v74 (((cfg4.win 4).blk t).view.emb (ix2 (0 : Fin 1) (j 1))) = V c main_v74 (ix2 (0 : Fin 1) ((((cfg4.win 6).blk t).view.emb j) 1))
    refine congrArg (V c main_v74) (funext fun a => Fin.ext ?_)
    match a with
    | ⟨0, _⟩ =>
      show win4_4.index t (0 : Fin 2) * 1 + 1 * 0 = 0
      omega
    | ⟨1, _⟩ =>
      show win4_4.index t (1 : Fin 2) * 64 + 1 * (j 1).val = win4_6.index t (1 : Fin 2) * 64 + 1 * (j 1).val
      omega
  · show V c main_v73 (((cfg4.win 5).blk t).view.emb (ix2 k (j 1))) = V c main_v73 (ix2 k ((((cfg4.win 6).blk t).view.emb j) 1))
    refine congrArg (V c main_v73) (funext fun a => Fin.ext ?_)
    match a with
    | ⟨0, _⟩ =>
      show win4_5.index t (0 : Fin 2) * 64 + 1 * k.val = k.val
      omega
    | ⟨1, _⟩ =>
      show win4_5.index t (1 : Fin 2) * 64 + 1 * (j 1).val = win4_6.index t (1 : Fin 2) * 64 + 1 * (j 1).val
      omega

/-- A position of the output array is in point t's block iff each coordinate is in the block's range. -/
theorem mem_blk (t : Fin cfg4.N) (i : S5000x64.Idx) :
    i ∈ ((cfg4.win 6).blk t).view.set ↔ ∀ a : Fin 2, win4_6.index t a * S1000x64.size a ≤ (i a).val ∧ (i a).val < win4_6.index t a * S1000x64.size a + S1000x64.size a := by
  show i ∈ ((View.whole main_v75).slice (win4_6.rect t)).set ↔ _
  rw [View.set_slice_whole, Rect.mem_set_unit]
  exact Iff.rfl

/-- Every position is in the block of the point numbered by its row divided by 1000. -/
theorem cover (i : S5000x64.Idx) :
    ∃ t : Fin cfg4.N, (cfg4.win 6).flush t = true ∧ i ∈ ((cfg4.win 6).blk t).view.set := by
  have hi0 : (i 0).val < 5000 := (i 0).isLt
  have hi1 : (i 1).val < 64 := (i 1).isLt
  have hN : cfg4.N = 5 := N_4
  let t : Fin cfg4.N := ⟨(i 0).val / 1000, by rw [hN]; omega⟩
  have ht : t.val = (i 0).val / 1000 := rfl
  obtain ⟨-, -, -, -, -, -, -, -, -, -, -, -, e60, e61⟩ := idx t
  refine ⟨t, flush4_6 t, ?_⟩
  rw [mem_blk]
  intro a
  match a with
  | ⟨0, _⟩ =>
    show win4_6.index t (0 : Fin 2) * 1000 ≤ (i 0).val ∧ (i 0).val < win4_6.index t (0 : Fin 2) * 1000 + 1000
    omega
  | ⟨1, _⟩ =>
    show win4_6.index t (1 : Fin 2) * 64 ≤ (i 1).val ∧ (i 1).val < win4_6.index t (1 : Fin 2) * 64 + 64
    omega

/-- The array the region leaves: `combine` of the operands as the region finds them. -/
theorem final (c : Dev nD) :
    (dat4 V c).arrAt 6 cfg4.N
      = combine (M := 5000) (H := 64) (V c main_v67) (V c main_v12) (V c main_v39) (V c main_v69) (V c main_v74) (V c main_v73) :=
  (dat4 V c).arrAt_eq_of_cover 6 _ (fun t _ => flushed V c t) cover

end Cert.KernelIdeal.KVal4

end
-- ==== Proof.KReg5.lean ====
/-
  One layer's update of a kind of rows, block by block: for each block of 2000 rows the region computes the
  update of those rows from the block of aggregated sums, the block of the one-column scale, the block of
  the rows themselves, and the whole weights and bias. Block t covers rows t * 2000 … t * 2000 + 1999; the
  50 blocks tile the 100000 rows, so the array the region leaves is `combine` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal5

open Cert.KernelIdeal Cert.KernelIdeal.Gen Idealize.ShloMosaic Idealize.ShloMosaic.TcCoe Idealize.ShloMosaic.ValueIdx
open Idealize.SL.Sem Idealize.ShloMosaic.Pipeline Cert.Sage

/-- The block body is `combine` of its six loaded blocks. -/
theorem pay (v0 : Vec Ideal S2000x64 .f32) (v2 : Vec Ideal S2000x1 .f32) (v6 : Vec Ideal S2000x64 .f32)
    (v9 : Vec Ideal S64x64 .f32) (v13 : Vec Ideal S1x64 .f32) (v18 : Vec Ideal S64x64 .f32) :
    k5_pay1 (F := Ideal) v0 v2 v6 v9 v13 v18 = combine (M := 2000) (H := 64) v0 v2 v6 v9 v13 v18 := by
  unfold k5_pay1
  simp only [shapeCast_self]
  exact combineTerm_eq _ rfl v0 v2 v6 v9 v13 v18 _ _ _

theorem hz : (![0, 0] : Fin 2 → Nat) = fun _ => 0 := funext fun a => by fin_cases a <;> rfl

/-- The printed index maps over the grid: the row-blocked windows sit at block row t, the others at the origin. -/
theorem idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

set_option maxHeartbeats 1600000 in
/-- What point t writes back is block t of `combine` of the whole operands. -/
theorem flushed (c : Dev nD) (t : Fin cfg5.N) :
    (dat5 V c).flushed 6 t = ((cfg5.win 6).blk t).view.read (Elt Ideal)
      (combine (M := 100000) (H := 64) (V c main_v85) (V c main_v21) (V c main_v57) (V c main_v87) (V c main_v92) (V c main_v91)) := by
  show (cfg5.win 6).cut (grid5.coords t) ((dat5 V c).after 6 t) = _
  rw [after5_6]
  unfold out5_6
  rw [View.canon_unit_zero hz]
  simp only [View.ld_unit_zero (S := S2000x64) hz, View.ld_unit_zero (S := S2000x1) hz, View.ld_unit_zero (S := S64x64) hz, View.ld_unit_zero (S := S1x64) hz]
  rw [pay]
  obtain ⟨e00, e01, e10, e11, e20, e21, e30, e31, e40, e41, e50, e51, e60, e61⟩ := idx t
  funext j
  have hj0 : (j 0).val < 2000 := (j 0).isLt
  have hj1 : (j 1).val < 64 := (j 1).isLt
  refine combine_row _ _ _ _ _ _ _ _ _ _ _ _ j (((cfg5.win 6).blk t).view.emb j) (fun k => ?_) ?_ (fun k => ?_) ?_ (fun k => ?_) ?_ (fun k => ?_)
  · show V c main_v85 (((cfg5.win 0).blk t).view.emb (ix2 (j 0) k)) = V c main_v85 (ix2 ((((cfg5.win 6).blk t).view.emb j) 0) k)
    refine congrArg (V c main_v85) (funext fun a => Fin.ext ?_)
    match a with
    | ⟨0, _⟩ =>
      show win5_0.index t (0 : Fin 2) * 2000 + 1 * (j 0).val = win5_6.index t (0 : Fin 2) * 2000 + 1 * (j 0).val
      omega
    | ⟨1, _⟩ =>
      show win5_0.index t (1 : Fin 2) * 64 + 1 * k.val = k.val
      omega
  · show V c main_v21 (((cfg5.win 1).blk t).view.emb (ix2 (j 0) (0 : Fin 1))) = V c main_v21 (ix2 ((((cfg5.win 6).blk t).view.emb j) 0) (0 : Fin 1))
    refine congrArg (V c main_v21) (funext fun a => Fin.ext ?_)
    match a with
    | ⟨0, _⟩ =>
      show win5_1.index t (0 : Fin 2) * 2000 + 1 * (j 0).val = win5_6.index t (0 : Fin 2) * 2000 + 1 * (j 0).val
      omega
    | ⟨1, _⟩ =>
      show win5_1.index t (1 : Fin 2) * 1 + 1 * 0 = 0
      omega
  · show V c main_v57 (((cfg5.win 2).blk t).view.emb (ix2 (j 0) k)) = V c main_v57 (ix2 ((((cfg5.win 6).blk t).view.emb j) 0) k)
    refine congrArg (V c main_v57) (funext fun a => Fin.ext ?_)
    match a with
    | ⟨0, _⟩ =>
      show win5_2.index t (0 : Fin 2) * 2000 + 1 * (j 0).val = win5_6.index t (0 : Fin 2) * 2000 + 1 * (j 0).val
      omega
    | ⟨1, _⟩ =>
      show win5_2.index t (1 : Fin 2) * 64 + 1 * k.val = k.val
      omega
  · show V c main_v57 (((cfg5.win 2).blk t).view.emb (j)) = V c main_v57 (((cfg5.win 6).blk t).view.emb j)
    refine congrArg (V c main_v57) (funext fun a => Fin.ext ?_)
    match a with
    | ⟨0, _⟩ =>
      show win5_2.index t (0 : Fin 2) * 2000 + 1 * (j 0).val = win5_6.index t (0 : Fin 2) * 2000 + 1 * (j 0).val
      omega
    | ⟨1, _⟩ =>
      show win5_2.index t (1 : Fin 2) * 64 + 1 * (j 1).val = win5_6.index t (1 : Fin 2) * 64 + 1 * (j 1).val
      omega
  · show V c main_v87 (((cfg5.win 3).blk t).view.emb (ix2 k (j 1))) = V c main_v87 (ix2 k ((((cfg5.win 6).blk t).view.emb j) 1))
    refine congrArg (V c main_v87) (funext fun a => Fin.ext ?_)
    match a with
    | ⟨0, _⟩ =>
      show win5_3.index t (0 : Fin 2) * 64 + 1 * k.val = k.val
      omega
    | ⟨1, _⟩ =>
      show win5_3.index t (1 : Fin 2) * 64 + 1 * (j 1).val = win5_6.index t (1 : Fin 2) * 64 + 1 * (j 1).val
      omega
  · show V c main_v92 (((cfg5.win 4).blk t).view.emb (ix2 (0 : Fin 1) (j 1))) = V c main_v92 (ix2 (0 : Fin 1) ((((cfg5.win 6).blk t).view.emb j) 1))
    refine congrArg (V c main_v92) (funext fun a => Fin.ext ?_)
    match a with
    | ⟨0, _⟩ =>
      show win5_4.index t (0 : Fin 2) * 1 + 1 * 0 = 0
      omega
    | ⟨1, _⟩ =>
      show win5_4.index t (1 : Fin 2) * 64 + 1 * (j 1).val = win5_6.index t (1 : Fin 2) * 64 + 1 * (j 1).val
      omega
  · show V c main_v91 (((cfg5.win 5).blk t).view.emb (ix2 k (j 1))) = V c main_v91 (ix2 k ((((cfg5.win 6).blk t).view.emb j) 1))
    refine congrArg (V c main_v91) (funext fun a => Fin.ext ?_)
    match a with
    | ⟨0, _⟩ =>
      show win5_5.index t (0 : Fin 2) * 64 + 1 * k.val = k.val
      omega
    | ⟨1, _⟩ =>
      show win5_5.index t (1 : Fin 2) * 64 + 1 * (j 1).val = win5_6.index t (1 : Fin 2) * 64 + 1 * (j 1).val
      omega

/-- A position of the output array is in point t's block iff each coordinate is in the block's range. -/
theorem mem_blk (t : Fin cfg5.N) (i : S100000x64.Idx) :
    i ∈ ((cfg5.win 6).blk t).view.set ↔ ∀ a : Fin 2, win5_6.index t a * S2000x64.size a ≤ (i a).val ∧ (i a).val < win5_6.index t a * S2000x64.size a + S2000x64.size a := by
  show i ∈ ((View.whole main_v93).slice (win5_6.rect t)).set ↔ _
  rw [View.set_slice_whole, Rect.mem_set_unit]
  exact Iff.rfl

/-- Every position is in the block of the point numbered by its row divided by 2000. -/
theorem cover (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 50 := N_5
  let t : Fin cfg5.N := ⟨(i 0).val / 2000, by rw [hN]; omega⟩
  have ht : t.val = (i 0).val / 2000 := rfl
  obtain ⟨-, -, -, -, -, -, -, -, -, -, -, -, e60, e61⟩ := idx t
  refine ⟨t, flush5_6 t, ?_⟩
  rw [mem_blk]
  intro a
  match a with
  | ⟨0, _⟩ =>
    show win5_6.index t (0 : Fin 2) * 2000 ≤ (i 0).val ∧ (i 0).val < win5_6.index t (0 : Fin 2) * 2000 + 2000
    omega
  | ⟨1, _⟩ =>
    show win5_6.index t (1 : Fin 2) * 64 ≤ (i 1).val ∧ (i 1).val < win5_6.index t (1 : Fin 2) * 64 + 64
    omega

/-- The array the region leaves: `combine` of the operands as the region finds them. -/
theorem final (c : Dev nD) :
    (dat5 V c).arrAt 6 cfg5.N
      = combine (M := 100000) (H := 64) (V c main_v85) (V c main_v21) (V c main_v57) (V c main_v87) (V c main_v92) (V c main_v91) :=
  (dat5 V c).arrAt_eq_of_cover 6 _ (fun t _ => flushed V c t) cover

end Cert.KernelIdeal.KVal5

end
-- ==== Proof.KReg6.lean ====
/-
  The last compound update fused with the read-out, block by block: for each block of 2000 compound rows the
  region computes the update of those rows (as in the other layers) and, without leaving the block, the
  two-product read-out of the updated rows. Block t covers rows t * 2000 … t * 2000 + 1999; the 50 blocks
  tile the 100000 rows, so the array the region leaves is `head` of `combine` of the whole operands.
-/
import proofs.«178321_j61770219651569_2_alg».proof.Proof.Gen.KernelIdeal.Frame
import proofs.«178321_j61770219651569_2_alg».proof.Proof.SageTerms
import proofs.«178321_j61770219651569_2_alg».proof.Proof.SageRows
import Idealize.ShloMosaic.Lib.ValueLayout
import Idealize.ShloMosaic.Lib.Pipeline.Value

set_option maxRecDepth 16384

noncomputable section

open scoped BigOperators

namespace Cert.KernelIdeal.KVal6

open Cert.KernelIdeal Cert.KernelIdeal.Gen Idealize.ShloMosaic Idealize.ShloMosaic.TcCoe Idealize.ShloMosaic.ValueIdx
open Idealize.SL.Sem Idealize.ShloMosaic.Pipeline Cert.Sage

/-- The block body is the read-out of the update of its loaded blocks. -/
theorem pay (v0 : Vec Ideal S2000x64 .f32) (v2 : Vec Ideal S2000x1 .f32) (v6 : Vec Ideal S2000x64 .f32)
    (v9 : Vec Ideal S64x64 .f32) (v13 : Vec Ideal S1x64 .f32) (v18 : Vec Ideal S64x64 .f32)
    (v27 : Vec Ideal S64x32 .f32) (v30 : Vec Ideal S1x32 .f32) (v37 : Vec Ideal S32x1 .f32) (v40 : Vec Ideal S1x1 .f32) :
    k6_pay1 (F := Ideal) (k6_pay2 (F := Ideal) v0 v2 v6 v9 v13 v18 v27 v30) v37 v40
      = head (M := 2000) (H := 64) (H2 := 32) (O := 1) (combine (M := 2000) (H := 64) v0 v2 v6 v9 v13 v18) v27 v30 v37 v40 := by
  unfold k6_pay1 k6_pay2
  simp only [shapeCast_self]
  rw [combineTerm_eq dot_S2000x64_S64x64_S2000x64_1_0_0_1_n_n rfl v0 v2 v6 v9 v13 v18,
    linReluTerm_eq dot_S2000x64_S64x32_S2000x32_1_0_0_1_n_n rfl,
    readoutTerm_eq dot_S2000x32_S32x1_S2000x1_1_0_0_1_n_n rfl]
  rfl

theorem hz : (![0, 0] : Fin 2 → Nat) = fun _ => 0 := funext fun a => by fin_cases a <;> rfl

/-- The printed index maps over the grid: the row-blocked windows sit at block row t, the others at the origin. -/
theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = t.val ∧ win6_10.index t (1 : Fin 2) = 0 :=
  (by decide +kernel : ∀ t : Fin grid6.N, _)

variable (V : (c : Dev nD) → (b : Ref sig .tc) → Buf (Elt Ideal) ((c : Thread nD τ).loc b))

set_option maxHeartbeats 1600000 in
/-- What point t writes back is block t of the read-out of the update of the whole operands. -/
theorem flushed (c : Dev nD) (t : Fin cfg6.N) :
    (dat6 V c).flushed 10 t = ((cfg6.win 10).blk t).view.read (Elt Ideal)
      (head (M := 100000) (H := 64) (H2 := 32) (O := 1)
        (combine (M := 100000) (H := 64) (V c main_v103) (V c main_v21) (V c main_v93) (V c main_v105) (V c main_v110) (V c main_v109))
        (V c main_arg16) (V c main_v111) (V c main_arg18) (V c main_v112)) := by
  show (cfg6.win 10).cut (grid6.coords t) ((dat6 V c).after 10 t) = _
  rw [after6_10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx t
  have hw6 : iblk6 V c 6 t = V c main_arg16 := by
    funext y
    show V c main_arg16 (((cfg6.win 6).blk t).view.emb y) = V c main_arg16 y
    refine congrArg (V c main_arg16) (funext fun a => Fin.ext ?_)
    match a with
    | ⟨0, _⟩ =>
      show win6_6.index t (0 : Fin 2) * 64 + 1 * (y 0).val = (y 0).val
      omega
    | ⟨1, _⟩ =>
      show win6_6.index t (1 : Fin 2) * 32 + 1 * (y 1).val = (y 1).val
      omega
  have hw7 : iblk6 V c 7 t = V c main_v111 := by
    funext y
    show V c main_v111 (((cfg6.win 7).blk t).view.emb y) = V c main_v111 y
    refine congrArg (V c main_v111) (funext fun a => Fin.ext ?_)
    match a with
    | ⟨0, _⟩ =>
      show win6_7.index t (0 : Fin 2) * 1 + 1 * (y 0).val = (y 0).val
      omega
    | ⟨1, _⟩ =>
      show win6_7.index t (1 : Fin 2) * 32 + 1 * (y 1).val = (y 1).val
      omega
  have hw8 : iblk6 V c 8 t = V c main_arg18 := by
    funext y
    show V c main_arg18 (((cfg6.win 8).blk t).view.emb y) = V c main_arg18 y
    refine congrArg (V c main_arg18) (funext fun a => Fin.ext ?_)
    match a with
    | ⟨0, _⟩ =>
      show win6_8.index t (0 : Fin 2) * 32 + 1 * (y 0).val = (y 0).val
      omega
    | ⟨1, _⟩ =>
      show win6_8.index t (1 : Fin 2) * 1 + 1 * (y 1).val = (y 1).val
      omega
  have hw9 : iblk6 V c 9 t = V c main_v112 := by
    funext y
    show V c main_v112 (((cfg6.win 9).blk t).view.emb y) = V c main_v112 y
    refine congrArg (V c main_v112) (funext fun a => Fin.ext ?_)
    match a with
    | ⟨0, _⟩ =>
      show win6_9.index t (0 : Fin 2) * 1 + 1 * (y 0).val = (y 0).val
      omega
    | ⟨1, _⟩ =>
      show win6_9.index t (1 : Fin 2) * 1 + 1 * (y 1).val = (y 1).val
      omega
  rw [hw6, hw7, hw8, hw9]
  unfold out6_10
  rw [View.canon_unit_zero hz]
  simp only [View.ld_unit_zero (S := S2000x64) hz, View.ld_unit_zero (S := S2000x1) hz, View.ld_unit_zero (S := S64x64) hz, View.ld_unit_zero (S := S1x64) hz,
    View.ld_unit_zero (S := S64x32) hz, View.ld_unit_zero (S := S1x32) hz, View.ld_unit_zero (S := S32x1) hz, View.ld_unit_zero (S := S1x1) hz]
  rw [pay]
  funext j
  have hj0 : (j 0).val < 2000 := (j 0).isLt
  have hj1 : (j 1).val < 1 := (j 1).isLt
  refine head_row _ _ _ _ _ _ j (((cfg6.win 10).blk t).view.emb j) (fun k1 => ?_) ?_
  · refine combine_row _ _ _ _ _ _ _ _ _ _ _ _ (ix2 (j 0) k1) (ix2 ((((cfg6.win 10).blk t).view.emb j) 0) k1) (fun k => ?_) ?_ (fun k => ?_) ?_ (fun k => ?_) ?_ (fun k => ?_)
    · show V c main_v103 (((cfg6.win 0).blk t).view.emb (ix2 (j 0) k)) = V c main_v103 (ix2 ((((cfg6.win 10).blk t).view.emb j) 0) k)
      refine congrArg (V c main_v103) (funext fun a => Fin.ext ?_)
      match a with
      | ⟨0, _⟩ =>
        show win6_0.index t (0 : Fin 2) * 2000 + 1 * (j 0).val = win6_10.index t (0 : Fin 2) * 2000 + 1 * (j 0).val
        omega
      | ⟨1, _⟩ =>
        show win6_0.index t (1 : Fin 2) * 64 + 1 * k.val = k.val
        omega
    · show V c main_v21 (((cfg6.win 1).blk t).view.emb (ix2 (j 0) (0 : Fin 1))) = V c main_v21 (ix2 ((((cfg6.win 10).blk t).view.emb j) 0) (0 : Fin 1))
      refine congrArg (V c main_v21) (funext fun a => Fin.ext ?_)
      match a with
      | ⟨0, _⟩ =>
        show win6_1.index t (0 : Fin 2) * 2000 + 1 * (j 0).val = win6_10.index t (0 : Fin 2) * 2000 + 1 * (j 0).val
        omega
      | ⟨1, _⟩ =>
        show win6_1.index t (1 : Fin 2) * 1 + 1 * 0 = 0
        omega
    · show V c main_v93 (((cfg6.win 2).blk t).view.emb (ix2 (j 0) k)) = V c main_v93 (ix2 ((((cfg6.win 10).blk t).view.emb j) 0) k)
      refine congrArg (V c main_v93) (funext fun a => Fin.ext ?_)
      match a with
      | ⟨0, _⟩ =>
        show win6_2.index t (0 : Fin 2) * 2000 + 1 * (j 0).val = win6_10.index t (0 : Fin 2) * 2000 + 1 * (j 0).val
        omega
      | ⟨1, _⟩ =>
        show win6_2.index t (1 : Fin 2) * 64 + 1 * k.val = k.val
        omega
    · show V c main_v93 (((cfg6.win 2).blk t).view.emb (ix2 (j 0) k1)) = V c main_v93 (ix2 ((((cfg6.win 10).blk t).view.emb j) 0) k1)
      refine congrArg (V c main_v93) (funext fun a => Fin.ext ?_)
      match a with
      | ⟨0, _⟩ =>
        show win6_2.index t (0 : Fin 2) * 2000 + 1 * (j 0).val = win6_10.index t (0 : Fin 2) * 2000 + 1 * (j 0).val
        omega
      | ⟨1, _⟩ =>
        show win6_2.index t (1 : Fin 2) * 64 + 1 * k1.val = k1.val
        omega
    · show V c main_v105 (((cfg6.win 3).blk t).view.emb (ix2 k k1)) = V c main_v105 (ix2 k k1)
      refine congrArg (V c main_v105) (funext fun a => Fin.ext ?_)
      match a with
      | ⟨0, _⟩ =>
        show win6_3.index t (0 : Fin 2) * 64 + 1 * k.val = k.val
        omega
      | ⟨1, _⟩ =>
        show win6_3.index t (1 : Fin 2) * 64 + 1 * k1.val = k1.val
        omega
    · show V c main_v110 (((cfg6.win 4).blk t).view.emb (ix2 (0 : Fin 1) k1)) = V c main_v110 (ix2 (0 : Fin 1) k1)
      refine congrArg (V c main_v110) (funext fun a => Fin.ext ?_)
      match a with
      | ⟨0, _⟩ =>
        show win6_4.index t (0 : Fin 2) * 1 + 1 * 0 = 0
        omega
      | ⟨1, _⟩ =>
        show win6_4.index t (1 : Fin 2) * 64 + 1 * k1.val = k1.val
        omega
    · show V c main_v109 (((cfg6.win 5).blk t).view.emb (ix2 k k1)) = V c main_v109 (ix2 k k1)
      refine congrArg (V c main_v109) (funext fun a => Fin.ext ?_)
      match a with
      | ⟨0, _⟩ =>
        show win6_5.index t (0 : Fin 2) * 64 + 1 * k.val = k.val
        omega
      | ⟨1, _⟩ =>
        show win6_5.index t (1 : Fin 2) * 64 + 1 * k1.val = k1.val
        omega
  · show (j 1).val = win6_10.index t (1 : Fin 2) * 1 + 1 * (j 1).val
    omega

/-- A position of the output array is in point t's block iff each coordinate is in the block's range. -/
theorem mem_blk (t : Fin cfg6.N) (i : S100000x1.Idx) :
    i ∈ ((cfg6.win 10).blk t).view.set ↔ ∀ a : Fin 2, win6_10.index t a * S2000x1.size a ≤ (i a).val ∧ (i a).val < win6_10.index t a * S2000x1.size a + S2000x1.size a := by
  show i ∈ ((View.whole main_v113).slice (win6_10.rect t)).set ↔ _
  rw [View.set_slice_whole, Rect.mem_set_unit]
  exact Iff.rfl

/-- Every position is in the block of the point numbered by its row divided by 2000. -/
theorem cover (i : S100000x1.Idx) :
    ∃ t : Fin cfg6.N, (cfg6.win 10).flush t = true ∧ i ∈ ((cfg6.win 10).blk t).view.set := by
  have hi0 : (i 0).val < 100000 := (i 0).isLt
  have hi1 : (i 1).val < 1 := (i 1).isLt
  have hN : cfg6.N = 50 := N_6
  let t : Fin cfg6.N := ⟨(i 0).val / 2000, by rw [hN]; omega⟩
  have ht : t.val = (i 0).val / 2000 := rfl
  obtain ⟨-, -, -, -, -, -, -, -, -, -, -, -, -, -, -, -, -, -, -, -, e10_0, e10_1⟩ := idx t
  refine ⟨t, flush6_10 t, ?_⟩
  rw [mem_blk]
  intro a
  match a with
  | ⟨0, _⟩ =>
    show win6_10.index t (0 : Fin 2) * 2000 ≤ (i 0).val ∧ (i 0).val < win6_10.index t (0 : Fin 2) * 2000 + 2000
    omega
  | ⟨1, _⟩ =>
    show win6_10.index t (1 : Fin 2) * 1 ≤ (i 1).val ∧ (i 1).val < win6_10.index t (1 : Fin 2) * 1 + 1
    omega

/-- The array the region leaves: the read-out of the update of the operands as the region finds them. -/
theorem final (c : Dev nD) :
    (dat6 V c).arrAt 10 cfg6.N
      = head (M := 100000) (H := 64) (H2 := 32) (O := 1)
        (combine (M := 100000) (H := 64) (V c main_v103) (V c main_v21) (V c main_v93) (V c main_v105) (V c main_v110) (V c main_v109))
        (V c main_arg16) (V c main_v111) (V c main_arg18) (V c main_v112) :=
  (dat6 V c).arrAt_eq_of_cover 10 _ (fun t _ => flushed V c t) cover

end Cert.KernelIdeal.KVal6

end
-- ==== Proof.SageModel.lean ====
/-
  The whole network as one function of its pieces.

  Two kinds of rows, NC "compound" rows and NT "target" rows, each carrying H features. An aggregation
  `aggT` sends compound features to per-target sums and `aggC` sends target features to per-compound sums
  (how they gather and add is left abstract: both programs compute them by the same host operations).
  Three rounds update both kinds of rows from the other kind's aggregate; the last round's target update
  is never read, so the network is five updates and the read-out. `netDiv` averages an aggregate by
  dividing each row by its divisor; `netMul` multiplies each row by a scale. When the scale is the
  reciprocal of a divisor of the form max(count, 1) the two networks are the same function.
-/
import proofs.«178321_j61770219651569_2_alg».proof.Proof.SageSpec

noncomputable section

namespace Cert.Sage

open Idealize.ShloMosaic Idealize.ShloMosaic.ValueIdx

/-- The network with averaged aggregates computed by division. -/
def netDiv {NC NT H H2 O : ℕ} (aggT : Mat NC H → Mat NT H) (aggC : Mat NT H → Mat NC H) (dT : Mat NT 1) (dC : Mat NC 1)
    (xc0 : Mat NC H) (xt0 : Mat NT H)
    (wlT0 : Mat H H) (blT0 : Mat 1 H) (wrT0 : Mat H H) (wlC0 : Mat H H) (blC0 : Mat 1 H) (wrC0 : Mat H H)
    (wlT1 : Mat H H) (blT1 : Mat 1 H) (wrT1 : Mat H H) (wlC1 : Mat H H) (blC1 : Mat 1 H) (wrC1 : Mat H H)
    (wlC2 : Mat H H) (blC2 : Mat 1 H) (wrC2 : Mat H H)
    (wo1 : Mat H H2) (bo1 : Mat 1 H2) (wo2 : Mat H2 O) (bo2 : Mat 1 O) : Mat NC O :=
  head (combineDiv (aggC (combineDiv (aggT (combineDiv (aggC xt0) dC xc0 wlC0 blC0 wrC0)) dT
          (combineDiv (aggT xc0) dT xt0 wlT0 blT0 wrT0) wlT1 blT1 wrT1)) dC
        (combineDiv (aggC (combineDiv (aggT xc0) dT xt0 wlT0 blT0 wrT0)) dC
          (combineDiv (aggC xt0) dC xc0 wlC0 blC0 wrC0) wlC1 blC1 wrC1) wlC2 blC2 wrC2)
    wo1 bo1 wo2 bo2

/-- The network with averaged aggregates computed by multiplying with a row scale. -/
def netMul {NC NT H H2 O : ℕ} (aggT : Mat NC H → Mat NT H) (aggC : Mat NT H → Mat NC H) (invT : Mat NT 1) (invC : Mat NC 1)
    (xc0 : Mat NC H) (xt0 : Mat NT H)
    (wlT0 : Mat H H) (blT0 : Mat 1 H) (wrT0 : Mat H H) (wlC0 : Mat H H) (blC0 : Mat 1 H) (wrC0 : Mat H H)
    (wlT1 : Mat H H) (blT1 : Mat 1 H) (wrT1 : Mat H H) (wlC1 : Mat H H) (blC1 : Mat 1 H) (wrC1 : Mat H H)
    (wlC2 : Mat H H) (blC2 : Mat 1 H) (wrC2 : Mat H H)
    (wo1 : Mat H H2) (bo1 : Mat 1 H2) (wo2 : Mat H2 O) (bo2 : Mat 1 O) : Mat NC O :=
  head (combine (aggC (combine (aggT (combine (aggC xt0) invC xc0 wlC0 blC0 wrC0)) invT
          (combine (aggT xc0) invT xt0 wlT0 blT0 wrT0) wlT1 blT1 wrT1)) invC
        (combine (aggC (combine (aggT xc0) invT xt0 wlT0 blT0 wrT0)) invC
          (combine (aggC xt0) invC xc0 wlC0 blC0 wrC0) wlC1 blC1 wrC1) wlC2 blC2 wrC2)
    wo1 bo1 wo2 bo2

/-- An update scaled by reciprocals of maxima with one is the update divided by those maxima. -/
theorem combine_recip {M H : ℕ} (s : Mat M H) (cnt : Mat M 1) (xd : Mat M H) (wl : Mat H H) (bl : Mat 1 H) (wr : Mat H H) :
    combine s (fun j => Ideal.div 1 (max (cnt j) 1)) xd wl bl wr = combineDiv s (fun j => max (cnt j) 1) xd wl bl wr := by
  unfold combine combineDiv
  rw [scaleRows_eq_divRows]

/-- With reciprocal scales of that form the multiplying network is the dividing one. -/
theorem netMul_recip {NC NT H H2 O : ℕ} (aggT : Mat NC H → Mat NT H) (aggC : Mat NT H → Mat NC H) (cntT : Mat NT 1) (cntC : Mat NC 1)
    (xc0 : Mat NC H) (xt0 : Mat NT H)
    (wlT0 : Mat H H) (blT0 : Mat 1 H) (wrT0 : Mat H H) (wlC0 : Mat H H) (blC0 : Mat 1 H) (wrC0 : Mat H H)
    (wlT1 : Mat H H) (blT1 : Mat 1 H) (wrT1 : Mat H H) (wlC1 : Mat H H) (blC1 : Mat 1 H) (wrC1 : Mat H H)
    (wlC2 : Mat H H) (blC2 : Mat 1 H) (wrC2 : Mat H H)
    (wo1 : Mat H H2) (bo1 : Mat 1 H2) (wo2 : Mat H2 O) (bo2 : Mat 1 O) :
    netMul aggT aggC (fun j => Ideal.div 1 (max (cntT j) 1)) (fun j => Ideal.div 1 (max (cntC j) 1)) xc0 xt0
        wlT0 blT0 wrT0 wlC0 blC0 wrC0 wlT1 blT1 wrT1 wlC1 blC1 wrC1 wlC2 blC2 wrC2 wo1 bo1 wo2 bo2
      = netDiv aggT aggC (fun j => max (cntT j) 1) (fun j => max (cntC j) 1) xc0 xt0
        wlT0 blT0 wrT0 wlC0 blC0 wrC0 wlT1 blT1 wrT1 wlC1 blC1 wrC1 wlC2 blC2 wrC2 wo1 bo1 wo2 bo2 := by
  unfold netMul netDiv
  simp only [combine_recip]

end Cert.Sage

end
-- ==== Proof.RefStages.lean ====
/-
  The host's whole-array stages of the network, as the position-by-position functions of the specification.

  Every stage is a composition of a general dot product with the plain dimension numbers (the matrix
  product), broadcasts of a bias vector over the rows or of a divisor vector over the columns, a scalar
  zero broadcast everywhere, and elementwise sums, quotients and maxima. Read at a position (r, c), a
  bias broadcast [H] -> [1, H] -> [M, H] is the vector at c, a divisor broadcast [M] -> [M, 1] -> [M, H]
  is the vector at r, and the elementwise operations are the extended reals' own. So the stage
  "product plus bias, cut below at zero" is linRelu, the stage "quotient, product, bias, second product,
  cut below at zero, plus the destination rows" is combineDiv, and the two-product read-out is head.
-/
import proofs.«178321_j61770219651569_2_alg».proof.Proof.SageSpec
import proofs.«178321_j61770219651569_2_alg».proof.Proof.SageBody
import Idealize.ShloMosaic.Lib.IdealHost
import Idealize.ShloMosaic.Lib.Pipeline.Value
import Idealize.ShloMosaic.Lib.ValueIdx

noncomputable section

open scoped BigOperators

namespace Cert.Sage

open Idealize.ShloMosaic Idealize.ShloMosaic.ValueIdx

/-- A length-H vector broadcast [H] -> [1, H] -> [M, H] reads, at (r, c), the vector at c. -/
theorem biasBcast_apply {α : Type} {M H : ℕ}
    (h1 : (⟨1, ![H]⟩ : Shape).BroadcastsInDim ⟨2, ![1, H]⟩ ![1])
    (h2 : (⟨2, ![1, H]⟩ : Shape).BroadcastsInDim ⟨2, ![M, H]⟩ ![0, 1])
    (b : (⟨1, ![H]⟩ : Shape).Idx → α) (r : Fin M) (c : Fin H) :
    broadcastInDim ⟨2, ![M, H]⟩ ![0, 1] h2 (broadcastInDim ⟨2, ![1, H]⟩ ![1] h1 b) (ix2 r c) = b (ix1 c) := by
  rw [broadcastInDim_apply ![0, 1] h2 _ (ix2 r c) (ix2 (0 : Fin 1) c) (fun a => ?_),
    broadcastInDim_apply ![1] h1 b (ix2 (0 : Fin 1) c) (ix1 c) (fun a => ?_)]
  · match a with
    | ⟨0, _⟩ =>
      show c.val = if H = 1 then 0 else c.val
      split
      · have := c.isLt; omega
      · rfl
  · match a with
    | ⟨0, _⟩ => rfl
    | ⟨1, _⟩ =>
      show c.val = if H = 1 then 0 else c.val
      split
      · have := c.isLt; omega
      · rfl

/-- A length-M vector broadcast [M] -> [M, 1] -> [M, H] reads, at (r, c), the vector at r. -/
theorem colBcast_apply {α : Type} {M H : ℕ}
    (h1 : (⟨1, ![M]⟩ : Shape).BroadcastsInDim ⟨2, ![M, 1]⟩ ![0])
    (h2 : (⟨2, ![M, 1]⟩ : Shape).BroadcastsInDim ⟨2, ![M, H]⟩ ![0, 1])
    (d : (⟨1, ![M]⟩ : Shape).Idx → α) (r : Fin M) (c : Fin H) :
    broadcastInDim ⟨2, ![M, H]⟩ ![0, 1] h2 (broadcastInDim ⟨2, ![M, 1]⟩ ![0] h1 d) (ix2 r c) = d (ix1 r) := by
  rw [broadcastInDim_apply ![0, 1] h2 _ (ix2 r c) (ix2 r (0 : Fin 1)) (fun a => ?_),
    broadcastInDim_apply ![0] h1 d (ix2 r (0 : Fin 1)) (ix1 r) (fun a => ?_)]
  · match a with
    | ⟨0, _⟩ =>
      show r.val = if M = 1 then 0 else r.val
      split
      · have := r.isLt; omega
      · rfl
  · match a with
    | ⟨0, _⟩ =>
      show r.val = if M = 1 then 0 else r.val
      split
      · have := r.isLt; omega
      · rfl
    | ⟨1, _⟩ => rfl

/-- The scalar zero broadcast everywhere reads the extended real zero. -/
theorem zeroBcast_apply {T : Shape} (h0 : (⟨0, ![]⟩ : Shape).BroadcastsInDim T ![]) (j : T.Idx) :
    broadcastInDim T ![] h0 (constant (F := Ideal) ⟨0, ![]⟩ .f32 0x00000000#32) j = (0 : EReal) := by
  rw [broadcastInDim_scalar_apply, constant_apply, Ideal.ofBits_zero_f32]

/-- The f32 pattern of one is the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- The scalar one broadcast everywhere reads the extended real one. -/
theorem oneBcast_apply {T : Shape} (h0 : (⟨0, ![]⟩ : Shape).BroadcastsInDim T ![]) (j : T.Idx) :
    broadcastInDim T ![] h0 (constant (F := Ideal) ⟨0, ![]⟩ .f32 0x3F800000#32) j = (1 : EReal) := by
  rw [broadcastInDim_scalar_apply, constant_apply, ofBits_one_f32]

/-- Product plus broadcast bias, cut below at the broadcast zero: linRelu. -/
theorem hostLinRelu {M K H : ℕ} (d : DotDims ⟨2, ![M, K]⟩ ⟨2, ![K, H]⟩ ⟨2, ![M, H]⟩) (hd : d = DotDims.plain M K H)
    (prec : Option ContractPrecision)
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (x : FVec Ideal ⟨2, ![M, K]⟩ .f32) (w : FVec Ideal ⟨2, ![K, H]⟩ .f32) (b : FVec Ideal ⟨1, ![H]⟩ .f32) :
    maximumf (addf (Host.dotGeneral d prec x w)
        (broadcastInDim ⟨2, ![M, H]⟩ ![0, 1] h2 (broadcastInDim ⟨2, ![1, H]⟩ ![1] h1 b)))
      (broadcastInDim ⟨2, ![M, H]⟩ ![] h0 (constant (F := Ideal) ⟨0, ![]⟩ .f32 0x00000000#32))
      = linRelu x w (rowOf b) := by
  funext i
  obtain ⟨r, c, rfl⟩ : ∃ (r : Fin M) (c : Fin H), i = ix2 r c := ⟨i 0, i 1, eq_ix2 i⟩
  simp only [Host.dotGeneral]
  rw [dotGeneral_eq_dense d hd]
  show max (dense x w (ix2 r c) + broadcastInDim ⟨2, ![M, H]⟩ ![0, 1] h2 (broadcastInDim ⟨2, ![1, H]⟩ ![1] h1 b) (ix2 r c))
      (broadcastInDim ⟨2, ![M, H]⟩ ![] h0 (constant (F := Ideal) ⟨0, ![]⟩ .f32 0x00000000#32) (ix2 r c)) = _
  rw [biasBcast_apply, zeroBcast_apply]
  rfl

/-- A maximum with the broadcast one, as a one-column matrix, is the column's maximum with one. -/
theorem colOf_maxOne {M : ℕ} (h0 : (⟨0, ![]⟩ : Shape).BroadcastsInDim ⟨1, ![M]⟩ ![])
    (cnt : FVec Ideal ⟨1, ![M]⟩ .f32) :
    colOf (maximumf cnt (broadcastInDim ⟨1, ![M]⟩ ![] h0 (constant (F := Ideal) ⟨0, ![]⟩ .f32 0x3F800000#32)))
      = fun j => max (colOf cnt j) 1 := by
  funext j
  show max (cnt (ix1 (j 0))) (broadcastInDim ⟨1, ![M]⟩ ![] h0 (constant (F := Ideal) ⟨0, ![]⟩ .f32 0x3F800000#32) (ix1 (j 0)))
    = max (cnt (ix1 (j 0))) 1
  rw [oneBcast_apply]

/-- The quotient by a divisor vector broadcast over the columns divides each row by its divisor. -/
theorem hostDivRows {M H : ℕ}
    (hc1 : (⟨1, ![M]⟩ : Shape).BroadcastsInDim ⟨2, ![M, 1]⟩ ![0])
    (hc2 : (⟨2, ![M, 1]⟩ : Shape).BroadcastsInDim ⟨2, ![M, H]⟩ ![0, 1])
    (s : FVec Ideal ⟨2, ![M, H]⟩ .f32) (d : FVec Ideal ⟨1, ![M]⟩ .f32) :
    Host.divf s (broadcastInDim ⟨2, ![M, H]⟩ ![0, 1] hc2 (broadcastInDim ⟨2, ![M, 1]⟩ ![0] hc1 d))
      = divRows s (colOf d) := by
  funext i
  obtain ⟨r, c, rfl⟩ : ∃ (r : Fin M) (c : Fin H), i = ix2 r c := ⟨i 0, i 1, eq_ix2 i⟩
  show Ideal.div (s (ix2 r c)) (broadcastInDim ⟨2, ![M, H]⟩ ![0, 1] hc2 (broadcastInDim ⟨2, ![M, 1]⟩ ![0] hc1 d) (ix2 r c)) = _
  rw [colBcast_apply]
  rfl

/-- One layer's update of the destination rows: quotient, product, bias, second product, cut below at
    zero, plus the destination rows: combineDiv. -/
theorem hostCombineDiv {M H : ℕ} (dd : DotDims ⟨2, ![M, H]⟩ ⟨2, ![H, H]⟩ ⟨2, ![M, H]⟩) (hd : dd = DotDims.plain M H H)
    (prec : Option ContractPrecision)
    (hc1 : (⟨1, ![M]⟩ : Shape).BroadcastsInDim ⟨2, ![M, 1]⟩ ![0])
    (hc2 : (⟨2, ![M, 1]⟩ : Shape).BroadcastsInDim ⟨2, ![M, H]⟩ ![0, 1])
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (s xd : FVec Ideal ⟨2, ![M, H]⟩ .f32) (d : FVec Ideal ⟨1, ![M]⟩ .f32)
    (wl wr : FVec Ideal ⟨2, ![H, H]⟩ .f32) (bl : FVec Ideal ⟨1, ![H]⟩ .f32) :
    addf (maximumf (addf (addf
            (Host.dotGeneral dd prec
              (Host.divf s (broadcastInDim ⟨2, ![M, H]⟩ ![0, 1] hc2 (broadcastInDim ⟨2, ![M, 1]⟩ ![0] hc1 d))) wl)
            (broadcastInDim ⟨2, ![M, H]⟩ ![0, 1] h2 (broadcastInDim ⟨2, ![1, H]⟩ ![1] h1 bl)))
          (Host.dotGeneral dd prec xd wr))
        (broadcastInDim ⟨2, ![M, H]⟩ ![] h0 (constant (F := Ideal) ⟨0, ![]⟩ .f32 0x00000000#32))) xd
      = combineDiv s (colOf d) xd wl (rowOf bl) wr := by
  funext i
  obtain ⟨r, c, rfl⟩ : ∃ (r : Fin M) (c : Fin H), i = ix2 r c := ⟨i 0, i 1, eq_ix2 i⟩
  rw [hostDivRows]
  simp only [Host.dotGeneral]
  rw [dotGeneral_eq_dense dd hd, dotGeneral_eq_dense dd hd]
  show max ((dense (divRows s (colOf d)) wl (ix2 r c)
        + broadcastInDim ⟨2, ![M, H]⟩ ![0, 1] h2 (broadcastInDim ⟨2, ![1, H]⟩ ![1] h1 bl) (ix2 r c))
        + dense xd wr (ix2 r c))
      (broadcastInDim ⟨2, ![M, H]⟩ ![] h0 (constant (F := Ideal) ⟨0, ![]⟩ .f32 0x00000000#32) (ix2 r c))
      + xd (ix2 r c) = _
  rw [biasBcast_apply, zeroBcast_apply]
  rfl

/-- The read-out: product, bias, cut below at zero, product, bias: head. -/
theorem hostHead {M H H2 O : ℕ}
    (d1 : DotDims ⟨2, ![M, H]⟩ ⟨2, ![H, H2]⟩ ⟨2, ![M, H2]⟩) (hd1 : d1 = DotDims.plain M H H2)
    (d2 : DotDims ⟨2, ![M, H2]⟩ ⟨2, ![H2, O]⟩ ⟨2, ![M, O]⟩) (hd2 : d2 = DotDims.plain M H2 O)
    (prec1 prec2 : Option ContractPrecision)
    (h1 : (⟨1, ![H2]⟩ : Shape).BroadcastsInDim ⟨2, ![1, H2]⟩ ![1])
    (h2 : (⟨2, ![1, H2]⟩ : Shape).BroadcastsInDim ⟨2, ![M, H2]⟩ ![0, 1])
    (h0 : (⟨0, ![]⟩ : Shape).BroadcastsInDim ⟨2, ![M, H2]⟩ ![])
    (g1 : (⟨1, ![O]⟩ : Shape).BroadcastsInDim ⟨2, ![1, O]⟩ ![1])
    (g2 : (⟨2, ![1, O]⟩ : Shape).BroadcastsInDim ⟨2, ![M, O]⟩ ![0, 1])
    (xc : FVec Ideal ⟨2, ![M, H]⟩ .f32) (wo1 : FVec Ideal ⟨2, ![H, H2]⟩ .f32) (bo1 : FVec Ideal ⟨1, ![H2]⟩ .f32)
    (wo2 : FVec Ideal ⟨2, ![H2, O]⟩ .f32) (bo2 : FVec Ideal ⟨1, ![O]⟩ .f32) :
    addf (Host.dotGeneral d2 prec2
          (maximumf (addf (Host.dotGeneral d1 prec1 xc wo1)
              (broadcastInDim ⟨2, ![M, H2]⟩ ![0, 1] h2 (broadcastInDim ⟨2, ![1, H2]⟩ ![1] h1 bo1)))
            (broadcastInDim ⟨2, ![M, H2]⟩ ![] h0 (constant (F := Ideal) ⟨0, ![]⟩ .f32 0x00000000#32))) wo2)
        (broadcastInDim ⟨2, ![M, O]⟩ ![0, 1] g2 (broadcastInDim ⟨2, ![1, O]⟩ ![1] g1 bo2))
      = head xc wo1 (rowOf bo1) wo2 (rowOf bo2) := by
  funext i
  obtain ⟨r, c, rfl⟩ : ∃ (r : Fin M) (c : Fin O), i = ix2 r c := ⟨i 0, i 1, eq_ix2 i⟩
  rw [hostLinRelu d1 hd1]
  simp only [Host.dotGeneral]
  rw [dotGeneral_eq_dense d2 hd2]
  show dense (linRelu xc wo1 (rowOf bo1)) wo2 (ix2 r c)
      + broadcastInDim ⟨2, ![M, O]⟩ ![0, 1] g2 (broadcastInDim ⟨2, ![1, O]⟩ ![1] g1 bo2) (ix2 r c) = _
  rw [biasBcast_apply]
  rfl

end Cert.Sage

end
-- ==== Proof.RefNet.lean ====
/-
  The reference program's result is the dividing network of its argument arrays.

  The reference computes, on whole arrays: the two first-layer feature matrices (a product plus bias cut
  below at zero), and then three rounds in which each kind of row is updated from the other kind's
  aggregate. An aggregate is a gather of the source rows named by one index array (negative indices
  wrapped once by the row count) followed by a scatter-add into zeros at the rows named by the other index
  array; the row divisor is the scatter-add of ones at the same rows, cut below at one. The three rounds
  use the same index arrays, so every round's aggregate is the same function of the features it gathers
  from, and every round's divisor is the same vector. The per-round weights are slices of the stacked
  weight arrays. Each update is the specification's combineDiv of these pieces and the read-out is its
  head, so the result is netDiv of the pieces.
-/
import proofs.«178321_j61770219651569_2_alg».proof.Proof.Gen.ReferenceIdeal.Read
import proofs.«178321_j61770219651569_2_alg».proof.Proof.SageSpec
import proofs.«178321_j61770219651569_2_alg».proof.Proof.SageBody
import proofs.«178321_j61770219651569_2_alg».proof.Proof.SageModel
import proofs.«178321_j61770219651569_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.Sage Idealize.ShloMosaic.ValueIdx

/-- The contents of an argument or result array at the exact instance. -/
abbrev Arr (s : Shape) (e : EltTy) : Type := (⟨s, e⟩ : BufTy).Contents (Elt Ideal)

/-! ## The pieces, as the printed operations of the argument arrays -/

/-- Per-target sums of the compound rows an edge list names: indices of x2 wrapped, rows gathered from
    the given features, added into zeros at the rows x3 names. -/
def aggT (x2 x3 : Arr S2000000 .i32) (f : Mat 100000 64) : Mat 5000 64 :=
  Host.scatterAdd (F := Ideal) scatter_S5000x64_S2000000x1_S2000000x64_1_0_0_1
    (broadcastInDim S5000x64 ![] bcast_S_S5000x64 (constant (F := Ideal) S_ .f32 0x00000000#32))
    (broadcastInDim S2000000x1 ![0] bcast_S2000000_S2000000x1_0 (x3))
    (Host.gather gather_S100000x64_S2000000x1_S2000000x64_1_0_n_n_0_1_164 f
      (broadcastInDim S2000000x1 ![0] bcast_S2000000_S2000000x1_0
        (select (cmpi .slt (x2) (broadcastInDim S2000000 ![] bcast_S_S2000000 (constantI S_ 32 0#32)))
          (addi (x2) (broadcastInDim S2000000 ![] bcast_S_S2000000 (constantI S_ 32 100000#32))) (x2))))

/-- Per-compound sums of the target rows the reverse edge list names. -/
def aggC (x4 x5 : Arr S2000000 .i32) (f : Mat 5000 64) : Mat 100000 64 :=
  Host.scatterAdd (F := Ideal) scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 (x5))
    (Host.gather gather_S5000x64_S2000000x1_S2000000x64_1_0_n_n_0_1_164 f
      (broadcastInDim S2000000x1 ![0] bcast_S2000000_S2000000x1_0
        (select (cmpi .slt (x4) (broadcastInDim S2000000 ![] bcast_S_S2000000 (constantI S_ 32 0#32)))
          (addi (x4) (broadcastInDim S2000000 ![] bcast_S_S2000000 (constantI S_ 32 5000#32))) (x4))))

/-- How many edges name each target row: ones added into zeros at the rows x3 names. -/
def cntT (x3 : Arr S2000000 .i32) : Arr S5000 .f32 :=
  Host.scatterAdd (F := Ideal) scatter_S5000_S2000000x1_S2000000_n_0_0_1
    (broadcastInDim S5000 ![] bcast_S_S5000 (constant (F := Ideal) S_ .f32 0x00000000#32))
    (broadcastInDim S2000000x1 ![0] bcast_S2000000_S2000000x1_0 (x3))
    (broadcastInDim S2000000 ![] bcast_S_S2000000 (constant (F := Ideal) S_ .f32 0x3F800000#32))

/-- How many edges name each compound row. -/
def cntC (x5 : Arr S2000000 .i32) : Arr S100000 .f32 :=
  Host.scatterAdd (F := Ideal) scatter_S100000_S2000000x1_S2000000_n_0_0_1
    (broadcastInDim S100000 ![] bcast_S_S100000 (constant (F := Ideal) S_ .f32 0x00000000#32))
    (broadcastInDim S2000000x1 ![0] bcast_S2000000_S2000000x1_0 (x5))
    (broadcastInDim S2000000 ![] bcast_S_S2000000 (constant (F := Ideal) S_ .f32 0x3F800000#32))

/-- Round l's 64×64 slice of a stacked [3, 64, 64] weight array. -/
def mat3 (l : Fin 3) (w : Arr S3x64x64 .f32) : Arr S64x64 .f32 :=
  match l with
  | 0 => shapeCast _ (extractStridedSlice S1x64x64 ![0, 0, 0] (w) slices_S3x64x64_S1x64x64_0_0_0) shapeCasts_S1x64x64_S64x64
  | 1 => shapeCast _ (extractStridedSlice S1x64x64 ![1, 0, 0] (w) slices_S3x64x64_S1x64x64_1_0_0) shapeCasts_S1x64x64_S64x64
  | 2 => shapeCast _ (extractStridedSlice S1x64x64 ![2, 0, 0] (w) slices_S3x64x64_S1x64x64_2_0_0) shapeCasts_S1x64x64_S64x64

/-- Round l's length-64 slice of a stacked [3, 64] bias array. -/
def vec3 (l : Fin 3) (b : Arr S3x64 .f32) : Arr S64 .f32 :=
  match l with
  | 0 => shapeCast _ (extractStridedSlice S1x64 ![0, 0] (b) slices_S3x64_S1x64_0_0) shapeCasts_S1x64_S64
  | 1 => shapeCast _ (extractStridedSlice S1x64 ![1, 0] (b) slices_S3x64_S1x64_1_0) shapeCasts_S1x64_S64
  | 2 => shapeCast _ (extractStridedSlice S1x64 ![2, 0] (b) slices_S3x64_S1x64_2_0) shapeCasts_S1x64_S64

/-- The target update's aggregate weight, bias and own-row weight of round l; the compound update's likewise. -/
def wlT (l : Fin 3) (x10 : Arr S3x64x64 .f32) : Arr S64x64 .f32 := mat3 l x10
def blT (l : Fin 3) (x11 : Arr S3x64 .f32) : Arr S64 .f32 := vec3 l x11
def wrT (l : Fin 3) (x12 : Arr S3x64x64 .f32) : Arr S64x64 .f32 := mat3 l x12
def wlC (l : Fin 3) (x13 : Arr S3x64x64 .f32) : Arr S64x64 .f32 := mat3 l x13
def blC (l : Fin 3) (x14 : Arr S3x64 .f32) : Arr S64 .f32 := vec3 l x14
def wrC (l : Fin 3) (x15 : Arr S3x64x64 .f32) : Arr S64x64 .f32 := mat3 l x15

/-! ## The reference's operations, stage by stage -/

section Stages

variable (x0 : Arr S100000x1024 .f32) (x1 : Arr S5000x1280 .f32) (x2 x3 x4 x5 : Arr S2000000 .i32)
  (x6 : Arr S1024x64 .f32) (x7 : Arr S64 .f32) (x8 : Arr S1280x64 .f32) (x9 : Arr S64 .f32)
  (x10 : Arr S3x64x64 .f32) (x11 : Arr S3x64 .f32) (x12 x13 : Arr S3x64x64 .f32) (x14 : Arr S3x64 .f32)
  (x15 : Arr S3x64x64 .f32) (x16 : Arr S64x32 .f32) (x17 : Arr S32 .f32) (x18 : Arr S32x1 .f32) (x19 : Arr S1 .f32)

/-- Operation 4: the first-layer features, a product plus bias cut below at zero. -/
theorem v4_eq : val_main_v4 (F := Ideal) x0 x6 x7 = linRelu x0 x6 (rowOf x7) := by
  unfold val_main_v4 val_main_v3 val_main_v2 val_main_v1 val_main_v0 val_main_call0_v0 val_main_call0_cst
  exact hostLinRelu _ rfl _ _ _ _ x0 x6 x7

/-- Operation 9: the first-layer features, a product plus bias cut below at zero. -/
theorem v9_eq : val_main_v9 (F := Ideal) x1 x8 x9 = linRelu x1 x8 (rowOf x9) := by
  unfold val_main_v9 val_main_v8 val_main_v7 val_main_v6 val_main_v5 val_main_call1_v0 val_main_call1_cst
  exact hostLinRelu _ rfl _ _ _ _ x1 x8 x9

/-- Operation 25: the aggregate of operation 4's rows. -/
theorem v25_eq : val_main_v25 (F := Ideal) x0 x2 x3 x6 x7 = aggT x2 x3 (val_main_v4 (F := Ideal) x0 x6 x7) := rfl

/-- Operation 56: the aggregate of operation 9's rows. -/
theorem v56_eq : val_main_v56 (F := Ideal) x1 x4 x5 x8 x9 = aggC x4 x5 (val_main_v9 (F := Ideal) x1 x8 x9) := rfl

/-- Operation 31: the row count cut below at one, as a one-column matrix. -/
theorem v31_eq : colOf (val_main_v31 (F := Ideal) x3) = fun j => max (colOf (cntT x3) j) 1 := by
  unfold val_main_v31 val_main_v30 val_main_cst_3
  exact colOf_maxOne _ (val_main_v29 (F := Ideal) x3)

/-- Operation 62: the row count cut below at one, as a one-column matrix. -/
theorem v62_eq : colOf (val_main_v62 (F := Ideal) x5) = fun j => max (colOf (cntC x5) j) 1 := by
  unfold val_main_v62 val_main_v61 val_main_cst_9
  exact colOf_maxOne _ (val_main_v60 (F := Ideal) x5)

/-- Operation 75: one update of the destination rows. -/
theorem v75_eq : val_main_v75 (F := Ideal) x0 x1 x2 x3 x6 x7 x8 x9 x10 x11 x12 =
    combineDiv (val_main_v25 (F := Ideal) x0 x2 x3 x6 x7) (colOf (val_main_v31 (F := Ideal) x3)) (val_main_v9 (F := Ideal) x1 x8 x9) (val_main_v11 (F := Ideal) x10) (rowOf (val_main_v13 (F := Ideal) x11)) (val_main_v15 (F := Ideal) x12) := by
  unfold val_main_v75 val_main_v74 val_main_v40 val_main_v38 val_main_v35 val_main_v34 val_main_v33 val_main_v32 val_main_v37 val_main_v36 val_main_v39 val_main_call3_v0 val_main_call3_cst
  exact hostCombineDiv _ rfl _ _ _ _ _ _ (val_main_v25 (F := Ideal) x0 x2 x3 x6 x7) (val_main_v9 (F := Ideal) x1 x8 x9) (val_main_v31 (F := Ideal) x3) (val_main_v11 (F := Ideal) x10) (val_main_v15 (F := Ideal) x12) (val_main_v13 (F := Ideal) x11)

/-- Operation 73: one update of the destination rows. -/
theorem v73_eq : val_main_v73 (F := Ideal) x0 x1 x4 x5 x6 x7 x8 x9 x13 x14 x15 =
    combineDiv (val_main_v56 (F := Ideal) x1 x4 x5 x8 x9) (colOf (val_main_v62 (F := Ideal) x5)) (val_main_v4 (F := Ideal) x0 x6 x7) (val_main_v42 (F := Ideal) x13) (rowOf (val_main_v44 (F := Ideal) x14)) (val_main_v46 (F := Ideal) x15) := by
  unfold val_main_v73 val_main_v72 val_main_v71 val_main_v69 val_main_v66 val_main_v65 val_main_v64 val_main_v63 val_main_v68 val_main_v67 val_main_v70 val_main_call2_v0 val_main_call2_cst
  exact hostCombineDiv _ rfl _ _ _ _ _ _ (val_main_v56 (F := Ideal) x1 x4 x5 x8 x9) (val_main_v4 (F := Ideal) x0 x6 x7) (val_main_v62 (F := Ideal) x5) (val_main_v42 (F := Ideal) x13) (val_main_v46 (F := Ideal) x15) (val_main_v44 (F := Ideal) x14)

/-- Operation 91: the aggregate of operation 73's rows. -/
theorem v91_eq : val_main_v91 (F := Ideal) x0 x1 x2 x3 x4 x5 x6 x7 x8 x9 x13 x14 x15 = aggT x2 x3 (val_main_v73 (F := Ideal) x0 x1 x4 x5 x6 x7 x8 x9 x13 x14 x15) := rfl

/-- Operation 122: the aggregate of operation 75's rows. -/
theorem v122_eq : val_main_v122 (F := Ideal) x0 x1 x2 x3 x4 x5 x6 x7 x8 x9 x10 x11 x12 = aggC x4 x5 (val_main_v75 (F := Ideal) x0 x1 x2 x3 x6 x7 x8 x9 x10 x11 x12) := rfl

/-- Operation 97: the row count cut below at one, as a one-column matrix. -/
theorem v97_eq : colOf (val_main_v97 (F := Ideal) x3) = fun j => max (colOf (cntT x3) j) 1 := by
  unfold val_main_v97 val_main_v96 val_main_cst_15
  exact colOf_maxOne _ (val_main_v95 (F := Ideal) x3)

/-- Operation 128: the row count cut below at one, as a one-column matrix. -/
theorem v128_eq : colOf (val_main_v128 (F := Ideal) x5) = fun j => max (colOf (cntC x5) j) 1 := by
  unfold val_main_v128 val_main_v127 val_main_cst_21
  exact colOf_maxOne _ (val_main_v126 (F := Ideal) x5)

/-- Operation 141: one update of the destination rows. -/
theorem v141_eq : val_main_v141 (F := Ideal) x0 x1 x2 x3 x4 x5 x6 x7 x8 x9 x10 x11 x12 x13 x14 x15 =
    combineDiv (val_main_v91 (F := Ideal) x0 x1 x2 x3 x4 x5 x6 x7 x8 x9 x13 x14 x15) (colOf (val_main_v97 (F := Ideal) x3)) (val_main_v75 (F := Ideal) x0 x1 x2 x3 x6 x7 x8 x9 x10 x11 x12) (val_main_v77 (F := Ideal) x10) (rowOf (val_main_v79 (F := Ideal) x11)) (val_main_v81 (F := Ideal) x12) := by
  unfold val_main_v141 val_main_v140 val_main_v106 val_main_v104 val_main_v101 val_main_v100 val_main_v99 val_main_v98 val_main_v103 val_main_v102 val_main_v105 val_main_call5_v0 val_main_call5_cst
  exact hostCombineDiv _ rfl _ _ _ _ _ _ (val_main_v91 (F := Ideal) x0 x1 x2 x3 x4 x5 x6 x7 x8 x9 x13 x14 x15) (val_main_v75 (F := Ideal) x0 x1 x2 x3 x6 x7 x8 x9 x10 x11 x12) (val_main_v97 (F := Ideal) x3) (val_main_v77 (F := Ideal) x10) (val_main_v81 (F := Ideal) x12) (val_main_v79 (F := Ideal) x11)

/-- Operation 139: one update of the destination rows. -/
theorem v139_eq : val_main_v139 (F := Ideal) x0 x1 x2 x3 x4 x5 x6 x7 x8 x9 x10 x11 x12 x13 x14 x15 =
    combineDiv (val_main_v122 (F := Ideal) x0 x1 x2 x3 x4 x5 x6 x7 x8 x9 x10 x11 x12) (colOf (val_main_v128 (F := Ideal) x5)) (val_main_v73 (F := Ideal) x0 x1 x4 x5 x6 x7 x8 x9 x13 x14 x15) (val_main_v108 (F := Ideal) x13) (rowOf (val_main_v110 (F := Ideal) x14)) (val_main_v112 (F := Ideal) x15) := by
  unfold val_main_v139 val_main_v138 val_main_v137 val_main_v135 val_main_v132 val_main_v131 val_main_v130 val_main_v129 val_main_v134 val_main_v133 val_main_v136 val_main_call4_v0 val_main_call4_cst
  exact hostCombineDiv _ rfl _ _ _ _ _ _ (val_main_v122 (F := Ideal) x0 x1 x2 x3 x4 x5 x6 x7 x8 x9 x10 x11 x12) (val_main_v73 (F := Ideal) x0 x1 x4 x5 x6 x7 x8 x9 x13 x14 x15) (val_main_v128 (F := Ideal) x5) (val_main_v108 (F := Ideal) x13) (val_main_v112 (F := Ideal) x15) (val_main_v110 (F := Ideal) x14)

/-- Operation 188: the aggregate of operation 141's rows. -/
theorem v188_eq : val_main_v188 (F := Ideal) x0 x1 x2 x3 x4 x5 x6 x7 x8 x9 x10 x11 x12 x13 x14 x15 = aggC x4 x5 (val_main_v141 (F := Ideal) x0 x1 x2 x3 x4 x5 x6 x7 x8 x9 x10 x11 x12 x13 x14 x15) := rfl

/-- Operation 194: the row count cut below at one, as a one-column matrix. -/
theorem v194_eq : colOf (val_main_v194 (F := Ideal) x5) = fun j => max (colOf (cntC x5) j) 1 := by
  unfold val_main_v194 val_main_v193 val_main_cst_33
  exact colOf_maxOne _ (val_main_v192 (F := Ideal) x5)

/-- Operation 205: one update of the destination rows. -/
theorem v205_eq : val_main_v205 (F := Ideal) x0 x1 x2 x3 x4 x5 x6 x7 x8 x9 x10 x11 x12 x13 x14 x15 =
    combineDiv (val_main_v188 (F := Ideal) x0 x1 x2 x3 x4 x5 x6 x7 x8 x9 x10 x11 x12 x13 x14 x15) (colOf (val_main_v194 (F := Ideal) x5)) (val_main_v139 (F := Ideal) x0 x1 x2 x3 x4 x5 x6 x7 x8 x9 x10 x11 x12 x13 x14 x15) (val_main_v174 (F := Ideal) x13) (rowOf (val_main_v176 (F := Ideal) x14)) (val_main_v178 (F := Ideal) x15) := by
  unfold val_main_v205 val_main_v204 val_main_v203 val_main_v201 val_main_v198 val_main_v197 val_main_v196 val_main_v195 val_main_v200 val_main_v199 val_main_v202 val_main_call6_v0 val_main_call6_cst
  exact hostCombineDiv _ rfl _ _ _ _ _ _ (val_main_v188 (F := Ideal) x0 x1 x2 x3 x4 x5 x6 x7 x8 x9 x10 x11 x12 x13 x14 x15) (val_main_v139 (F := Ideal) x0 x1 x2 x3 x4 x5 x6 x7 x8 x9 x10 x11 x12 x13 x14 x15) (val_main_v194 (F := Ideal) x5) (val_main_v174 (F := Ideal) x13) (val_main_v178 (F := Ideal) x15) (val_main_v176 (F := Ideal) x14)

/-- Operation 216: the read-out of the last compound features. -/
theorem v216_eq : val_main_v216 (F := Ideal) x0 x1 x2 x3 x4 x5 x6 x7 x8 x9 x10 x11 x12 x13 x14 x15 x16 x17 x18 x19 =
    head (val_main_v205 (F := Ideal) x0 x1 x2 x3 x4 x5 x6 x7 x8 x9 x10 x11 x12 x13 x14 x15) x16 (rowOf x17) x18 (rowOf x19) := by
  unfold val_main_v216 val_main_v215 val_main_v214 val_main_v213 val_main_v212 val_main_v211 val_main_v210 val_main_v209 val_main_v208 val_main_call8_v0 val_main_call8_cst
  exact hostHead _ rfl _ rfl _ _ _ _ _ _ _ (val_main_v205 (F := Ideal) x0 x1 x2 x3 x4 x5 x6 x7 x8 x9 x10 x11 x12 x13 x14 x15) x16 x17 x18 x19

/-- The weight operations are the rounds' slices. -/
theorem v11_eq : val_main_v11 (F := Ideal) x10 = wlT 0 x10 := rfl
theorem v13_eq : val_main_v13 (F := Ideal) x11 = blT 0 x11 := rfl
theorem v15_eq : val_main_v15 (F := Ideal) x12 = wrT 0 x12 := rfl
theorem v42_eq : val_main_v42 (F := Ideal) x13 = wlC 0 x13 := rfl
theorem v44_eq : val_main_v44 (F := Ideal) x14 = blC 0 x14 := rfl
theorem v46_eq : val_main_v46 (F := Ideal) x15 = wrC 0 x15 := rfl
theorem v77_eq : val_main_v77 (F := Ideal) x10 = wlT 1 x10 := rfl
theorem v79_eq : val_main_v79 (F := Ideal) x11 = blT 1 x11 := rfl
theorem v81_eq : val_main_v81 (F := Ideal) x12 = wrT 1 x12 := rfl
theorem v108_eq : val_main_v108 (F := Ideal) x13 = wlC 1 x13 := rfl
theorem v110_eq : val_main_v110 (F := Ideal) x14 = blC 1 x14 := rfl
theorem v112_eq : val_main_v112 (F := Ideal) x15 = wrC 1 x15 := rfl
theorem v174_eq : val_main_v174 (F := Ideal) x13 = wlC 2 x13 := rfl
theorem v176_eq : val_main_v176 (F := Ideal) x14 = blC 2 x14 := rfl
theorem v178_eq : val_main_v178 (F := Ideal) x15 = wrC 2 x15 := rfl

/-- The reference's result is the dividing network of the pieces. -/
theorem ref_out : val_main_v216 (F := Ideal) x0 x1 x2 x3 x4 x5 x6 x7 x8 x9 x10 x11 x12 x13 x14 x15 x16 x17 x18 x19 =
    netDiv (aggT x2 x3) (aggC x4 x5) (fun j => max (colOf (cntT x3) j) 1) (fun j => max (colOf (cntC x5) j) 1)
      (linRelu x0 x6 (rowOf x7)) (linRelu x1 x8 (rowOf x9))
      (wlT 0 x10) (rowOf (blT 0 x11)) (wrT 0 x12) (wlC 0 x13) (rowOf (blC 0 x14)) (wrC 0 x15)
      (wlT 1 x10) (rowOf (blT 1 x11)) (wrT 1 x12) (wlC 1 x13) (rowOf (blC 1 x14)) (wrC 1 x15)
      (wlC 2 x13) (rowOf (blC 2 x14)) (wrC 2 x15)
      x16 (rowOf x17) x18 (rowOf x19) := by
  rw [v216_eq, v205_eq, v188_eq, v194_eq, v139_eq, v141_eq, v122_eq, v128_eq, v91_eq, v97_eq, v73_eq, v75_eq,
    v56_eq, v62_eq, v25_eq, v31_eq, v4_eq, v9_eq,
    v11_eq, v13_eq, v15_eq, v42_eq, v44_eq, v46_eq, v77_eq, v79_eq, v81_eq, v108_eq, v110_eq, v112_eq, v174_eq, v176_eq, v178_eq]
  rfl

end Stages

end Cert.ReferenceIdeal.RefValue

end
-- ==== Proof.KHost.lean ====
/-
  Three host layout facts, at the exact extended-real values. A length-n vector reshaped to one row of n
  is the vector as a one-row matrix. The reciprocal column a host computes — one divided, position by
  position, by the maximum of a count and one, then given a second axis of extent one — holds at row r the
  quotient 1 / max(count r, 1).
-/
import proofs.«178321_j61770219651569_2_alg».proof.Proof.RefStages
import Idealize.ShloMosaic.Lib.ValueLayout
import Idealize.ShloMosaic.Lib.Pipeline.Value

noncomputable section

namespace Cert.Sage

open Idealize.ShloMosaic Idealize.ShloMosaic.ValueIdx

/-- A length-n vector cast to shape [1, n] is the vector as a one-row matrix. -/
theorem reshape_rowOf {n : ℕ} (b : (⟨1, ![n]⟩ : Shape).Idx → EReal) (h : (⟨1, ![n]⟩ : Shape).ShapeCasts ⟨2, ![1, n]⟩) :
    shapeCast ⟨2, ![1, n]⟩ b h = rowOf b := by
  funext i
  obtain ⟨u, k, rfl⟩ : ∃ (u : Fin 1) (k : Fin n), i = ix2 u k := ⟨i 0, i 1, eq_ix2 i⟩
  rw [shapeCast_a_1a_apply]
  rfl

/-- The host's reciprocal column of a count: at row r, one over the maximum of the count and one. -/
theorem hostRecipCol {M : ℕ} (hc : (⟨1, ![M]⟩ : Shape).BroadcastsInDim ⟨2, ![M, 1]⟩ ![0])
    (h0 : (⟨0, ![]⟩ : Shape).BroadcastsInDim ⟨1, ![M]⟩ ![]) (cnt : FVec Ideal ⟨1, ![M]⟩ .f32) :
    broadcastInDim ⟨2, ![M, 1]⟩ ![0] hc
        (Host.divf (F := Ideal) (broadcastInDim ⟨1, ![M]⟩ ![] h0 (constant (F := Ideal) ⟨0, ![]⟩ .f32 0x3F800000#32))
          (maximumf cnt (broadcastInDim ⟨1, ![M]⟩ ![] h0 (constant (F := Ideal) ⟨0, ![]⟩ .f32 0x3F800000#32))))
      = fun j => Ideal.div 1 (max (colOf cnt j) 1) := by
  funext j
  obtain ⟨r, z, rfl⟩ : ∃ (r : Fin M) (z : Fin 1), j = ix2 r z := ⟨j 0, j 1, eq_ix2 j⟩
  rw [broadcastInDim_apply ![0] hc _ (ix2 r z) (ix1 r) (fun a => ?_)]
  · show Ideal.div (broadcastInDim ⟨1, ![M]⟩ ![] h0 (constant (F := Ideal) ⟨0, ![]⟩ .f32 0x3F800000#32) (ix1 r))
        (max (cnt (ix1 r)) (broadcastInDim ⟨1, ![M]⟩ ![] h0 (constant (F := Ideal) ⟨0, ![]⟩ .f32 0x3F800000#32) (ix1 r)))
      = Ideal.div 1 (max (cnt (ix1 r)) 1)
    rw [oneBcast_apply]
  · match a with
    | ⟨0, _⟩ =>
      show r.val = if M = 1 then 0 else r.val
      split
      · have := r.isLt; omega
      · rfl

end Cert.Sage

end
-- ==== Proof.KChain.lean ====
/-
  The kernel program's result, boundary by boundary.

  The program alternates stretches of host operations with seven regions. Named here are the values it
  computes on the way — the two projections, the two reciprocal count columns, and the rows after each
  update — as functions of the argument arrays, built from the position-by-position functions of `SageSpec`
  and from the aggregation, count and weight-slice operations both programs share. For each boundary the
  buffers still to be read are shown to hold their named values: a region's output by that region's
  whole-array lemma with its operands rewritten to their names, a host result by reading the stretch's
  operations, anything else by being carried unchanged. The last region's output is the network
  `netMul` of the argument arrays.
-/
import proofs.«178321_j61770219651569_2_alg».proof.Proof.Gen.KernelIdeal.Frame
import proofs.«178321_j61770219651569_2_alg».proof.Proof.KTactics
import proofs.«178321_j61770219651569_2_alg».proof.Proof.KCarryA
import proofs.«178321_j61770219651569_2_alg».proof.Proof.KCarryB
import proofs.«178321_j61770219651569_2_alg».proof.Proof.KCarryC
import proofs.«178321_j61770219651569_2_alg».proof.Proof.KReg0
import proofs.«178321_j61770219651569_2_alg».proof.Proof.KReg1
import proofs.«178321_j61770219651569_2_alg».proof.Proof.KReg2
import proofs.«178321_j61770219651569_2_alg».proof.Proof.KReg3
import proofs.«178321_j61770219651569_2_alg».proof.Proof.KReg4
import proofs.«178321_j61770219651569_2_alg».proof.Proof.KReg5
import proofs.«178321_j61770219651569_2_alg».proof.Proof.KReg6
import proofs.«178321_j61770219651569_2_alg».proof.Proof.RefNet
import proofs.«178321_j61770219651569_2_alg».proof.Proof.KHost
import proofs.«178321_j61770219651569_2_alg».proof.Proof.SageModel
import Idealize.ShloMosaic.Lib.ValueLayout
import Idealize.ShloMosaic.Lib.Pipeline.Value

set_option maxRecDepth 16384

noncomputable section

open scoped BigOperators

namespace Cert.KernelIdeal.KChain

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo Cert.Sage
open Cert.ReferenceIdeal.RefValue (aggT aggC cntT cntC wlT blT wrT wlC blC wrC)

variable (m : (ℓ : Loc nD τ sig) → Buf (Elt Ideal) ℓ) (ρ : Dev nD → PrngReg)

/-! ## The named values -/

/-- An argument array as launched. -/
abbrev arg (c : Dev nD) (b : Ref sig .tc) : Buf (Elt Ideal) ((c : Thread nD τ).loc b) := m ((c : Thread nD τ).loc b)

/-- The compound projection. -/
def xc0 (c : Dev nD) : Mat 100000 64 := linRelu (arg m c main_arg0) (arg m c main_arg6) (rowOf (arg m c main_arg7))
/-- The target projection. -/
def xt0 (c : Dev nD) : Mat 5000 64 := linRelu (arg m c main_arg1) (arg m c main_arg8) (rowOf (arg m c main_arg9))
/-- One over the number of edges into each target row (at least one). -/
def invT (c : Dev nD) : Mat 5000 1 := fun j => Ideal.div 1 (max (colOf (cntT (arg m c main_arg3)) j) 1)
/-- One over the number of edges into each compound row (at least one). -/
def invC (c : Dev nD) : Mat 100000 1 := fun j => Ideal.div 1 (max (colOf (cntC (arg m c main_arg5)) j) 1)
/-- The target rows after round 0. -/
def xt1 (c : Dev nD) : Mat 5000 64 :=
  combine (aggT (arg m c main_arg2) (arg m c main_arg3) (xc0 m c)) (invT m c) (xt0 m c) (wlT 0 (arg m c main_arg10)) (rowOf (blT 0 (arg m c main_arg11))) (wrT 0 (arg m c main_arg12))
/-- The compound rows after round 0. -/
def xc1 (c : Dev nD) : Mat 100000 64 :=
  combine (aggC (arg m c main_arg4) (arg m c main_arg5) (xt0 m c)) (invC m c) (xc0 m c) (wlC 0 (arg m c main_arg13)) (rowOf (blC 0 (arg m c main_arg14))) (wrC 0 (arg m c main_arg15))
/-- The target rows after round 1. -/
def xt2 (c : Dev nD) : Mat 5000 64 :=
  combine (aggT (arg m c main_arg2) (arg m c main_arg3) (xc1 m c)) (invT m c) (xt1 m c) (wlT 1 (arg m c main_arg10)) (rowOf (blT 1 (arg m c main_arg11))) (wrT 1 (arg m c main_arg12))
/-- The compound rows after round 1. -/
def xc2 (c : Dev nD) : Mat 100000 64 :=
  combine (aggC (arg m c main_arg4) (arg m c main_arg5) (xt1 m c)) (invC m c) (xc1 m c) (wlC 1 (arg m c main_arg13)) (rowOf (blC 1 (arg m c main_arg14))) (wrC 1 (arg m c main_arg15))
/-- The result: the read-out of the compound rows after round 2. -/
def out (c : Dev nD) : Mat 100000 1 :=
  head (combine (aggC (arg m c main_arg4) (arg m c main_arg5) (xt2 m c)) (invC m c) (xc2 m c) (wlC 2 (arg m c main_arg13)) (rowOf (blC 2 (arg m c main_arg14))) (wrC 2 (arg m c main_arg15)))
    (arg m c main_arg16) (rowOf (arg m c main_arg17)) (arg m c main_arg18) (rowOf (arg m c main_arg19))

/-- The result is the multiplying network of the argument arrays. -/
theorem out_eq (c : Dev nD) : out m c =
    netMul (aggT (arg m c main_arg2) (arg m c main_arg3)) (aggC (arg m c main_arg4) (arg m c main_arg5))
      (fun j => Ideal.div 1 (max (colOf (cntT (arg m c main_arg3)) j) 1)) (fun j => Ideal.div 1 (max (colOf (cntC (arg m c main_arg5)) j) 1))
      (linRelu (arg m c main_arg0) (arg m c main_arg6) (rowOf (arg m c main_arg7))) (linRelu (arg m c main_arg1) (arg m c main_arg8) (rowOf (arg m c main_arg9)))
      (wlT 0 (arg m c main_arg10)) (rowOf (blT 0 (arg m c main_arg11))) (wrT 0 (arg m c main_arg12)) (wlC 0 (arg m c main_arg13)) (rowOf (blC 0 (arg m c main_arg14))) (wrC 0 (arg m c main_arg15))
      (wlT 1 (arg m c main_arg10)) (rowOf (blT 1 (arg m c main_arg11))) (wrT 1 (arg m c main_arg12)) (wlC 1 (arg m c main_arg13)) (rowOf (blC 1 (arg m c main_arg14))) (wrC 1 (arg m c main_arg15))
      (wlC 2 (arg m c main_arg13)) (rowOf (blC 2 (arg m c main_arg14))) (wrC 2 (arg m c main_arg15))
      (arg m c main_arg16) (rowOf (arg m c main_arg17)) (arg m c main_arg18) (rowOf (arg m c main_arg19)) := rfl

/-! ## Boundary by boundary -/

theorem W1_main_v0 (c : Dev nD) : W1 m ρ c (Proc.devRef .tc main_v0) = rowOf (arg m c main_arg7) := by
  show StableHlo.after hostOps0 (W0 m ρ c) (Proc.devRef .tc main_v0) = _
  after_results_simp
  exact reshape_rowOf _ _
theorem W2_main_v1 (c : Dev nD) : W2 m ρ c (Proc.devRef .tc main_v1) = xc0 m c :=
  (W2_arr m ρ c 3).trans ((KVal0.final (V1 m ρ) c).trans (by
    rw [show V1 m ρ c main_arg0 = _ from W1_main_arg0 m ρ c,
      show V1 m ρ c main_arg6 = _ from W1_main_arg6 m ρ c,
      show V1 m ρ c main_v0 = _ from W1_main_v0 m ρ c]
    rfl))
theorem W3_main_v1 (c : Dev nD) : W3 m ρ c (Proc.devRef .tc main_v1) = xc0 m c :=
  (show W3 m ρ c (Proc.devRef .tc main_v1) = W2 m ρ c (Proc.devRef .tc main_v1) by host_keep hostOps1).trans (W2_main_v1 m ρ c)
theorem W4_main_v1 (c : Dev nD) : W4 m ρ c (Proc.devRef .tc main_v1) = xc0 m c :=
  (W4_of_ne m ρ c main_v1 (by decide)).trans (W3_main_v1 m ρ c)
theorem W5_main_v1 (c : Dev nD) : W5 m ρ c (Proc.devRef .tc main_v1) = xc0 m c :=
  (show W5 m ρ c (Proc.devRef .tc main_v1) = W4 m ρ c (Proc.devRef .tc main_v1) by host_keep hostOps2).trans (W4_main_v1 m ρ c)
theorem W6_main_v1 (c : Dev nD) : W6 m ρ c (Proc.devRef .tc main_v1) = xc0 m c :=
  (W6_of_ne m ρ c main_v1 (by decide)).trans (W5_main_v1 m ρ c)
theorem W7_main_v1 (c : Dev nD) : W7 m ρ c (Proc.devRef .tc main_v1) = xc0 m c :=
  (show W7 m ρ c (Proc.devRef .tc main_v1) = W6 m ρ c (Proc.devRef .tc main_v1) by host_keep hostOps3).trans (W6_main_v1 m ρ c)
theorem W3_main_v2 (c : Dev nD) : W3 m ρ c (Proc.devRef .tc main_v2) = rowOf (arg m c main_arg9) := by
  show StableHlo.after hostOps1 (W2 m ρ c) (Proc.devRef .tc main_v2) = _
  after_results_simp
  rw [W2_main_arg9 m ρ c]
  exact reshape_rowOf _ _
theorem W4_main_v3 (c : Dev nD) : W4 m ρ c (Proc.devRef .tc main_v3) = xt0 m c :=
  (W4_arr m ρ c 3).trans ((KVal1.final (V3 m ρ) c).trans (by
    rw [show V3 m ρ c main_arg1 = _ from W3_main_arg1 m ρ c,
      show V3 m ρ c main_arg8 = _ from W3_main_arg8 m ρ c,
      show V3 m ρ c main_v2 = _ from W3_main_v2 m ρ c]
    rfl))
theorem W5_main_v3 (c : Dev nD) : W5 m ρ c (Proc.devRef .tc main_v3) = xt0 m c :=
  (show W5 m ρ c (Proc.devRef .tc main_v3) = W4 m ρ c (Proc.devRef .tc main_v3) by host_keep hostOps2).trans (W4_main_v3 m ρ c)
theorem W6_main_v3 (c : Dev nD) : W6 m ρ c (Proc.devRef .tc main_v3) = xt0 m c :=
  ((W6_arr m ρ c 2).trans (((dat2 (V5 m ρ) c).arrAt_in 2 rfl _).trans (A_eq2 (V5 m ρ) c 2))).trans (W5_main_v3 m ρ c)
theorem W5_main_v12 (c : Dev nD) : W5 m ρ c (Proc.devRef .tc main_v12) = invT m c := by
  show StableHlo.after hostOps2 (W4 m ρ c) (Proc.devRef .tc main_v12) = _
  after_results_simp
  rw [W4_main_arg3 m ρ c]
  exact hostRecipCol _ _ _
theorem W5_main_v21 (c : Dev nD) : W5 m ρ c (Proc.devRef .tc main_v21) = invC m c := by
  show StableHlo.after hostOps2 (W4 m ρ c) (Proc.devRef .tc main_v21) = _
  after_results_simp
  rw [W4_main_arg5 m ρ c]
  exact hostRecipCol _ _ _
theorem W5_main_v31 (c : Dev nD) : W5 m ρ c (Proc.devRef .tc main_v31) = aggT (arg m c main_arg2) (arg m c main_arg3) (xc0 m c) := by
  show StableHlo.after hostOps2 (W4 m ρ c) (Proc.devRef .tc main_v31) = _
  after_results_simp
  rw [W4_main_arg2 m ρ c, W4_main_arg3 m ρ c, W4_main_v1 m ρ c]
  rfl
theorem W5_main_v33 (c : Dev nD) : W5 m ρ c (Proc.devRef .tc main_v33) = wlT 0 (arg m c main_arg10) := by
  show StableHlo.after hostOps2 (W4 m ρ c) (Proc.devRef .tc main_v33) = _
  after_results_simp
  rw [W4_main_arg10 m ρ c]
  rfl
theorem W5_main_v38 (c : Dev nD) : W5 m ρ c (Proc.devRef .tc main_v38) = rowOf (blT 0 (arg m c main_arg11)) := by
  show StableHlo.after hostOps2 (W4 m ρ c) (Proc.devRef .tc main_v38) = _
  after_results_simp
  rw [W4_main_arg11 m ρ c]
  exact reshape_rowOf _ _
theorem W5_main_v37 (c : Dev nD) : W5 m ρ c (Proc.devRef .tc main_v37) = wrT 0 (arg m c main_arg12) := by
  show StableHlo.after hostOps2 (W4 m ρ c) (Proc.devRef .tc main_v37) = _
  after_results_simp
  rw [W4_main_arg12 m ρ c]
  rfl
theorem W6_main_v39 (c : Dev nD) : W6 m ρ c (Proc.devRef .tc main_v39) = xt1 m c :=
  (W6_arr m ρ c 6).trans ((KVal2.final (V5 m ρ) c).trans (by
    rw [show V5 m ρ c main_v31 = _ from W5_main_v31 m ρ c,
      show V5 m ρ c main_v12 = _ from W5_main_v12 m ρ c,
      show V5 m ρ c main_v3 = _ from W5_main_v3 m ρ c,
      show V5 m ρ c main_v33 = _ from W5_main_v33 m ρ c,
      show V5 m ρ c main_v38 = _ from W5_main_v38 m ρ c,
      show V5 m ρ c main_v37 = _ from W5_main_v37 m ρ c]
    rfl))
theorem W6_main_v12 (c : Dev nD) : W6 m ρ c (Proc.devRef .tc main_v12) = invT m c :=
  ((W6_arr m ρ c 1).trans (((dat2 (V5 m ρ) c).arrAt_in 1 rfl _).trans (A_eq2 (V5 m ρ) c 1))).trans (W5_main_v12 m ρ c)
theorem W7_main_v12 (c : Dev nD) : W7 m ρ c (Proc.devRef .tc main_v12) = invT m c :=
  (show W7 m ρ c (Proc.devRef .tc main_v12) = W6 m ρ c (Proc.devRef .tc main_v12) by host_keep hostOps3).trans (W6_main_v12 m ρ c)
theorem W8_main_v12 (c : Dev nD) : W8 m ρ c (Proc.devRef .tc main_v12) = invT m c :=
  (W8_of_ne m ρ c main_v12 (by decide)).trans (W7_main_v12 m ρ c)
theorem W9_main_v12 (c : Dev nD) : W9 m ρ c (Proc.devRef .tc main_v12) = invT m c :=
  (show W9 m ρ c (Proc.devRef .tc main_v12) = W8 m ρ c (Proc.devRef .tc main_v12) by host_keep hostOps4).trans (W8_main_v12 m ρ c)
theorem W6_main_v21 (c : Dev nD) : W6 m ρ c (Proc.devRef .tc main_v21) = invC m c :=
  (W6_of_ne m ρ c main_v21 (by decide)).trans (W5_main_v21 m ρ c)
theorem W7_main_v21 (c : Dev nD) : W7 m ρ c (Proc.devRef .tc main_v21) = invC m c :=
  (show W7 m ρ c (Proc.devRef .tc main_v21) = W6 m ρ c (Proc.devRef .tc main_v21) by host_keep hostOps3).trans (W6_main_v21 m ρ c)
theorem W8_main_v21 (c : Dev nD) : W8 m ρ c (Proc.devRef .tc main_v21) = invC m c :=
  ((W8_arr m ρ c 1).trans (((dat3 (V7 m ρ) c).arrAt_in 1 rfl _).trans (A_eq3 (V7 m ρ) c 1))).trans (W7_main_v21 m ρ c)
theorem W9_main_v21 (c : Dev nD) : W9 m ρ c (Proc.devRef .tc main_v21) = invC m c :=
  (show W9 m ρ c (Proc.devRef .tc main_v21) = W8 m ρ c (Proc.devRef .tc main_v21) by host_keep hostOps4).trans (W8_main_v21 m ρ c)
theorem W10_main_v21 (c : Dev nD) : W10 m ρ c (Proc.devRef .tc main_v21) = invC m c :=
  (W10_of_ne m ρ c main_v21 (by decide)).trans (W9_main_v21 m ρ c)
theorem W11_main_v21 (c : Dev nD) : W11 m ρ c (Proc.devRef .tc main_v21) = invC m c :=
  (show W11 m ρ c (Proc.devRef .tc main_v21) = W10 m ρ c (Proc.devRef .tc main_v21) by host_keep hostOps5).trans (W10_main_v21 m ρ c)
theorem W12_main_v21 (c : Dev nD) : W12 m ρ c (Proc.devRef .tc main_v21) = invC m c :=
  ((W12_arr m ρ c 1).trans (((dat5 (V11 m ρ) c).arrAt_in 1 rfl _).trans (A_eq5 (V11 m ρ) c 1))).trans (W11_main_v21 m ρ c)
theorem W13_main_v21 (c : Dev nD) : W13 m ρ c (Proc.devRef .tc main_v21) = invC m c :=
  (show W13 m ρ c (Proc.devRef .tc main_v21) = W12 m ρ c (Proc.devRef .tc main_v21) by host_keep hostOps6).trans (W12_main_v21 m ρ c)
theorem W7_main_v39 (c : Dev nD) : W7 m ρ c (Proc.devRef .tc main_v39) = xt1 m c :=
  (show W7 m ρ c (Proc.devRef .tc main_v39) = W6 m ρ c (Proc.devRef .tc main_v39) by host_keep hostOps3).trans (W6_main_v39 m ρ c)
theorem W8_main_v39 (c : Dev nD) : W8 m ρ c (Proc.devRef .tc main_v39) = xt1 m c :=
  (W8_of_ne m ρ c main_v39 (by decide)).trans (W7_main_v39 m ρ c)
theorem W9_main_v39 (c : Dev nD) : W9 m ρ c (Proc.devRef .tc main_v39) = xt1 m c :=
  (show W9 m ρ c (Proc.devRef .tc main_v39) = W8 m ρ c (Proc.devRef .tc main_v39) by host_keep hostOps4).trans (W8_main_v39 m ρ c)
theorem W10_main_v39 (c : Dev nD) : W10 m ρ c (Proc.devRef .tc main_v39) = xt1 m c :=
  ((W10_arr m ρ c 2).trans (((dat4 (V9 m ρ) c).arrAt_in 2 rfl _).trans (A_eq4 (V9 m ρ) c 2))).trans (W9_main_v39 m ρ c)
theorem W7_main_v49 (c : Dev nD) : W7 m ρ c (Proc.devRef .tc main_v49) = aggC (arg m c main_arg4) (arg m c main_arg5) (xt0 m c) := by
  show StableHlo.after hostOps3 (W6 m ρ c) (Proc.devRef .tc main_v49) = _
  after_results_simp
  rw [W6_main_arg4 m ρ c, W6_main_arg5 m ρ c, W6_main_v3 m ρ c]
  rfl
theorem W7_main_v51 (c : Dev nD) : W7 m ρ c (Proc.devRef .tc main_v51) = wlC 0 (arg m c main_arg13) := by
  show StableHlo.after hostOps3 (W6 m ρ c) (Proc.devRef .tc main_v51) = _
  after_results_simp
  rw [W6_main_arg13 m ρ c]
  rfl
theorem W7_main_v56 (c : Dev nD) : W7 m ρ c (Proc.devRef .tc main_v56) = rowOf (blC 0 (arg m c main_arg14)) := by
  show StableHlo.after hostOps3 (W6 m ρ c) (Proc.devRef .tc main_v56) = _
  after_results_simp
  rw [W6_main_arg14 m ρ c]
  exact reshape_rowOf _ _
theorem W7_main_v55 (c : Dev nD) : W7 m ρ c (Proc.devRef .tc main_v55) = wrC 0 (arg m c main_arg15) := by
  show StableHlo.after hostOps3 (W6 m ρ c) (Proc.devRef .tc main_v55) = _
  after_results_simp
  rw [W6_main_arg15 m ρ c]
  rfl
theorem W8_main_v57 (c : Dev nD) : W8 m ρ c (Proc.devRef .tc main_v57) = xc1 m c :=
  (W8_arr m ρ c 6).trans ((KVal3.final (V7 m ρ) c).trans (by
    rw [show V7 m ρ c main_v49 = _ from W7_main_v49 m ρ c,
      show V7 m ρ c main_v21 = _ from W7_main_v21 m ρ c,
      show V7 m ρ c main_v1 = _ from W7_main_v1 m ρ c,
      show V7 m ρ c main_v51 = _ from W7_main_v51 m ρ c,
      show V7 m ρ c main_v56 = _ from W7_main_v56 m ρ c,
      show V7 m ρ c main_v55 = _ from W7_main_v55 m ρ c]
    rfl))
theorem W9_main_v57 (c : Dev nD) : W9 m ρ c (Proc.devRef .tc main_v57) = xc1 m c :=
  (show W9 m ρ c (Proc.devRef .tc main_v57) = W8 m ρ c (Proc.devRef .tc main_v57) by host_keep hostOps4).trans (W8_main_v57 m ρ c)
theorem W10_main_v57 (c : Dev nD) : W10 m ρ c (Proc.devRef .tc main_v57) = xc1 m c :=
  (W10_of_ne m ρ c main_v57 (by decide)).trans (W9_main_v57 m ρ c)
theorem W11_main_v57 (c : Dev nD) : W11 m ρ c (Proc.devRef .tc main_v57) = xc1 m c :=
  (show W11 m ρ c (Proc.devRef .tc main_v57) = W10 m ρ c (Proc.devRef .tc main_v57) by host_keep hostOps5).trans (W10_main_v57 m ρ c)
theorem W9_main_v67 (c : Dev nD) : W9 m ρ c (Proc.devRef .tc main_v67) = aggT (arg m c main_arg2) (arg m c main_arg3) (xc1 m c) := by
  show StableHlo.after hostOps4 (W8 m ρ c) (Proc.devRef .tc main_v67) = _
  after_results_simp
  rw [W8_main_arg2 m ρ c, W8_main_arg3 m ρ c, W8_main_v57 m ρ c]
  rfl
theorem W9_main_v69 (c : Dev nD) : W9 m ρ c (Proc.devRef .tc main_v69) = wlT 1 (arg m c main_arg10) := by
  show StableHlo.after hostOps4 (W8 m ρ c) (Proc.devRef .tc main_v69) = _
  after_results_simp
  rw [W8_main_arg10 m ρ c]
  rfl
theorem W9_main_v74 (c : Dev nD) : W9 m ρ c (Proc.devRef .tc main_v74) = rowOf (blT 1 (arg m c main_arg11)) := by
  show StableHlo.after hostOps4 (W8 m ρ c) (Proc.devRef .tc main_v74) = _
  after_results_simp
  rw [W8_main_arg11 m ρ c]
  exact reshape_rowOf _ _
theorem W9_main_v73 (c : Dev nD) : W9 m ρ c (Proc.devRef .tc main_v73) = wrT 1 (arg m c main_arg12) := by
  show StableHlo.after hostOps4 (W8 m ρ c) (Proc.devRef .tc main_v73) = _
  after_results_simp
  rw [W8_main_arg12 m ρ c]
  rfl
theorem W10_main_v75 (c : Dev nD) : W10 m ρ c (Proc.devRef .tc main_v75) = xt2 m c :=
  (W10_arr m ρ c 6).trans ((KVal4.final (V9 m ρ) c).trans (by
    rw [show V9 m ρ c main_v67 = _ from W9_main_v67 m ρ c,
      show V9 m ρ c main_v12 = _ from W9_main_v12 m ρ c,
      show V9 m ρ c main_v39 = _ from W9_main_v39 m ρ c,
      show V9 m ρ c main_v69 = _ from W9_main_v69 m ρ c,
      show V9 m ρ c main_v74 = _ from W9_main_v74 m ρ c,
      show V9 m ρ c main_v73 = _ from W9_main_v73 m ρ c]
    rfl))
theorem W11_main_v75 (c : Dev nD) : W11 m ρ c (Proc.devRef .tc main_v75) = xt2 m c :=
  (show W11 m ρ c (Proc.devRef .tc main_v75) = W10 m ρ c (Proc.devRef .tc main_v75) by host_keep hostOps5).trans (W10_main_v75 m ρ c)
theorem W12_main_v75 (c : Dev nD) : W12 m ρ c (Proc.devRef .tc main_v75) = xt2 m c :=
  (W12_of_ne m ρ c main_v75 (by decide)).trans (W11_main_v75 m ρ c)
theorem W11_main_v85 (c : Dev nD) : W11 m ρ c (Proc.devRef .tc main_v85) = aggC (arg m c main_arg4) (arg m c main_arg5) (xt1 m c) := by
  show StableHlo.after hostOps5 (W10 m ρ c) (Proc.devRef .tc main_v85) = _
  after_results_simp
  rw [W10_main_arg4 m ρ c, W10_main_arg5 m ρ c, W10_main_v39 m ρ c]
  rfl
theorem W11_main_v87 (c : Dev nD) : W11 m ρ c (Proc.devRef .tc main_v87) = wlC 1 (arg m c main_arg13) := by
  show StableHlo.after hostOps5 (W10 m ρ c) (Proc.devRef .tc main_v87) = _
  after_results_simp
  rw [W10_main_arg13 m ρ c]
  rfl
theorem W11_main_v92 (c : Dev nD) : W11 m ρ c (Proc.devRef .tc main_v92) = rowOf (blC 1 (arg m c main_arg14)) := by
  show StableHlo.after hostOps5 (W10 m ρ c) (Proc.devRef .tc main_v92) = _
  after_results_simp
  rw [W10_main_arg14 m ρ c]
  exact reshape_rowOf _ _
theorem W11_main_v91 (c : Dev nD) : W11 m ρ c (Proc.devRef .tc main_v91) = wrC 1 (arg m c main_arg15) := by
  show StableHlo.after hostOps5 (W10 m ρ c) (Proc.devRef .tc main_v91) = _
  after_results_simp
  rw [W10_main_arg15 m ρ c]
  rfl
theorem W12_main_v93 (c : Dev nD) : W12 m ρ c (Proc.devRef .tc main_v93) = xc2 m c :=
  (W12_arr m ρ c 6).trans ((KVal5.final (V11 m ρ) c).trans (by
    rw [show V11 m ρ c main_v85 = _ from W11_main_v85 m ρ c,
      show V11 m ρ c main_v21 = _ from W11_main_v21 m ρ c,
      show V11 m ρ c main_v57 = _ from W11_main_v57 m ρ c,
      show V11 m ρ c main_v87 = _ from W11_main_v87 m ρ c,
      show V11 m ρ c main_v92 = _ from W11_main_v92 m ρ c,
      show V11 m ρ c main_v91 = _ from W11_main_v91 m ρ c]
    rfl))
theorem W13_main_v93 (c : Dev nD) : W13 m ρ c (Proc.devRef .tc main_v93) = xc2 m c :=
  (show W13 m ρ c (Proc.devRef .tc main_v93) = W12 m ρ c (Proc.devRef .tc main_v93) by host_keep hostOps6).trans (W12_main_v93 m ρ c)
theorem W13_main_v103 (c : Dev nD) : W13 m ρ c (Proc.devRef .tc main_v103) = aggC (arg m c main_arg4) (arg m c main_arg5) (xt2 m c) := by
  show StableHlo.after hostOps6 (W12 m ρ c) (Proc.devRef .tc main_v103) = _
  after_results_simp
  rw [W12_main_arg4 m ρ c, W12_main_arg5 m ρ c, W12_main_v75 m ρ c]
  rfl
theorem W13_main_v105 (c : Dev nD) : W13 m ρ c (Proc.devRef .tc main_v105) = wlC 2 (arg m c main_arg13) := by
  show StableHlo.after hostOps6 (W12 m ρ c) (Proc.devRef .tc main_v105) = _
  after_results_simp
  rw [W12_main_arg13 m ρ c]
  rfl
theorem W13_main_v110 (c : Dev nD) : W13 m ρ c (Proc.devRef .tc main_v110) = rowOf (blC 2 (arg m c main_arg14)) := by
  show StableHlo.after hostOps6 (W12 m ρ c) (Proc.devRef .tc main_v110) = _
  after_results_simp
  rw [W12_main_arg14 m ρ c]
  exact reshape_rowOf _ _
theorem W13_main_v109 (c : Dev nD) : W13 m ρ c (Proc.devRef .tc main_v109) = wrC 2 (arg m c main_arg15) := by
  show StableHlo.after hostOps6 (W12 m ρ c) (Proc.devRef .tc main_v109) = _
  after_results_simp
  rw [W12_main_arg15 m ρ c]
  rfl
theorem W13_main_v111 (c : Dev nD) : W13 m ρ c (Proc.devRef .tc main_v111) = rowOf (arg m c main_arg17) := by
  show StableHlo.after hostOps6 (W12 m ρ c) (Proc.devRef .tc main_v111) = _
  after_results_simp
  rw [W12_main_arg17 m ρ c]
  exact reshape_rowOf _ _
theorem W13_main_v112 (c : Dev nD) : W13 m ρ c (Proc.devRef .tc main_v112) = rowOf (arg m c main_arg19) := by
  show StableHlo.after hostOps6 (W12 m ρ c) (Proc.devRef .tc main_v112) = _
  after_results_simp
  rw [W12_main_arg19 m ρ c]
  exact reshape_rowOf _ _
theorem W14_main_v113 (c : Dev nD) : W14 m ρ c (Proc.devRef .tc main_v113) = out m c :=
  (W14_arr m ρ c 10).trans ((KVal6.final (V13 m ρ) c).trans (by
    rw [show V13 m ρ c main_v103 = _ from W13_main_v103 m ρ c,
      show V13 m ρ c main_v21 = _ from W13_main_v21 m ρ c,
      show V13 m ρ c main_v93 = _ from W13_main_v93 m ρ c,
      show V13 m ρ c main_v105 = _ from W13_main_v105 m ρ c,
      show V13 m ρ c main_v110 = _ from W13_main_v110 m ρ c,
      show V13 m ρ c main_v109 = _ from W13_main_v109 m ρ c,
      show V13 m ρ c main_arg16 = _ from W13_main_arg16 m ρ c,
      show V13 m ρ c main_v111 = _ from W13_main_v111 m ρ c,
      show V13 m ρ c main_arg18 = _ from W13_main_arg18 m ρ c,
      show V13 m ρ c main_v112 = _ from W13_main_v112 m ρ c]
    rfl))

end Cert.KernelIdeal.KChain

end
-- ==== Proof.lean ====
/-
  The certificate of a three-round two-sided mean-aggregation graph network with a two-product read-out:
  a program of seven row-blocked regions among host gathers and scatter-adds, against a whole-array
  reference, equal at the exact extended-real values.

  Both programs project the two kinds of rows (a product plus a bias, cut below at zero), then three times
  update each kind from the other kind's aggregated rows, and read the compound rows out through two
  products. They differ in three ways, none of which changes a value on the extended reals. The blocked
  program computes every dense stage in blocks of rows; a stage reads, for row r of its result, only row r
  of its row-wise operands, and the blocks tile the rows, so each region leaves the whole-array stage. It
  multiplies each aggregated row by 1 / max(count, 1) where the reference divides by max(count, 1); the
  divisor is at least one, so it is not zero, and off zero the product with the quotient 1 / d is the
  quotient by d — at the infinities too, since the quotient is the product with the inverse there. It skips
  the last round's target update, which nothing reads, and computes the read-out inside the last region.
  Aggregation (index wrapping, row gather, scatter-add into zeros), the edge counts and the weight slices
  are the same host operations of the same arguments in both programs, and are never opened.

  The three frame claims are the generated frames (the reference's is its generated run with the result
  dropped); the idealization rewrote nothing. For the value claim the kernel's run is restated with the
  result buffer named at the last boundary of the run's fold (`KRun`), that buffer is computed boundary by
  boundary as the multiplying network of the argument arrays (`KChain`, over one whole-array lemma per
  region, `KReg0` … `KReg6`), the reference's generated run is the dividing network (`RefNet`), and the two
  networks agree (`SageModel`).
-/
import proofs.«178321_j61770219651569_2_alg».proof.Defs
import proofs.«178321_j61770219651569_2_alg».proof.Proof.Gen.Kernel
import proofs.«178321_j61770219651569_2_alg».proof.Proof.Gen.Kernel.Skeleton
import proofs.«178321_j61770219651569_2_alg».proof.Proof.Gen.Kernel.Launch
import proofs.«178321_j61770219651569_2_alg».proof.Proof.Gen.Kernel.Points
import proofs.«178321_j61770219651569_2_alg».proof.Proof.Gen.Kernel.Frame
import proofs.«178321_j61770219651569_2_alg».proof.Proof.Gen.KernelIdeal
import proofs.«178321_j61770219651569_2_alg».proof.Proof.Gen.KernelIdeal.Skeleton
import proofs.«178321_j61770219651569_2_alg».proof.Proof.Gen.KernelIdeal.Launch
import proofs.«178321_j61770219651569_2_alg».proof.Proof.Gen.KernelIdeal.Points
import proofs.«178321_j61770219651569_2_alg».proof.Proof.Gen.KernelIdeal.Frame
import proofs.«178321_j61770219651569_2_alg».proof.Proof.Gen.ReferenceIdeal
import proofs.«178321_j61770219651569_2_alg».proof.Proof.Gen.ReferenceIdeal.Run
import proofs.«178321_j61770219651569_2_alg».proof.Proof.Gen.ReferenceIdeal.Read
import proofs.«178321_j61770219651569_2_alg».proof.Proof.Gen.Pre_finite_inputs
import proofs.«178321_j61770219651569_2_alg».proof.Proof.KRun
import proofs.«178321_j61770219651569_2_alg».proof.Proof.KChain
import proofs.«178321_j61770219651569_2_alg».proof.Proof.RefNet
import proofs.«178321_j61770219651569_2_alg».proof.Proof.SageModel
import Idealize.ShloMosaic.Adequacy
import Idealize.ShloMosaic.Init

noncomputable section

namespace Cert.Proof

open Idealize.ShloMosaic Idealize.ShloMosaic.TcCoe Idealize.SL.Sem

/-- The word-level program runs and leaves its arguments. -/
theorem frame_k : Cert.frame_Kernel :=
  fun m ρ _ => Cert.Kernel.Gen.frame m ρ

/-- The idealized program runs and leaves its arguments. -/
theorem frame_ki : Cert.frame_KernelIdeal :=
  fun m ρ _ => Cert.KernelIdeal.Gen.frame m ρ

/-- The reference runs and leaves its arguments: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Both programs end at the same network of the argument arrays. -/
theorem algebraic : Cert.algebraic_KernelIdeal_ReferenceIdeal := by
  intro m ρ m' ρ' _ hagree
  refine ⟨fun c => Cert.KernelIdeal.KChain.out m c, ?_, ?_⟩
  · exact (θ_run Cert.KernelIdeal.defs _ _).mono
      (fun r h c => ⟨(h c).1.trans (Cert.KernelIdeal.KChain.W14_main_v113 m ρ c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    show Cert.ReferenceIdeal.Value.res_main_v216 m' c = Cert.KernelIdeal.KChain.out m c
    rw [Cert.ReferenceIdeal.Read.val_main_v216_eq, Cert.ReferenceIdeal.RefValue.ref_out,
      Cert.KernelIdeal.KChain.out_eq, Cert.Sage.netMul_recip,
      h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
